-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096 : Shape := ⟨2, ![4096, 4096]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4096x256 .f32) (main_arg1 : FVec F S4096x4096 .f32) (main_arg2 : FVec F S4096x4096 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  main_v13
-- ==== Kernel.lean ====
abbrev S4096x256 : Shape := ⟨2, ![4096, 256]⟩
abbrev S4096x4096 : Shape := ⟨2, ![4096, 4096]⟩
abbrev S256x256 : Shape := ⟨2, ![256, 256]⟩
abbrev S256x4096 : Shape := ⟨2, ![256, 4096]⟩

abbrev nBuf : Space → Nat
  | .hbm => 4
  | .vmem => 12
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S4096x4096, .f32⟩
  | .hbm, ⟨3, _⟩ => ⟨S4096x256, .f32⟩
  | .local _ .vmem, ⟨0, _⟩ => ⟨S256x256, .f32⟩
  | .local _ .vmem, ⟨1, _⟩ => ⟨S256x256, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x256, .f32⟩
  | .local _ .vmem, ⟨7, _⟩ => ⟨S256x256, .f32⟩
  | .local _ .vmem, ⟨8, _⟩ => ⟨S4096x4096, .bf16⟩
  | .local _ .vmem, ⟨9, _⟩ => ⟨S4096x256, .bf16⟩
  | .local _ .vmem, ⟨10, _⟩ => ⟨S4096x256, .bf16⟩
  | .local _ .vmem, ⟨11, _⟩ => ⟨S4096x256, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![7, 16], ![false, false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_off1 (i : grid0.Coords) : Fin 2 → Nat :=
  let arg1 : BitVec 32 := BitVec.ofNat 32 (i 1).val
  let c256_i32 : BitVec 32 := 256#32
  let v0 : BitVec 32 := Scalar.muli arg1 c256_i32
  let v28 : Index := Scalar.indexCast v0
  let c0_12 : Index := 0#32
  ![v28.toNat, 0]
def k0_cond2 (i : grid0.Coords) : BitVec 1 :=
  let arg0 : BitVec 32 := BitVec.ofNat 32 (i 0).val
  let c2_i32 : BitVec 32 := 2#32
  let c0_i32_1 : BitVec 32 := 0#32
  let v4 : BitVec 1 := Scalar.cmpi .eq c2_i32 c0_i32_1
  let c1_i32 : BitVec 32 := 1#32
  let v5 : BitVec 32 := Scalar.select v4 c1_i32 c2_i32
  let v6 : BitVec 32 := Scalar.remsi arg0 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c1_i32_5 : BitVec 32 := 1#32
  let v14 : BitVec 1 := Scalar.cmpi .eq v13 c1_i32_5
  let v15 : BitVec 32 := Scalar.extui v14
  let c0_i32_6 : BitVec 32 := 0#32
  let v16 : BitVec 1 := Scalar.cmpi .ne v15 c0_i32_6
  v16

def k0_off2 (i : grid0.Coords) : Fin 2 → Nat :=
  let arg1 : BitVec 32 := BitVec.ofNat 32 (i 1).val
  let c256_i32 : BitVec 32 := 256#32
  let v0 : BitVec 32 := Scalar.muli arg1 c256_i32
  let v31 : Index := Scalar.indexCast v0
  let c0_14 : Index := 0#32
  ![v31.toNat, 0]
def k0_cond3 (i : grid0.Coords) : BitVec 1 :=
  let arg0 : BitVec 32 := BitVec.ofNat 32 (i 0).val
  let c2_i32_7 : BitVec 32 := 2#32
  let v17 : BitVec 1 := Scalar.cmpi .eq arg0 c2_i32_7
  let v18 : BitVec 32 := Scalar.extui v17
  let c0_i32_8 : BitVec 32 := 0#32
  let v19 : BitVec 1 := Scalar.cmpi .ne v18 c0_i32_8
  v19

def k0_off3 (i : grid0.Coords) : Fin 2 → Nat :=
  let arg1 : BitVec 32 := BitVec.ofNat 32 (i 1).val
  let c256_i32 : BitVec 32 := 256#32
  let v0 : BitVec 32 := Scalar.muli arg1 c256_i32
  let v28 : Index := Scalar.indexCast v0
  let c0_12 : Index := 0#32
  ![v28.toNat, 0]
def k0_off4 (i : grid0.Coords) : Fin 2 → Nat :=
  let arg1 : BitVec 32 := BitVec.ofNat 32 (i 1).val
  let c256_i32 : BitVec 32 := 256#32
  let v0 : BitVec 32 := Scalar.muli arg1 c256_i32
  let v34 : Index := Scalar.indexCast v0
  let c0_15 : Index := 0#32
  ![v34.toNat, 0]
def k0_cond4 (i : grid0.Coords) : BitVec 1 :=
  let arg0 : BitVec 32 := BitVec.ofNat 32 (i 0).val
  let c4_i32 : BitVec 32 := 4#32
  let v20 : BitVec 1 := Scalar.cmpi .eq arg0 c4_i32
  let v21 : BitVec 32 := Scalar.extui v20
  let c0_i32_9 : BitVec 32 := 0#32
  let v22 : BitVec 1 := Scalar.cmpi .ne v21 c0_i32_9
  v22

def k0_off5 (i : grid0.Coords) : Fin 2 → Nat :=
  let arg1 : BitVec 32 := BitVec.ofNat 32 (i 1).val
  let c256_i32 : BitVec 32 := 256#32
  let v0 : BitVec 32 := Scalar.muli arg1 c256_i32
  let v26 : Index := Scalar.indexCast v0
  let c0 : Index := 0#32
  ![v26.toNat, 0]
def k0_off6 (i : grid0.Coords) : Fin 2 → Nat :=
  let arg1 : BitVec 32 := BitVec.ofNat 32 (i 1).val
  let c256_i32 : BitVec 32 := 256#32
  let v0 : BitVec 32 := Scalar.muli arg1 c256_i32
  let v30 : Index := Scalar.indexCast v0
  let c0_13 : Index := 0#32
  ![v30.toNat, 0]
def k0_cond5 (i : grid0.Coords) : BitVec 1 :=
  let arg0 : BitVec 32 := BitVec.ofNat 32 (i 0).val
  let c6_i32 : BitVec 32 := 6#32
  let v23 : BitVec 1 := Scalar.cmpi .eq arg0 c6_i32
  let v24 : BitVec 32 := Scalar.extui v23
  let c0_i32_10 : BitVec 32 := 0#32
  let v25 : BitVec 1 := Scalar.cmpi .ne v24 c0_i32_10
  v25

def k0_off7 (i : grid0.Coords) : Fin 2 → Nat :=
  let arg1 : BitVec 32 := BitVec.ofNat 32 (i 1).val
  let c256_i32 : BitVec 32 := 256#32
  let v0 : BitVec 32 := Scalar.muli arg1 c256_i32
  let v26 : Index := Scalar.indexCast v0
  let c0 : Index := 0#32
  ![v26.toNat, 0]
def k0_off8 (i : grid0.Coords) : Fin 2 → Nat :=
  let arg1 : BitVec 32 := BitVec.ofNat 32 (i 1).val
  let c256_i32 : BitVec 32 := 256#32
  let v0 : BitVec 32 := Scalar.muli arg1 c256_i32
  let v30 : Index := Scalar.indexCast v0
  let c0_13 : Index := 0#32
  ![v30.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c15_i32 : BitVec 32 := 15#32
  let v1 : BitVec 32 := Scalar.select v0 arg1 c15_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c1_i32_3 : BitVec 32 := 1#32
  let v10 : BitVec 1 := Scalar.cmpi .eq v9 c1_i32_3
  let c0_i32_4 : BitVec 32 := 0#32
  let v11 : BitVec 1 := Scalar.cmpi .eq arg0 c0_i32_4
  let c0_i32_5 : BitVec 32 := 0#32
  let c15_i32 : BitVec 32 := 15#32
  let v12 : BitVec 32 := Scalar.select v11 c0_i32_5 c15_i32
  let v13 : BitVec 32 := Scalar.select v10 arg1 v12
  let c0_i32_6 : BitVec 32 := 0#32
  let c0_i32_7 : BitVec 32 := 0#32
  ![v13.toNat, c0_i32_6.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c2_i32_0 : BitVec 32 := 2#32
  let v1 : BitVec 1 := Scalar.cmpi .slt arg0 c2_i32_0
  let c0_i32 : BitVec 32 := 0#32
  let c15_i32 : BitVec 32 := 15#32
  let v2 : BitVec 32 := Scalar.select v1 c0_i32 c15_i32
  let v3 : BitVec 32 := Scalar.select v0 arg1 v2
  let c0_i32_1 : BitVec 32 := 0#32
  let c0_i32_2 : BitVec 32 := 0#32
  ![v3.toNat, c0_i32_1.toNat]

def cc0_transform_3 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 1 := Scalar.cmpi .eq arg0 c6_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  shapeCasts_S256x256_S256x256 : S256x256.ShapeCasts S256x256
  inb_S256x4096_S256x4096_0_0 : ∀ a, (![0, 0] : Fin 2 → Nat) a + S256x4096.size a ≤ S256x4096.size a
  h_S256x4096 : 0 < S256x4096.numel
  inb_S4096x256_S4096x256_0_0 : ∀ a, (![0, 0] : Fin 2 → Nat) a + S4096x256.size a ≤ S4096x256.size a
  h_S4096x256 : 0 < S4096x256.numel
  shapeCasts_S256x4096_S256x4096 : S256x4096.ShapeCasts S256x4096
  dot_S256x4096_S4096x256_S256x256_1_0_0_1_n_n_wf : DotDims.WF S256x4096 S4096x256 S256x256 [1] [0] [0] [1] [] []
  hrank0 : 0 < grid0.rank
  k0_off1_inb : ∀ i : grid0.Coords, ∀ (k0_h1 : k0_cond1 i = 1#1), ∀ a, (k0_off1 i) a + S256x256.size a ≤ S4096x256.size a
  k0_off1_packedbf16 : ∀ i : grid0.Coords, ∀ (k0_h1 : k0_cond1 i = 1#1), (Rect.unit (s := S4096x256) (k0_off1 i) S256x256.size (k0_off1_inb i k0_h1)).PackedRows (EltTy.packing .bf16)
  k0_off2_inb : ∀ i : grid0.Coords, ∀ (k0_h2 : k0_cond2 i = 1#1), ∀ a, (k0_off2 i) a + S256x256.size a ≤ S4096x256.size a
  k0_off2_packedbf16 : ∀ i : grid0.Coords, ∀ (k0_h2 : k0_cond2 i = 1#1), (Rect.unit (s := S4096x256) (k0_off2 i) S256x256.size (k0_off2_inb i k0_h2)).PackedRows (EltTy.packing .bf16)
  k0_off3_inb : ∀ i : grid0.Coords, ∀ (k0_h3 : k0_cond3 i = 1#1), ∀ a, (k0_off3 i) a + S256x4096.size a ≤ S4096x4096.size a
  k0_off3_packedbf16 : ∀ i : grid0.Coords, ∀ (k0_h3 : k0_cond3 i = 1#1), (Rect.unit (s := S4096x4096) (k0_off3 i) S256x4096.size (k0_off3_inb i k0_h3)).PackedRows (EltTy.packing .bf16)
  k0_off4_inb : ∀ i : grid0.Coords, ∀ (k0_h3 : k0_cond3 i = 1#1), ∀ a, (k0_off4 i) a + S256x256.size a ≤ S4096x256.size a
  k0_off4_packedbf16 : ∀ i : grid0.Coords, ∀ (k0_h3 : k0_cond3 i = 1#1), (Rect.unit (s := S4096x256) (k0_off4 i) S256x256.size (k0_off4_inb i k0_h3)).PackedRows (EltTy.packing .bf16)
  k0_off5_inb : ∀ i : grid0.Coords, ∀ (k0_h4 : k0_cond4 i = 1#1), ∀ a, (k0_off5 i) a + S256x4096.size a ≤ S4096x4096.size a
  k0_off6_inb : ∀ i : grid0.Coords, ∀ (k0_h4 : k0_cond4 i = 1#1), ∀ a, (k0_off6 i) a + S256x256.size a ≤ S4096x256.size a
  k0_off6_packedbf16 : ∀ i : grid0.Coords, ∀ (k0_h4 : k0_cond4 i = 1#1), (Rect.unit (s := S4096x256) (k0_off6 i) S256x256.size (k0_off6_inb i k0_h4)).PackedRows (EltTy.packing .bf16)
  k0_off7_inb : ∀ i : grid0.Coords, ∀ (k0_h5 : k0_cond5 i = 1#1), ∀ a, (k0_off7 i) a + S256x4096.size a ≤ S4096x4096.size a
  k0_off8_inb : ∀ i : grid0.Coords, ∀ (k0_h5 : k0_cond5 i = 1#1), ∀ a, (k0_off8 i) a + S256x256.size a ≤ S4096x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S4096x256.size a
  hwx0_0 : ∀ i : grid0.Coords, EltTy.bits .f32 = 32 ∨ (Rect.block (s := S4096x256) S256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .f32 = 32 ∨ (Rect.block (s := S4096x4096) S256x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S4096x256.size a
  hwx0_3 : ∀ i : grid0.Coords, EltTy.bits .f32 = 32 ∨ (Rect.block (s := S4096x256) S256x256.size (cc0_transform_3 i) (hinb0_3 i)).WholeWords (EltTy.packing .f32)

variable [Facts₀]

def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf

abbrev win0_0 : Pipeline.Window sig grid0 :=
  Pipeline.Window.ofSpec (Memref.whole main_arg0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond5 i == 1#1) | ⟨_ + 4, h⟩ => absurd h (Nat.not_lt.2 (Nat.le_add_left _ _))

class Facts : Prop extends Facts₀ where

variable [Facts]
-- ==== ReferenceIdeal.lean ====
abbrev S4096x256 : Shape := ⟨2, ![4096, 256]⟩
abbrev S4096x4096 : Shape := ⟨2, ![4096, 4096]⟩
abbrev S1x4096x256 : Shape := ⟨3, ![1, 4096, 256]⟩
abbrev S4x4096x256 : Shape := ⟨3, ![4, 4096, 256]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S4096x4096, .f32⟩
  | .hbm, ⟨3, _⟩ => ⟨S4096x256, .f32⟩
  | .hbm, ⟨4, _⟩ => ⟨S4096x256, .f32⟩
  | .hbm, ⟨5, _⟩ => ⟨S4096x256, .f32⟩
  | .hbm, ⟨6, _⟩ => ⟨S4096x256, .f32⟩
  | .hbm, ⟨7, _⟩ => ⟨S4096x256, .f32⟩
  | .hbm, ⟨8, _⟩ => ⟨S4096x256, .f32⟩
  | .hbm, ⟨9, _⟩ => ⟨S4096x256, .f32⟩
  | .hbm, ⟨10, _⟩ => ⟨S4096x256, .f32⟩
  | .hbm, ⟨11, _⟩ => ⟨S4096x256, .f32⟩
  | .hbm, ⟨12, _⟩ => ⟨S1x4096x256, .f32⟩
  | .hbm, ⟨13, _⟩ => ⟨S1x4096x256, .f32⟩
  | .hbm, ⟨14, _⟩ => ⟨S1x4096x256, .f32⟩
  | .hbm, ⟨15, _⟩ => ⟨S1x4096x256, .f32⟩
  | .hbm, ⟨16, _⟩ => ⟨S4x4096x256, .f32⟩
  | .hbm, ⟨17, _⟩ => ⟨S_, .f32⟩
  | .hbm, ⟨18, _⟩ => ⟨S4096x256, .f32⟩
  | .hbm, ⟨19, _⟩ => ⟨S_, .f32⟩
  | .hbm, ⟨20, _⟩ => ⟨S4096x256, .f32⟩
  | .hbm, ⟨21, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]

class Facts₀ : Prop where
  bcast_S4096x256_S1x4096x256_1_2 : S4096x256.BroadcastsInDim S1x4096x256 (![1, 2] : Fin 2 → Fin S1x4096x256.rank)
  concatenates_S1x4096x256_S1x4096x256_S1x4096x256_S1x4096x256_S4x4096x256_d0 : Shape.Concatenates [S1x4096x256, S1x4096x256, S1x4096x256, S1x4096x256] S4x4096x256 0
  reducesTo_S4x4096x256_S4096x256_d0 : S4x4096x256.ReducesTo [0] S4096x256
  h_S_ : 0 < S_.numel
  bcast_S_S4096x256 : S_.BroadcastsInDim S4096x256 (![] : Fin 0 → Fin S4096x256.rank)
  dot_S4096x4096_S4096x256_S4096x256_1_0_0_1_n_n_wf : DotDims.WF S4096x4096 S4096x256 S4096x256 [1] [0] [0] [1] [] []

variable [Facts₀]

def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf

class Facts : Prop extends Facts₀ where

variable [Facts]
-- ==== Proof.BitsBody.Base.lean ====
/-
  What the runs of the kernel body share.  The grid has 112 points, 7 phases of 16 row blocks; point `t` is block
  `t % 16` of phase `t / 16`.  The body has five conditionals, on the phase alone: phase 0, an odd phase, phase 2,
  phase 4, phase 6 — exactly one holds at each point.  The body is handed the current staging buffers of its four
  windows (the node states' block, the target incidences' block, the source incidences' block, the result's block) and
  four whole scratch buffers it keeps between points (the kept source incidences, the current state, the messages, the
  running sum).  The result's window is idle before phase 6 and is written back at every point of phase 6.
-/
import proofs.«116923_g7430293422642_cont_9to1_m_1024_15_alg».proof.Proof.Gen.Kernel.Frame
import proofs.«116923_g7430293422642_cont_9to1_m_1024_15_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The memrefs the body is called with -/

abbrev ms0 (t : Fin cfg0.N) : Memref sig .tc .vmem S256x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x4096 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x256 .f32 := win0_3.stage (cfg0.slots t 3)
abbrev hs3 (t : Fin cfg0.N) : (ms3 t).IsWhole := hstage0_3 ((cfg0.slots t 3).cast nbuf0_3)
/-- The scratch buffers: the kept source incidences, the current state, the messages, the running sum. -/
abbrev sc0 : Memref sig .tc .vmem S4096x4096 .bf16 := Memref.whole cc0_scratch0
abbrev sc1 : Memref sig .tc .vmem S4096x256 .bf16 := Memref.whole cc0_scratch1
abbrev sc2 : Memref sig .tc .vmem S4096x256 .bf16 := Memref.whole cc0_scratch2
abbrev sc3 : Memref sig .tc .vmem S4096x256 .bf16 := Memref.whole cc0_scratch3

/-- The region's invariant with the four scratch buffers as memrefs owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-! ## The five conditions, by the phase -/

abbrev c1 (i : grid0.Coords) : Prop := k0_cond1 i = 1#1
abbrev c2 (i : grid0.Coords) : Prop := k0_cond2 i = 1#1
abbrev c3 (i : grid0.Coords) : Prop := k0_cond3 i = 1#1
abbrev c4 (i : grid0.Coords) : Prop := k0_cond4 i = 1#1
abbrev c5 (i : grid0.Coords) : Prop := k0_cond5 i = 1#1

theorem hc1 : ∀ t : Fin cfg0.N, c1 (grid0.coords t) ↔ t.val / 16 = 0 :=
  (by decide +kernel : ∀ t : Fin grid0.N, c1 (grid0.coords t) ↔ t.val / 16 = 0)
theorem hc2 : ∀ t : Fin cfg0.N, c2 (grid0.coords t) ↔ t.val / 16 % 2 = 1 :=
  (by decide +kernel : ∀ t : Fin grid0.N, c2 (grid0.coords t) ↔ t.val / 16 % 2 = 1)
theorem hc3 : ∀ t : Fin cfg0.N, c3 (grid0.coords t) ↔ t.val / 16 = 2 :=
  (by decide +kernel : ∀ t : Fin grid0.N, c3 (grid0.coords t) ↔ t.val / 16 = 2)
theorem hc4 : ∀ t : Fin cfg0.N, c4 (grid0.coords t) ↔ t.val / 16 = 4 :=
  (by decide +kernel : ∀ t : Fin grid0.N, c4 (grid0.coords t) ↔ t.val / 16 = 4)
theorem hc5 : ∀ t : Fin cfg0.N, c5 (grid0.coords t) ↔ t.val / 16 = 6 :=
  (by decide +kernel : ∀ t : Fin grid0.N, c5 (grid0.coords t) ↔ t.val / 16 = 6)

/-! ## Where the result's window is idle, and where it is written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem idle3 : ∀ t : Fin cfg0.N, ¬ t.val / 16 = 6 → cfg0.idle 3 (grid0.coords t) = true := by decide +kernel
theorem noFlush3 : ∀ t : Fin cfg0.N, ¬ t.val / 16 = 6 → (cfg0.win 3).flush t = false := by decide +kernel
theorem live3 : ∀ t : Fin cfg0.N, t.val / 16 = 6 → cfg0.idle 3 (grid0.coords t) = false := by decide +kernel
theorem flush3 : ∀ t : Fin cfg0.N, t.val / 16 = 6 → (cfg0.win 3).flush t = true := by decide +kernel

end Cert.Kernel.Body

end
-- ==== Proof.BitsBody.RunP0.lean ====
/-
  The kernel body run at a point of phase 0: the block's rows of the node states go into the running sum and into the current state.
  The buffers it stores into end with its stores written over what they held; the others are handed back as they were.
-/
import proofs.«116923_g7430293422642_cont_9to1_m_1024_15_alg».proof.Proof.BitsBody.Base

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case, on any whole memrefs: what it stores, as pieces (newest first) the run finds. -/
noncomputable def runP0 (c : Dev nD) (i : grid0.Coords) (arg2 : Memref sig .tc .vmem S256x256 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x256 .f32) (harg5 : arg5.IsWhole) (arg6 : Memref sig .tc .vmem S4096x4096 .bf16) (harg6 : arg6.IsWhole) (arg7 : Memref sig .tc .vmem S4096x256 .bf16) (harg7 : arg7.IsWhole) (arg8 : Memref sig .tc .vmem S4096x256 .bf16) (harg8 : arg8.IsWhole) (arg9 : Memref sig .tc .vmem S4096x256 .bf16) (harg9 : arg9.IsWhole)
    (h1 : c1 i) (h2 : ¬c2 i) (h3 : ¬c3 i) (h4 : ¬c4 i) (h5 : ¬c5 i)
    (x0 : Vec F S256x256 .f32) (x1 : Vec F S256x4096 .f32) (x2 : Vec F S256x4096 .f32) (s6 : Vec F S4096x4096 .bf16) (s7 : Vec F S4096x256 .bf16) (s8 : Vec F S4096x256 .bf16) (s9 : Vec F S4096x256 .bf16) :
    Σ' (L7 : List (View.Piece (Elt F) S4096x256 .bf16)), { L9 : List (View.Piece (Elt F) S4096x256 .bf16) //
      ∀ (xo : Vec F S256x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare s6 ∗ owns (c : Thread nD τ) arg7 fullShare s7 ∗ owns (c : Thread nD τ) arg8 fullShare s8 ∗ owns (c : Thread nD τ) arg9 fullShare s9
            ∗ (iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare s6 ∗ (arg7.view.loc (c : Thread nD τ) ↦[arg7.view.set]{fullShare} arg7.view.writes (Elt F) (harg7.unread s7) L7) ∗ owns (c : Thread nD τ) arg8 fullShare s8 ∗ (arg9.view.loc (c : Thread nD τ) ↦[arg9.view.set]{fullShare} arg9.view.writes (Elt F) (harg9.unread s9) L9)) -∗ K ⟨⟩))
          ⊢ wp frame (wpE (defs₀ (F := F)) Variants.none c none) E (cc0__mega_kernel i arg2 harg2 arg3 harg3 arg4 harg4 arg5 harg5 arg6 harg6 arg7 harg7 arg8 harg8 arg9 harg9) K } := by
  refine ⟨?_, ?_, fun xo E K => ?run⟩
  case run =>
    simp only [cc0__mega_kernel_eq_skeleton]; unfold cc0__mega_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | exact h1 | exact h2 | exact h3 | exact h4 | exact h5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexact H7
    isplitl [H8]
    · iexists _; isplitr; · ipureintro; exact harg8.read_unread _
      iexact H8
    iexact H9

end Cert.Kernel.Body

end
-- ==== Proof.BitsBody.RunPT.lean ====
/-
  The kernel body run at a point of an odd phase: the block's rows of (target incidences · current state) go into the messages.
  The buffers it stores into end with its stores written over what they held; the others are handed back as they were.
-/
import proofs.«116923_g7430293422642_cont_9to1_m_1024_15_alg».proof.Proof.BitsBody.RunP0

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case, on any whole memrefs: what it stores, as pieces (newest first) the run finds. -/
noncomputable def runPT (c : Dev nD) (i : grid0.Coords) (arg2 : Memref sig .tc .vmem S256x256 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x256 .f32) (harg5 : arg5.IsWhole) (arg6 : Memref sig .tc .vmem S4096x4096 .bf16) (harg6 : arg6.IsWhole) (arg7 : Memref sig .tc .vmem S4096x256 .bf16) (harg7 : arg7.IsWhole) (arg8 : Memref sig .tc .vmem S4096x256 .bf16) (harg8 : arg8.IsWhole) (arg9 : Memref sig .tc .vmem S4096x256 .bf16) (harg9 : arg9.IsWhole)
    (h1 : ¬c1 i) (h2 : c2 i) (h3 : ¬c3 i) (h4 : ¬c4 i) (h5 : ¬c5 i)
    (x0 : Vec F S256x256 .f32) (x1 : Vec F S256x4096 .f32) (x2 : Vec F S256x4096 .f32) (s6 : Vec F S4096x4096 .bf16) (s7 : Vec F S4096x256 .bf16) (s8 : Vec F S4096x256 .bf16) (s9 : Vec F S4096x256 .bf16) :
    { L8 : List (View.Piece (Elt F) S4096x256 .bf16) //
      ∀ (xo : Vec F S256x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare s6 ∗ owns (c : Thread nD τ) arg7 fullShare s7 ∗ owns (c : Thread nD τ) arg8 fullShare s8 ∗ owns (c : Thread nD τ) arg9 fullShare s9
            ∗ (iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare s6 ∗ owns (c : Thread nD τ) arg7 fullShare s7 ∗ (arg8.view.loc (c : Thread nD τ) ↦[arg8.view.set]{fullShare} arg8.view.writes (Elt F) (harg8.unread s8) L8) ∗ owns (c : Thread nD τ) arg9 fullShare s9) -∗ K ⟨⟩))
          ⊢ wp frame (wpE (defs₀ (F := F)) Variants.none c none) E (cc0__mega_kernel i arg2 harg2 arg3 harg3 arg4 harg4 arg5 harg5 arg6 harg6 arg7 harg7 arg8 harg8 arg9 harg9) K } := by
  refine ⟨?_, fun xo E K => ?run⟩
  case run =>
    simp only [cc0__mega_kernel_eq_skeleton]; unfold cc0__mega_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | exact h1 | exact h2 | exact h3 | exact h4 | exact h5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexact H8
    iexists _; isplitr; · ipureintro; exact harg9.read_unread _
    iexact H9

end Cert.Kernel.Body

end
-- ==== Proof.BitsBody.RunP2.lean ====
/-
  The kernel body run at a point of phase 2: the block's rows of the source incidences are kept; the block's rows of (source incidences · messages + current state) are added to the running sum and become the current state.
  The buffers it stores into end with its stores written over what they held; the others are handed back as they were.
-/
import proofs.«116923_g7430293422642_cont_9to1_m_1024_15_alg».proof.Proof.BitsBody.RunPT

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case, on any whole memrefs: what it stores, as pieces (newest first) the run finds. -/
noncomputable def runP2 (c : Dev nD) (i : grid0.Coords) (arg2 : Memref sig .tc .vmem S256x256 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x256 .f32) (harg5 : arg5.IsWhole) (arg6 : Memref sig .tc .vmem S4096x4096 .bf16) (harg6 : arg6.IsWhole) (arg7 : Memref sig .tc .vmem S4096x256 .bf16) (harg7 : arg7.IsWhole) (arg8 : Memref sig .tc .vmem S4096x256 .bf16) (harg8 : arg8.IsWhole) (arg9 : Memref sig .tc .vmem S4096x256 .bf16) (harg9 : arg9.IsWhole)
    (h1 : ¬c1 i) (h2 : ¬c2 i) (h3 : c3 i) (h4 : ¬c4 i) (h5 : ¬c5 i)
    (x0 : Vec F S256x256 .f32) (x1 : Vec F S256x4096 .f32) (x2 : Vec F S256x4096 .f32) (s6 : Vec F S4096x4096 .bf16) (s7 : Vec F S4096x256 .bf16) (s8 : Vec F S4096x256 .bf16) (s9 : Vec F S4096x256 .bf16) :
    Σ' (L6 : List (View.Piece (Elt F) S4096x4096 .bf16)) (L7 : List (View.Piece (Elt F) S4096x256 .bf16)), { L9 : List (View.Piece (Elt F) S4096x256 .bf16) //
      ∀ (xo : Vec F S256x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare s6 ∗ owns (c : Thread nD τ) arg7 fullShare s7 ∗ owns (c : Thread nD τ) arg8 fullShare s8 ∗ owns (c : Thread nD τ) arg9 fullShare s9
            ∗ (iprop(owns (c : Thread nD τ) arg2 fullShare x0 ∗ owns (c : Thread nD τ) arg3 fullShare x1 ∗ owns (c : Thread nD τ) arg4 fullShare x2 ∗ owns (c : Thread nD τ) arg5 fullShare xo ∗ (arg6.view.loc (c : Thread nD τ) ↦[arg6.view.set]{fullShare} arg6.view.writes (Elt F) (harg6.unread s6) L6) ∗ (arg7.view.loc (c : Thread nD τ) ↦[arg7.view.set]{fullShare} arg7.view.writes (Elt F) (harg7.unread s7) L7) ∗ owns (c : Thread nD τ) arg8 fullShare s8 ∗ (arg9.view.loc (c : Thread nD τ) ↦[arg9.view.set]{fullShare} arg9.view.writes (Elt F) (harg9.unread s9) L9)) -∗ K ⟨⟩))
          ⊢ wp frame (wpE (defs₀ (F := F)) Variants.none c none) E (cc0__mega_kernel i arg2 harg2 arg3 harg3 arg4 harg4 arg5 harg5 arg6 harg6 arg7 harg7 arg8 harg8 arg9 harg9) K } := by
  refine ⟨?_, ?_, ?_, fun xo E K => ?run⟩
  case run =>
    simp only [cc0__mega_kernel_eq_skeleton]; unfold cc0__mega_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | exact h1 | exact h2 | exact h3 | exact h4 | exact h5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexact H6
    isplitl [H7]
    · iexact H7
    isplitl [H8]
    · iexists _; isplitr; · ipureintro; exact harg8.read_unread _
      iexact H8
    iexact H9

end Cert.Kernel.Body

end
-- ==== Proof.BitsBody.RunP4.lean ====
/-
  The kernel body run at a point of phase 4: as phase 2, with the kept source incidences.
  The buffers it stores into end with its stores written over what they held; the others are handed back as they were.
-/
import proofs.«116923_g7430293422642_cont_9to1_m_1024_15_alg».proof.Proof.BitsBody.RunP2

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case, on any whole memrefs: what it stores, as pieces (newest first) the run finds. -/
noncomputable def runP4 (c : Dev nD) (i : grid0.Coords) (arg2 : Memref sig .tc .vmem S256x256 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x256 .f32) (harg5 : arg5.IsWhole) (arg6 : Memref sig .tc .vmem S4096x4096 .bf16) (harg6 : arg6.IsWhole) (arg7 : Memref sig .tc .vmem S4096x256 .bf16) (harg7 : arg7.IsWhole) (arg8 : Memref sig .tc .vmem S4096x256 .bf16) (harg8 : arg8.IsWhole) (arg9 : Memref sig .tc .vmem S4096x256 .bf16) (harg9 : arg9.IsWhole)
    (h1 : ¬c1 i) (h2 : ¬c2 i) (h3 : ¬c3 i) (h4 : c4 i) (h5 : ¬c5 i)
    (x0 : Vec F S256x256 .f32) (x1 : Vec F S256x4096 .f32) (x2 : Vec F S256x4096 .f32) (s6 : Vec F S4096x4096 .bf16) (s7 : Vec F S4096x256 .bf16) (s8 : Vec F S4096x256 .bf16) (s9 : Vec F S4096x256 .bf16) :
    Σ' (L7 : List (View.Piece (Elt F) S4096x256 .bf16)), { L9 : List (View.Piece (Elt F) S4096x256 .bf16) //
      ∀ (xo : Vec F S256x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare s6 ∗ owns (c : Thread nD τ) arg7 fullShare s7 ∗ owns (c : Thread nD τ) arg8 fullShare s8 ∗ owns (c : Thread nD τ) arg9 fullShare s9
            ∗ (iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare s6 ∗ (arg7.view.loc (c : Thread nD τ) ↦[arg7.view.set]{fullShare} arg7.view.writes (Elt F) (harg7.unread s7) L7) ∗ owns (c : Thread nD τ) arg8 fullShare s8 ∗ (arg9.view.loc (c : Thread nD τ) ↦[arg9.view.set]{fullShare} arg9.view.writes (Elt F) (harg9.unread s9) L9)) -∗ K ⟨⟩))
          ⊢ wp frame (wpE (defs₀ (F := F)) Variants.none c none) E (cc0__mega_kernel i arg2 harg2 arg3 harg3 arg4 harg4 arg5 harg5 arg6 harg6 arg7 harg7 arg8 harg8 arg9 harg9) K } := by
  refine ⟨?_, ?_, fun xo E K => ?run⟩
  case run =>
    simp only [cc0__mega_kernel_eq_skeleton]; unfold cc0__mega_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | exact h1 | exact h2 | exact h3 | exact h4 | exact h5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexact H7
    isplitl [H8]
    · iexists _; isplitr; · ipureintro; exact harg8.read_unread _
      iexact H8
    iexact H9

end Cert.Kernel.Body

end
-- ==== Proof.BitsBody.RunP6.lean ====
/-
  The kernel body run at a point of phase 6: the result's block is the weight times (running sum + (kept source incidences · messages + current state)) on the block's rows.
  The buffers it stores into end with its stores written over what they held; the others are handed back as they were.
-/
import proofs.«116923_g7430293422642_cont_9to1_m_1024_15_alg».proof.Proof.BitsBody.RunP4

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case, on any whole memrefs: what it stores, as pieces (newest first) the run finds. -/
noncomputable def runP6 (c : Dev nD) (i : grid0.Coords) (arg2 : Memref sig .tc .vmem S256x256 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x256 .f32) (harg5 : arg5.IsWhole) (arg6 : Memref sig .tc .vmem S4096x4096 .bf16) (harg6 : arg6.IsWhole) (arg7 : Memref sig .tc .vmem S4096x256 .bf16) (harg7 : arg7.IsWhole) (arg8 : Memref sig .tc .vmem S4096x256 .bf16) (harg8 : arg8.IsWhole) (arg9 : Memref sig .tc .vmem S4096x256 .bf16) (harg9 : arg9.IsWhole)
    (h1 : ¬c1 i) (h2 : ¬c2 i) (h3 : ¬c3 i) (h4 : ¬c4 i) (h5 : c5 i)
    (x0 : Vec F S256x256 .f32) (x1 : Vec F S256x4096 .f32) (x2 : Vec F S256x4096 .f32) (s6 : Vec F S4096x4096 .bf16) (s7 : Vec F S4096x256 .bf16) (s8 : Vec F S4096x256 .bf16) (s9 : Vec F S4096x256 .bf16) :
    { L5 : List (View.Piece (Elt F) S256x256 .f32) //
      ∀ (xo : Vec F S256x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare s6 ∗ owns (c : Thread nD τ) arg7 fullShare s7 ∗ owns (c : Thread nD τ) arg8 fullShare s8 ∗ owns (c : Thread nD τ) arg9 fullShare s9
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L5) ∗ owns (c : Thread nD τ) arg6 fullShare s6 ∗ owns (c : Thread nD τ) arg7 fullShare s7 ∗ owns (c : Thread nD τ) arg8 fullShare s8 ∗ owns (c : Thread nD τ) arg9 fullShare s9) -∗ K ⟨⟩))
          ⊢ wp frame (wpE (defs₀ (F := F)) Variants.none c none) E (cc0__mega_kernel i arg2 harg2 arg3 harg3 arg4 harg4 arg5 harg5 arg6 harg6 arg7 harg7 arg8 harg8 arg9 harg9) K } := by
  refine ⟨?_, fun xo E K => ?run⟩
  case run =>
    simp only [cc0__mega_kernel_eq_skeleton]; unfold cc0__mega_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | exact h1 | exact h2 | exact h3 | exact h4 | exact h5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    iexists _; isplitr; · ipureintro; exact harg9.read_unread _
    iexact H9

end Cert.Kernel.Body

end
-- ==== Proof.BitsBody.Data.lean ====
/-
  The proof data of the frame: the arrays as the region finds them; each input's staging buffer left at its block; the
  result's window not described; the invariant the scratch buffers at some contents.  And what the body is called with
  and returns at a point.
-/
import proofs.«116923_g7430293422642_cont_9to1_m_1024_15_alg».proof.Proof.BitsBody.RunP6

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result's window (3) is not described. -/
def forgets : Fin 4 → Bool := fun w => w.val == 3

/-- The proof data: the arrays as the region finds them; each input's buffer left at its block; the result's unnamed;
    the invariant the scratch buffers at some contents; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ (∃ d, owns (c : Thread nD τ) (ms3 t) fullShare d))

end Cert.Kernel.Body

end
-- ==== Proof.BitsBody.SoundP0.lean ====
/-
  The body at a point of phase 0: the run of that case applies; every scratch buffer and the result's staging buffer are
  handed over at some contents and taken back at some contents.
-/
import proofs.«116923_g7430293422642_cont_9to1_m_1024_15_alg».proof.Proof.BitsBody.Data

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
theorem sound_P0 (c : Dev nD) (t : Fin cfg0.N) (hq : t.val / 16 = 0) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2]
  rw [show (dats m 0 c).Φ t.castSucc = Pipeline.ΦA spec0 c from rfl, PhiA_eq]
  have hN : t.val < 112 := lt_of_lt_of_eq t.isLt (show cfg0.N = 112 from N_0)
  iintro ⟨⟨⟨⟨%d6, S6⟩, ⟨%d7, S7⟩, ⟨%d8, S8⟩, ⟨%d9, S9⟩⟩, Hg⟩, Ho, ⟨%e0, H0⟩, ⟨%e1, H1⟩, ⟨%e2, H2⟩, ⟨%e3, H3⟩⟩
  iapply ((runP0 c (grid0.coords t) _ _ _ _ _ _ _ _ _ _ _ _ _ _ _ _ ((hc1 t).mpr hq) (fun h => absurd ((hc2 t).mp h) (by omega)) (fun h => absurd ((hc3 t).mp h) (by omega)) (fun h => absurd ((hc4 t).mp h) (by omega)) (fun h => absurd ((hc5 t).mp h) (by omega)) (iblk m c 0 t) (iblk m c 1 t) (iblk m c 2 t) d6 d7 d8 d9).2.2 e3 Set.univ _)
  isplitl [H0]; · iexact H0
  isplitl [H1]; · iexact H1
  isplitl [H2]; · iexact H2
  isplitl [H3]; · iexact H3
  isplitl [S6]; · iexact S6
  isplitl [S7]; · iexact S7
  isplitl [S8]; · iexact S8
  isplitl [S9]; · iexact S9
  iintro ⟨H0, H1, H2, H3, S6, S7, S8, S9⟩
  isplitl [S6 S7 S8 S9 Hg]
  · isplitl [S6 S7 S8 S9]
    · isplitl [S6]
      · iexists _; iexact S6
      isplitl [S7]
      · iexists _; unfold owns; iexists _; isplitr
        swap; · iexact S7
        ipureintro; rfl
      isplitl [S8]
      · iexists _; iexact S8
      iexists _; unfold owns; iexists _; isplitr
      swap; · iexact S9
      ipureintro; rfl
    iexact Hg
  isplitl [Ho]; · iexact Ho
  isplitl [H0]; · iexact H0
  isplitl [H1]; · iexact H1
  isplitl [H2]; · iexact H2
  iexists _; iexact H3

end Cert.Kernel.Body

end
-- ==== Proof.BitsBody.SoundPT.lean ====
/-
  The body at a point of an odd phase: the run of that case applies; every scratch buffer and the result's staging buffer are
  handed over at some contents and taken back at some contents.
-/
import proofs.«116923_g7430293422642_cont_9to1_m_1024_15_alg».proof.Proof.BitsBody.Data

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
theorem sound_PT (c : Dev nD) (t : Fin cfg0.N) (hq : t.val / 16 % 2 = 1) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2]
  rw [show (dats m 0 c).Φ t.castSucc = Pipeline.ΦA spec0 c from rfl, PhiA_eq]
  have hN : t.val < 112 := lt_of_lt_of_eq t.isLt (show cfg0.N = 112 from N_0)
  iintro ⟨⟨⟨⟨%d6, S6⟩, ⟨%d7, S7⟩, ⟨%d8, S8⟩, ⟨%d9, S9⟩⟩, Hg⟩, Ho, ⟨%e0, H0⟩, ⟨%e1, H1⟩, ⟨%e2, H2⟩, ⟨%e3, H3⟩⟩
  iapply ((runPT c (grid0.coords t) _ _ _ _ _ _ _ _ _ _ _ _ _ _ _ _ (fun h => absurd ((hc1 t).mp h) (by omega)) ((hc2 t).mpr hq) (fun h => absurd ((hc3 t).mp h) (by omega)) (fun h => absurd ((hc4 t).mp h) (by omega)) (fun h => absurd ((hc5 t).mp h) (by omega)) (iblk m c 0 t) (iblk m c 1 t) (iblk m c 2 t) d6 d7 d8 d9).2 e3 Set.univ _)
  isplitl [H0]; · iexact H0
  isplitl [H1]; · iexact H1
  isplitl [H2]; · iexact H2
  isplitl [H3]; · iexact H3
  isplitl [S6]; · iexact S6
  isplitl [S7]; · iexact S7
  isplitl [S8]; · iexact S8
  isplitl [S9]; · iexact S9
  iintro ⟨H0, H1, H2, H3, S6, S7, S8, S9⟩
  isplitl [S6 S7 S8 S9 Hg]
  · isplitl [S6 S7 S8 S9]
    · isplitl [S6]
      · iexists _; iexact S6
      isplitl [S7]
      · iexists _; iexact S7
      isplitl [S8]
      · iexists _; unfold owns; iexists _; isplitr
        swap; · iexact S8
        ipureintro; rfl
      iexists _; iexact S9
    iexact Hg
  isplitl [Ho]; · iexact Ho
  isplitl [H0]; · iexact H0
  isplitl [H1]; · iexact H1
  isplitl [H2]; · iexact H2
  iexists _; iexact H3

end Cert.Kernel.Body

end
-- ==== Proof.BitsBody.SoundP2.lean ====
/-
  The body at a point of phase 2: the run of that case applies; every scratch buffer and the result's staging buffer are
  handed over at some contents and taken back at some contents.
-/
import proofs.«116923_g7430293422642_cont_9to1_m_1024_15_alg».proof.Proof.BitsBody.Data

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
theorem sound_P2 (c : Dev nD) (t : Fin cfg0.N) (hq : t.val / 16 = 2) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2]
  rw [show (dats m 0 c).Φ t.castSucc = Pipeline.ΦA spec0 c from rfl, PhiA_eq]
  have hN : t.val < 112 := lt_of_lt_of_eq t.isLt (show cfg0.N = 112 from N_0)
  iintro ⟨⟨⟨⟨%d6, S6⟩, ⟨%d7, S7⟩, ⟨%d8, S8⟩, ⟨%d9, S9⟩⟩, Hg⟩, Ho, ⟨%e0, H0⟩, ⟨%e1, H1⟩, ⟨%e2, H2⟩, ⟨%e3, H3⟩⟩
  iapply ((runP2 c (grid0.coords t) _ _ _ _ _ _ _ _ _ _ _ _ _ _ _ _ (fun h => absurd ((hc1 t).mp h) (by omega)) (fun h => absurd ((hc2 t).mp h) (by omega)) ((hc3 t).mpr hq) (fun h => absurd ((hc4 t).mp h) (by omega)) (fun h => absurd ((hc5 t).mp h) (by omega)) (iblk m c 0 t) (iblk m c 1 t) (iblk m c 2 t) d6 d7 d8 d9).2.2.2 e3 Set.univ _)
  isplitl [H0]; · iexact H0
  isplitl [H1]; · iexact H1
  isplitl [H2]; · iexact H2
  isplitl [H3]; · iexact H3
  isplitl [S6]; · iexact S6
  isplitl [S7]; · iexact S7
  isplitl [S8]; · iexact S8
  isplitl [S9]; · iexact S9
  iintro ⟨H0, H1, H2, H3, S6, S7, S8, S9⟩
  isplitl [S6 S7 S8 S9 Hg]
  · isplitl [S6 S7 S8 S9]
    · isplitl [S6]
      · iexists _; unfold owns; iexists _; isplitr
        swap; · iexact S6
        ipureintro; rfl
      isplitl [S7]
      · iexists _; unfold owns; iexists _; isplitr
        swap; · iexact S7
        ipureintro; rfl
      isplitl [S8]
      · iexists _; iexact S8
      iexists _; unfold owns; iexists _; isplitr
      swap; · iexact S9
      ipureintro; rfl
    iexact Hg
  isplitl [Ho]; · iexact Ho
  isplitl [H0]; · iexact H0
  isplitl [H1]; · iexact H1
  isplitl [H2]; · iexact H2
  iexists _; iexact H3

end Cert.Kernel.Body

end
-- ==== Proof.BitsBody.SoundP4.lean ====
/-
  The body at a point of phase 4: the run of that case applies; every scratch buffer and the result's staging buffer are
  handed over at some contents and taken back at some contents.
-/
import proofs.«116923_g7430293422642_cont_9to1_m_1024_15_alg».proof.Proof.BitsBody.Data

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
theorem sound_P4 (c : Dev nD) (t : Fin cfg0.N) (hq : t.val / 16 = 4) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2]
  rw [show (dats m 0 c).Φ t.castSucc = Pipeline.ΦA spec0 c from rfl, PhiA_eq]
  have hN : t.val < 112 := lt_of_lt_of_eq t.isLt (show cfg0.N = 112 from N_0)
  iintro ⟨⟨⟨⟨%d6, S6⟩, ⟨%d7, S7⟩, ⟨%d8, S8⟩, ⟨%d9, S9⟩⟩, Hg⟩, Ho, ⟨%e0, H0⟩, ⟨%e1, H1⟩, ⟨%e2, H2⟩, ⟨%e3, H3⟩⟩
  iapply ((runP4 c (grid0.coords t) _ _ _ _ _ _ _ _ _ _ _ _ _ _ _ _ (fun h => absurd ((hc1 t).mp h) (by omega)) (fun h => absurd ((hc2 t).mp h) (by omega)) (fun h => absurd ((hc3 t).mp h) (by omega)) ((hc4 t).mpr hq) (fun h => absurd ((hc5 t).mp h) (by omega)) (iblk m c 0 t) (iblk m c 1 t) (iblk m c 2 t) d6 d7 d8 d9).2.2 e3 Set.univ _)
  isplitl [H0]; · iexact H0
  isplitl [H1]; · iexact H1
  isplitl [H2]; · iexact H2
  isplitl [H3]; · iexact H3
  isplitl [S6]; · iexact S6
  isplitl [S7]; · iexact S7
  isplitl [S8]; · iexact S8
  isplitl [S9]; · iexact S9
  iintro ⟨H0, H1, H2, H3, S6, S7, S8, S9⟩
  isplitl [S6 S7 S8 S9 Hg]
  · isplitl [S6 S7 S8 S9]
    · isplitl [S6]
      · iexists _; iexact S6
      isplitl [S7]
      · iexists _; unfold owns; iexists _; isplitr
        swap; · iexact S7
        ipureintro; rfl
      isplitl [S8]
      · iexists _; iexact S8
      iexists _; unfold owns; iexists _; isplitr
      swap; · iexact S9
      ipureintro; rfl
    iexact Hg
  isplitl [Ho]; · iexact Ho
  isplitl [H0]; · iexact H0
  isplitl [H1]; · iexact H1
  isplitl [H2]; · iexact H2
  iexists _; iexact H3

end Cert.Kernel.Body

end
-- ==== Proof.BitsBody.SoundP6.lean ====
/-
  The body at a point of phase 6: the run of that case applies; every scratch buffer and the result's staging buffer are
  handed over at some contents and taken back at some contents.
-/
import proofs.«116923_g7430293422642_cont_9to1_m_1024_15_alg».proof.Proof.BitsBody.Data

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
theorem sound_P6 (c : Dev nD) (t : Fin cfg0.N) (hq : t.val / 16 = 6) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2]
  rw [show (dats m 0 c).Φ t.castSucc = Pipeline.ΦA spec0 c from rfl, PhiA_eq]
  have hN : t.val < 112 := lt_of_lt_of_eq t.isLt (show cfg0.N = 112 from N_0)
  iintro ⟨⟨⟨⟨%d6, S6⟩, ⟨%d7, S7⟩, ⟨%d8, S8⟩, ⟨%d9, S9⟩⟩, Hg⟩, Ho, ⟨%e0, H0⟩, ⟨%e1, H1⟩, ⟨%e2, H2⟩, ⟨%e3, H3⟩⟩
  iapply ((runP6 c (grid0.coords t) _ _ _ _ _ _ _ _ _ _ _ _ _ _ _ _ (fun h => absurd ((hc1 t).mp h) (by omega)) (fun h => absurd ((hc2 t).mp h) (by omega)) (fun h => absurd ((hc3 t).mp h) (by omega)) (fun h => absurd ((hc4 t).mp h) (by omega)) ((hc5 t).mpr hq) (iblk m c 0 t) (iblk m c 1 t) (iblk m c 2 t) d6 d7 d8 d9).2 e3 Set.univ _)
  isplitl [H0]; · iexact H0
  isplitl [H1]; · iexact H1
  isplitl [H2]; · iexact H2
  isplitl [H3]; · iexact H3
  isplitl [S6]; · iexact S6
  isplitl [S7]; · iexact S7
  isplitl [S8]; · iexact S8
  isplitl [S9]; · iexact S9
  iintro ⟨H0, H1, H2, ⟨%f5, H3⟩, S6, S7, S8, S9⟩
  isplitl [S6 S7 S8 S9 Hg]
  · isplitl [S6 S7 S8 S9]
    · isplitl [S6]
      · iexists _; iexact S6
      isplitl [S7]
      · iexists _; iexact S7
      isplitl [S8]
      · iexists _; iexact S8
      iexists _; iexact S9
    iexact Hg
  isplitl [Ho]; · iexact Ho
  isplitl [H0]; · iexact H0
  isplitl [H1]; · iexact H1
  isplitl [H2]; · iexact H2
  iexists _; unfold owns; iexists _; isplitr
  swap; · iexact H3
  ipureintro; rfl

end Cert.Kernel.Body

end
-- ==== Proof.BitsBody.Frame.lean ====
/-
  The frame of the program: it runs to the end at every point, faults nowhere, and leaves its three argument arrays as
  they were.  At each point exactly one of the five phase conditions holds, and the body's run in that case applies.
-/
import proofs.«116923_g7430293422642_cont_9to1_m_1024_15_alg».proof.Proof.BitsBody.SoundP0
import proofs.«116923_g7430293422642_cont_9to1_m_1024_15_alg».proof.Proof.BitsBody.SoundPT
import proofs.«116923_g7430293422642_cont_9to1_m_1024_15_alg».proof.Proof.BitsBody.SoundP2
import proofs.«116923_g7430293422642_cont_9to1_m_1024_15_alg».proof.Proof.BitsBody.SoundP4
import proofs.«116923_g7430293422642_cont_9to1_m_1024_15_alg».proof.Proof.BitsBody.SoundP6

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point: by the phase. -/
theorem sound_body (c : Dev nD) (t : Fin cfg0.N) :
    bodyPre m c t ⊢ wp frame (wpE (defs₀ (F := F)) Variants.none c none) Set.univ (bodyAt0 t) (fun _ => bodyPost m c t) := by
  have hN : t.val < 112 := lt_of_lt_of_eq t.isLt (show cfg0.N = 112 from N_0)
  by_cases h0 : t.val / 16 = 0
  · exact sound_P0 m c t h0
  by_cases hT : t.val / 16 % 2 = 1
  · exact sound_PT m c t hT
  by_cases h2 : t.val / 16 = 2
  · exact sound_P2 m c t h2
  by_cases h4 : t.val / 16 = 4
  · exact sound_P4 m c t h4
  exact sound_P6 m c t (by omega)

/-- The library's body obligation, at every point. -/
theorem body_obligation (c : Dev nD) : BodyObligation (dats (F := F) m 0 c) (defs₀ (F := F)) Variants.none () Set.univ forgets := fun t => by
  rw [bigSep_W0, bigSep_W0]
  exact sound_body m c t

/-- The frame claim's post from a run that forgets the result's window: each input array is never written. -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Eq.mp (congrFun ((rdat c).ArrAt_in 0 rfl _) _) ((h c).1 0)).trans ((hA c 0).trans (V_main_arg0 m c)),
      (Eq.mp (congrFun ((rdat c).ArrAt_in 2 rfl _) _) ((h c).1 2)).trans ((hA c 2).trans (V_main_arg1 m c)),
      (Eq.mp (congrFun ((rdat c).ArrAt_in 1 rfl _) _) ((h c).1 1)).trans ((hA c 1).trans (V_main_arg2 m c))⟩) h

set_option backward.isDefEq.respectTransparency.types false in
/-- Every weakly fair execution terminates, every input array of the pipeline unchanged. -/
theorem run_main : θ_run defs (onTc (τ := τ) (main (F := F))) (s₀ m ρ) (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget) (hshare := fun c => ((dats m 0 c).toRForget forgets).share_full fun _ => rfl)
    (howed := fun _ _ => rfl) (V := V m) (hmain := hmain m Variants.none) (hA := A_eq m) (hΦ := fun _ _ => rfl)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of_forget m ρ (fun c => (dats m 0 c).toRForget forgets) (A_eq m) (run_main m ρ)

end Cert.Kernel.Body

end
-- ==== Proof.IdealBody.Base.lean ====
/-
  What the runs of the kernel body share.  The grid has 112 points, 7 phases of 16 row blocks; point `t` is block
  `t % 16` of phase `t / 16`.  The body has five conditionals, on the phase alone: phase 0, an odd phase, phase 2,
  phase 4, phase 6 — exactly one holds at each point.  The body is handed the current staging buffers of its four
  windows (the node states' block, the target incidences' block, the source incidences' block, the result's block) and
  four whole scratch buffers it keeps between points (the kept source incidences, the current state, the messages, the
  running sum).  The result's window is idle before phase 6 and is written back at every point of phase 6.
-/
import proofs.«116923_g7430293422642_cont_9to1_m_1024_15_alg».proof.Proof.Gen.KernelIdeal.Frame
import proofs.«116923_g7430293422642_cont_9to1_m_1024_15_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The memrefs the body is called with -/

abbrev ms0 (t : Fin cfg0.N) : Memref sig .tc .vmem S256x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x4096 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x256 .f32 := win0_3.stage (cfg0.slots t 3)
abbrev hs3 (t : Fin cfg0.N) : (ms3 t).IsWhole := hstage0_3 ((cfg0.slots t 3).cast nbuf0_3)
/-- The scratch buffers: the kept source incidences, the current state, the messages, the running sum. -/
abbrev sc0 : Memref sig .tc .vmem S4096x4096 .bf16 := Memref.whole cc0_scratch0
abbrev sc1 : Memref sig .tc .vmem S4096x256 .bf16 := Memref.whole cc0_scratch1
abbrev sc2 : Memref sig .tc .vmem S4096x256 .bf16 := Memref.whole cc0_scratch2
abbrev sc3 : Memref sig .tc .vmem S4096x256 .bf16 := Memref.whole cc0_scratch3

/-- The region's invariant with the four scratch buffers as memrefs owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-! ## The five conditions, by the phase -/

abbrev c1 (i : grid0.Coords) : Prop := k0_cond1 i = 1#1
abbrev c2 (i : grid0.Coords) : Prop := k0_cond2 i = 1#1
abbrev c3 (i : grid0.Coords) : Prop := k0_cond3 i = 1#1
abbrev c4 (i : grid0.Coords) : Prop := k0_cond4 i = 1#1
abbrev c5 (i : grid0.Coords) : Prop := k0_cond5 i = 1#1

theorem hc1 : ∀ t : Fin cfg0.N, c1 (grid0.coords t) ↔ t.val / 16 = 0 :=
  (by decide +kernel : ∀ t : Fin grid0.N, c1 (grid0.coords t) ↔ t.val / 16 = 0)
theorem hc2 : ∀ t : Fin cfg0.N, c2 (grid0.coords t) ↔ t.val / 16 % 2 = 1 :=
  (by decide +kernel : ∀ t : Fin grid0.N, c2 (grid0.coords t) ↔ t.val / 16 % 2 = 1)
theorem hc3 : ∀ t : Fin cfg0.N, c3 (grid0.coords t) ↔ t.val / 16 = 2 :=
  (by decide +kernel : ∀ t : Fin grid0.N, c3 (grid0.coords t) ↔ t.val / 16 = 2)
theorem hc4 : ∀ t : Fin cfg0.N, c4 (grid0.coords t) ↔ t.val / 16 = 4 :=
  (by decide +kernel : ∀ t : Fin grid0.N, c4 (grid0.coords t) ↔ t.val / 16 = 4)
theorem hc5 : ∀ t : Fin cfg0.N, c5 (grid0.coords t) ↔ t.val / 16 = 6 :=
  (by decide +kernel : ∀ t : Fin grid0.N, c5 (grid0.coords t) ↔ t.val / 16 = 6)

/-! ## Where the result's window is idle, and where it is written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem idle3 : ∀ t : Fin cfg0.N, ¬ t.val / 16 = 6 → cfg0.idle 3 (grid0.coords t) = true := by decide +kernel
theorem noFlush3 : ∀ t : Fin cfg0.N, ¬ t.val / 16 = 6 → (cfg0.win 3).flush t = false := by decide +kernel
theorem live3 : ∀ t : Fin cfg0.N, t.val / 16 = 6 → cfg0.idle 3 (grid0.coords t) = false := by decide +kernel
theorem flush3 : ∀ t : Fin cfg0.N, t.val / 16 = 6 → (cfg0.win 3).flush t = true := by decide +kernel

end Cert.KernelIdeal.Body

end
-- ==== Proof.IdealBody.RunP0.lean ====
/-
  The kernel body run at a point of phase 0: the block's rows of the node states go into the running sum and into the current state.
  The buffers it stores into end with its stores written over what they held; the others are handed back as they were.
-/
import proofs.«116923_g7430293422642_cont_9to1_m_1024_15_alg».proof.Proof.IdealBody.Base

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case, on any whole memrefs: what it stores, as pieces (newest first) the run finds. -/
noncomputable def runP0 (c : Dev nD) (i : grid0.Coords) (arg2 : Memref sig .tc .vmem S256x256 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x256 .f32) (harg5 : arg5.IsWhole) (arg6 : Memref sig .tc .vmem S4096x4096 .bf16) (harg6 : arg6.IsWhole) (arg7 : Memref sig .tc .vmem S4096x256 .bf16) (harg7 : arg7.IsWhole) (arg8 : Memref sig .tc .vmem S4096x256 .bf16) (harg8 : arg8.IsWhole) (arg9 : Memref sig .tc .vmem S4096x256 .bf16) (harg9 : arg9.IsWhole)
    (h1 : c1 i) (h2 : ¬c2 i) (h3 : ¬c3 i) (h4 : ¬c4 i) (h5 : ¬c5 i)
    (x0 : Vec F S256x256 .f32) (x1 : Vec F S256x4096 .f32) (x2 : Vec F S256x4096 .f32) (s6 : Vec F S4096x4096 .bf16) (s7 : Vec F S4096x256 .bf16) (s8 : Vec F S4096x256 .bf16) (s9 : Vec F S4096x256 .bf16) :
    Σ' (L7 : List (View.Piece (Elt F) S4096x256 .bf16)), { L9 : List (View.Piece (Elt F) S4096x256 .bf16) //
      ∀ (xo : Vec F S256x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare s6 ∗ owns (c : Thread nD τ) arg7 fullShare s7 ∗ owns (c : Thread nD τ) arg8 fullShare s8 ∗ owns (c : Thread nD τ) arg9 fullShare s9
            ∗ (iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare s6 ∗ (arg7.view.loc (c : Thread nD τ) ↦[arg7.view.set]{fullShare} arg7.view.writes (Elt F) (harg7.unread s7) L7) ∗ owns (c : Thread nD τ) arg8 fullShare s8 ∗ (arg9.view.loc (c : Thread nD τ) ↦[arg9.view.set]{fullShare} arg9.view.writes (Elt F) (harg9.unread s9) L9)) -∗ K ⟨⟩))
          ⊢ wp frame (wpE (defs₀ (F := F)) Variants.none c none) E (cc0__mega_kernel i arg2 harg2 arg3 harg3 arg4 harg4 arg5 harg5 arg6 harg6 arg7 harg7 arg8 harg8 arg9 harg9) K } := by
  refine ⟨?_, ?_, fun xo E K => ?run⟩
  case run =>
    simp only [cc0__mega_kernel_eq_skeleton]; unfold cc0__mega_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | exact h1 | exact h2 | exact h3 | exact h4 | exact h5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexact H7
    isplitl [H8]
    · iexists _; isplitr; · ipureintro; exact harg8.read_unread _
      iexact H8
    iexact H9

end Cert.KernelIdeal.Body

end
-- ==== Proof.IdealBody.RunPT.lean ====
/-
  The kernel body run at a point of an odd phase: the block's rows of (target incidences · current state) go into the messages.
  The buffers it stores into end with its stores written over what they held; the others are handed back as they were.
-/
import proofs.«116923_g7430293422642_cont_9to1_m_1024_15_alg».proof.Proof.IdealBody.RunP0

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case, on any whole memrefs: what it stores, as pieces (newest first) the run finds. -/
noncomputable def runPT (c : Dev nD) (i : grid0.Coords) (arg2 : Memref sig .tc .vmem S256x256 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x256 .f32) (harg5 : arg5.IsWhole) (arg6 : Memref sig .tc .vmem S4096x4096 .bf16) (harg6 : arg6.IsWhole) (arg7 : Memref sig .tc .vmem S4096x256 .bf16) (harg7 : arg7.IsWhole) (arg8 : Memref sig .tc .vmem S4096x256 .bf16) (harg8 : arg8.IsWhole) (arg9 : Memref sig .tc .vmem S4096x256 .bf16) (harg9 : arg9.IsWhole)
    (h1 : ¬c1 i) (h2 : c2 i) (h3 : ¬c3 i) (h4 : ¬c4 i) (h5 : ¬c5 i)
    (x0 : Vec F S256x256 .f32) (x1 : Vec F S256x4096 .f32) (x2 : Vec F S256x4096 .f32) (s6 : Vec F S4096x4096 .bf16) (s7 : Vec F S4096x256 .bf16) (s8 : Vec F S4096x256 .bf16) (s9 : Vec F S4096x256 .bf16) :
    { L8 : List (View.Piece (Elt F) S4096x256 .bf16) //
      ∀ (xo : Vec F S256x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare s6 ∗ owns (c : Thread nD τ) arg7 fullShare s7 ∗ owns (c : Thread nD τ) arg8 fullShare s8 ∗ owns (c : Thread nD τ) arg9 fullShare s9
            ∗ (iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare s6 ∗ owns (c : Thread nD τ) arg7 fullShare s7 ∗ (arg8.view.loc (c : Thread nD τ) ↦[arg8.view.set]{fullShare} arg8.view.writes (Elt F) (harg8.unread s8) L8) ∗ owns (c : Thread nD τ) arg9 fullShare s9) -∗ K ⟨⟩))
          ⊢ wp frame (wpE (defs₀ (F := F)) Variants.none c none) E (cc0__mega_kernel i arg2 harg2 arg3 harg3 arg4 harg4 arg5 harg5 arg6 harg6 arg7 harg7 arg8 harg8 arg9 harg9) K } := by
  refine ⟨?_, fun xo E K => ?run⟩
  case run =>
    simp only [cc0__mega_kernel_eq_skeleton]; unfold cc0__mega_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | exact h1 | exact h2 | exact h3 | exact h4 | exact h5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexact H8
    iexists _; isplitr; · ipureintro; exact harg9.read_unread _
    iexact H9

end Cert.KernelIdeal.Body

end
-- ==== Proof.IdealBody.RunP2.lean ====
/-
  The kernel body run at a point of phase 2: the block's rows of the source incidences are kept; the block's rows of (source incidences · messages + current state) are added to the running sum and become the current state.
  The buffers it stores into end with its stores written over what they held; the others are handed back as they were.
-/
import proofs.«116923_g7430293422642_cont_9to1_m_1024_15_alg».proof.Proof.IdealBody.RunPT

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case, on any whole memrefs: what it stores, as pieces (newest first) the run finds. -/
noncomputable def runP2 (c : Dev nD) (i : grid0.Coords) (arg2 : Memref sig .tc .vmem S256x256 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x256 .f32) (harg5 : arg5.IsWhole) (arg6 : Memref sig .tc .vmem S4096x4096 .bf16) (harg6 : arg6.IsWhole) (arg7 : Memref sig .tc .vmem S4096x256 .bf16) (harg7 : arg7.IsWhole) (arg8 : Memref sig .tc .vmem S4096x256 .bf16) (harg8 : arg8.IsWhole) (arg9 : Memref sig .tc .vmem S4096x256 .bf16) (harg9 : arg9.IsWhole)
    (h1 : ¬c1 i) (h2 : ¬c2 i) (h3 : c3 i) (h4 : ¬c4 i) (h5 : ¬c5 i)
    (x0 : Vec F S256x256 .f32) (x1 : Vec F S256x4096 .f32) (x2 : Vec F S256x4096 .f32) (s6 : Vec F S4096x4096 .bf16) (s7 : Vec F S4096x256 .bf16) (s8 : Vec F S4096x256 .bf16) (s9 : Vec F S4096x256 .bf16) :
    Σ' (L6 : List (View.Piece (Elt F) S4096x4096 .bf16)) (L7 : List (View.Piece (Elt F) S4096x256 .bf16)), { L9 : List (View.Piece (Elt F) S4096x256 .bf16) //
      ∀ (xo : Vec F S256x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare s6 ∗ owns (c : Thread nD τ) arg7 fullShare s7 ∗ owns (c : Thread nD τ) arg8 fullShare s8 ∗ owns (c : Thread nD τ) arg9 fullShare s9
            ∗ (iprop(owns (c : Thread nD τ) arg2 fullShare x0 ∗ owns (c : Thread nD τ) arg3 fullShare x1 ∗ owns (c : Thread nD τ) arg4 fullShare x2 ∗ owns (c : Thread nD τ) arg5 fullShare xo ∗ (arg6.view.loc (c : Thread nD τ) ↦[arg6.view.set]{fullShare} arg6.view.writes (Elt F) (harg6.unread s6) L6) ∗ (arg7.view.loc (c : Thread nD τ) ↦[arg7.view.set]{fullShare} arg7.view.writes (Elt F) (harg7.unread s7) L7) ∗ owns (c : Thread nD τ) arg8 fullShare s8 ∗ (arg9.view.loc (c : Thread nD τ) ↦[arg9.view.set]{fullShare} arg9.view.writes (Elt F) (harg9.unread s9) L9)) -∗ K ⟨⟩))
          ⊢ wp frame (wpE (defs₀ (F := F)) Variants.none c none) E (cc0__mega_kernel i arg2 harg2 arg3 harg3 arg4 harg4 arg5 harg5 arg6 harg6 arg7 harg7 arg8 harg8 arg9 harg9) K } := by
  refine ⟨?_, ?_, ?_, fun xo E K => ?run⟩
  case run =>
    simp only [cc0__mega_kernel_eq_skeleton]; unfold cc0__mega_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | exact h1 | exact h2 | exact h3 | exact h4 | exact h5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexact H6
    isplitl [H7]
    · iexact H7
    isplitl [H8]
    · iexists _; isplitr; · ipureintro; exact harg8.read_unread _
      iexact H8
    iexact H9

end Cert.KernelIdeal.Body

end
-- ==== Proof.IdealBody.RunP4.lean ====
/-
  The kernel body run at a point of phase 4: as phase 2, with the kept source incidences.
  The buffers it stores into end with its stores written over what they held; the others are handed back as they were.
-/
import proofs.«116923_g7430293422642_cont_9to1_m_1024_15_alg».proof.Proof.IdealBody.RunP2

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case, on any whole memrefs: what it stores, as pieces (newest first) the run finds. -/
noncomputable def runP4 (c : Dev nD) (i : grid0.Coords) (arg2 : Memref sig .tc .vmem S256x256 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x256 .f32) (harg5 : arg5.IsWhole) (arg6 : Memref sig .tc .vmem S4096x4096 .bf16) (harg6 : arg6.IsWhole) (arg7 : Memref sig .tc .vmem S4096x256 .bf16) (harg7 : arg7.IsWhole) (arg8 : Memref sig .tc .vmem S4096x256 .bf16) (harg8 : arg8.IsWhole) (arg9 : Memref sig .tc .vmem S4096x256 .bf16) (harg9 : arg9.IsWhole)
    (h1 : ¬c1 i) (h2 : ¬c2 i) (h3 : ¬c3 i) (h4 : c4 i) (h5 : ¬c5 i)
    (x0 : Vec F S256x256 .f32) (x1 : Vec F S256x4096 .f32) (x2 : Vec F S256x4096 .f32) (s6 : Vec F S4096x4096 .bf16) (s7 : Vec F S4096x256 .bf16) (s8 : Vec F S4096x256 .bf16) (s9 : Vec F S4096x256 .bf16) :
    Σ' (L7 : List (View.Piece (Elt F) S4096x256 .bf16)), { L9 : List (View.Piece (Elt F) S4096x256 .bf16) //
      ∀ (xo : Vec F S256x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare s6 ∗ owns (c : Thread nD τ) arg7 fullShare s7 ∗ owns (c : Thread nD τ) arg8 fullShare s8 ∗ owns (c : Thread nD τ) arg9 fullShare s9
            ∗ (iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare s6 ∗ (arg7.view.loc (c : Thread nD τ) ↦[arg7.view.set]{fullShare} arg7.view.writes (Elt F) (harg7.unread s7) L7) ∗ owns (c : Thread nD τ) arg8 fullShare s8 ∗ (arg9.view.loc (c : Thread nD τ) ↦[arg9.view.set]{fullShare} arg9.view.writes (Elt F) (harg9.unread s9) L9)) -∗ K ⟨⟩))
          ⊢ wp frame (wpE (defs₀ (F := F)) Variants.none c none) E (cc0__mega_kernel i arg2 harg2 arg3 harg3 arg4 harg4 arg5 harg5 arg6 harg6 arg7 harg7 arg8 harg8 arg9 harg9) K } := by
  refine ⟨?_, ?_, fun xo E K => ?run⟩
  case run =>
    simp only [cc0__mega_kernel_eq_skeleton]; unfold cc0__mega_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | exact h1 | exact h2 | exact h3 | exact h4 | exact h5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexact H7
    isplitl [H8]
    · iexists _; isplitr; · ipureintro; exact harg8.read_unread _
      iexact H8
    iexact H9

end Cert.KernelIdeal.Body

end
-- ==== Proof.IdealBody.RunP6.lean ====
/-
  The kernel body run at a point of phase 6: the result's block is the weight times (running sum + (kept source incidences · messages + current state)) on the block's rows.
  The buffers it stores into end with its stores written over what they held; the others are handed back as they were.
-/
import proofs.«116923_g7430293422642_cont_9to1_m_1024_15_alg».proof.Proof.IdealBody.RunP4

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case, on any whole memrefs: what it stores, as pieces (newest first) the run finds. -/
noncomputable def runP6 (c : Dev nD) (i : grid0.Coords) (arg2 : Memref sig .tc .vmem S256x256 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x256 .f32) (harg5 : arg5.IsWhole) (arg6 : Memref sig .tc .vmem S4096x4096 .bf16) (harg6 : arg6.IsWhole) (arg7 : Memref sig .tc .vmem S4096x256 .bf16) (harg7 : arg7.IsWhole) (arg8 : Memref sig .tc .vmem S4096x256 .bf16) (harg8 : arg8.IsWhole) (arg9 : Memref sig .tc .vmem S4096x256 .bf16) (harg9 : arg9.IsWhole)
    (h1 : ¬c1 i) (h2 : ¬c2 i) (h3 : ¬c3 i) (h4 : ¬c4 i) (h5 : c5 i)
    (x0 : Vec F S256x256 .f32) (x1 : Vec F S256x4096 .f32) (x2 : Vec F S256x4096 .f32) (s6 : Vec F S4096x4096 .bf16) (s7 : Vec F S4096x256 .bf16) (s8 : Vec F S4096x256 .bf16) (s9 : Vec F S4096x256 .bf16) :
    { L5 : List (View.Piece (Elt F) S256x256 .f32) //
      ∀ (xo : Vec F S256x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare s6 ∗ owns (c : Thread nD τ) arg7 fullShare s7 ∗ owns (c : Thread nD τ) arg8 fullShare s8 ∗ owns (c : Thread nD τ) arg9 fullShare s9
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L5) ∗ owns (c : Thread nD τ) arg6 fullShare s6 ∗ owns (c : Thread nD τ) arg7 fullShare s7 ∗ owns (c : Thread nD τ) arg8 fullShare s8 ∗ owns (c : Thread nD τ) arg9 fullShare s9) -∗ K ⟨⟩))
          ⊢ wp frame (wpE (defs₀ (F := F)) Variants.none c none) E (cc0__mega_kernel i arg2 harg2 arg3 harg3 arg4 harg4 arg5 harg5 arg6 harg6 arg7 harg7 arg8 harg8 arg9 harg9) K } := by
  refine ⟨?_, fun xo E K => ?run⟩
  case run =>
    simp only [cc0__mega_kernel_eq_skeleton]; unfold cc0__mega_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | exact h1 | exact h2 | exact h3 | exact h4 | exact h5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    iexists _; isplitr; · ipureintro; exact harg9.read_unread _
    iexact H9

end Cert.KernelIdeal.Body

end
-- ==== Proof.Spec.lean ====
/-
  Three rounds of a directed hypergraph convolution, and a weighted sum of the four states, as functions of indices
  over the extended reals.

  With `T` the target incidences, `S` the source incidences and `X` the node states, one round gathers messages along
  the target incidences (`T · X`), spreads them along the source incidences (`S · (T · X)`), and adds the state it started
  from: `X ↦ S · (T · X) + X`.  The network applies the round three times, `X0 ↦ X1 ↦ X2 ↦ X3`, and returns the mean of
  the four states.  Here the mean is written with a weight `w` in front of the sum grouped from the left,
  `w · (((X0 + X1) + X2) + X3)`; at `w = 1/4` it is the mean.

  Every sum is a finite sum over `Fin 4096` in the extended reals, where addition and multiplication are commutative and
  associative, so no order of summation is fixed and no entry needs to be finite.
-/
import Idealize.ShloMosaic.PureOps.Ideal

import Idealize.ShloMosaic.Lib.ValueIdx

noncomputable section

open scoped BigOperators

namespace HyperConv

/-- An `m × n` array of extended reals, by row and column. -/
abbrev Mat (m n : ℕ) : Type := Fin m → Fin n → EReal

/-- The matrix product, entry by entry: row `r` of `A` against column `c` of `B`. -/
def mm {m k n : ℕ} (A : Mat m k) (B : Mat k n) : Mat m n := fun r c => ∑ j : Fin k, A r j * B j c

/-- One round: `S · (T · X) + X`. -/
def layer (S T : Mat 4096 4096) (X : Mat 4096 256) : Mat 4096 256 := fun r c => mm S (mm T X) r c + X r c

/-- The state after one round. -/
def X1 (S T : Mat 4096 4096) (X0 : Mat 4096 256) : Mat 4096 256 := layer S T X0
/-- The state after two rounds. -/
def X2 (S T : Mat 4096 4096) (X0 : Mat 4096 256) : Mat 4096 256 := layer S T (X1 S T X0)
/-- The state after three rounds. -/
def X3 (S T : Mat 4096 4096) (X0 : Mat 4096 256) : Mat 4096 256 := layer S T (X2 S T X0)

/-- The weighted sum of the four states, grouped from the left: `w · (((X0 + X1) + X2) + X3)`. -/
def weighted (w : EReal) (S T : Mat 4096 4096) (X0 : Mat 4096 256) : Mat 4096 256 := fun r c =>
  w * (((X0 r c + X1 S T X0 r c) + X2 S T X0 r c) + X3 S T X0 r c)

/-- An array of shape `[m, n]` read by row and column. -/
def toMat {m n : ℕ} (a : (⟨2, ![m, n]⟩ : Idealize.ShloMosaic.Shape).Idx → EReal) : Mat m n :=
  fun r c => a (Idealize.ShloMosaic.ValueIdx.ix2 r c)

/-- The network's result as an array: at index `y` the weighted sum of the four states at row `y 0`, column `y 1`,
    of the node states `x0`, the source incidences `src` and the target incidences `tar` given as arrays. -/
def result (w : EReal) (x0 : (⟨2, ![4096, 256]⟩ : Idealize.ShloMosaic.Shape).Idx → EReal)
    (src tar : (⟨2, ![4096, 4096]⟩ : Idealize.ShloMosaic.Shape).Idx → EReal) :
    (⟨2, ![4096, 256]⟩ : Idealize.ShloMosaic.Shape).Idx → EReal :=
  fun y => weighted w (toMat src) (toMat tar) (toMat x0) (y 0) (y 1)

end HyperConv

end
-- ==== Proof.IdealBody.Track.lean ====
/-
  The kept arrays point by point, at the ideal instance, and the proof data that tracks them.

  Before the first point the four scratch buffers hold anything, `σ0`.  After `n` points they hold `scrAt σ0 n`: each
  point's body replaces the rows of its block in the buffers its phase stores into and leaves everything else.  The
  region's invariant before point `n` says exactly this, for SOME `σ0`.  The result's window is idle before phase 6; at a
  point of phase 6 the body stores the whole block, and the proof data names what it leaves as the block of ONE array
  `G`, the network's result — given that the stored block is that block (`OutFact`, proved from the steps' mathematics
  elsewhere).
-/
import proofs.«116923_g7430293422642_cont_9to1_m_1024_15_alg».proof.Proof.IdealBody.RunP6
import proofs.«116923_g7430293422642_cont_9to1_m_1024_15_alg».proof.Proof.Spec

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- What the four scratch buffers hold: the kept source incidences, the current state, the messages, the running sum. -/
structure Scr where
  sb : Vec Ideal S4096x4096 .bf16
  xb : Vec Ideal S4096x256 .bf16
  yb : Vec Ideal S4096x256 .bf16
  acc : Vec Ideal S4096x256 .bf16

abbrev hw0 : sc0.IsWhole := Memref.isWhole_whole _
abbrev hw1 : sc1.IsWhole := Memref.isWhole_whole _
abbrev hw2 : sc2.IsWhole := Memref.isWhole_whole _
abbrev hw3 : sc3.IsWhole := Memref.isWhole_whole _

/-- The scratch after a point of this phase: the buffers the body stores into, read back; the others as they were. -/
def stepP0 (c : Dev nD) (t : Fin cfg0.N) (hq : t.val / 16 = 0) (σ : Scr) : Scr :=
  { σ with xb := sc1.view.read (Elt Ideal) (sc1.view.writes (Elt Ideal) (hw1.unread σ.xb) (runP0 (F := Ideal) c (grid0.coords t) (ms0 t) (hs0 t) (ms1 t) (hs1 t) (ms2 t) (hs2 t) (ms3 t) (hs3 t) sc0 hw0 sc1 hw1 sc2 hw2 sc3 hw3 ((hc1 t).mpr hq) (fun h => absurd ((hc2 t).mp h) (by omega)) (fun h => absurd ((hc3 t).mp h) (by omega)) (fun h => absurd ((hc4 t).mp h) (by omega)) (fun h => absurd ((hc5 t).mp h) (by omega)) (iblk m c 0 t) (iblk m c 1 t) (iblk m c 2 t) σ.sb σ.xb σ.yb σ.acc).1),
           acc := sc3.view.read (Elt Ideal) (sc3.view.writes (Elt Ideal) (hw3.unread σ.acc) (runP0 (F := Ideal) c (grid0.coords t) (ms0 t) (hs0 t) (ms1 t) (hs1 t) (ms2 t) (hs2 t) (ms3 t) (hs3 t) sc0 hw0 sc1 hw1 sc2 hw2 sc3 hw3 ((hc1 t).mpr hq) (fun h => absurd ((hc2 t).mp h) (by omega)) (fun h => absurd ((hc3 t).mp h) (by omega)) (fun h => absurd ((hc4 t).mp h) (by omega)) (fun h => absurd ((hc5 t).mp h) (by omega)) (iblk m c 0 t) (iblk m c 1 t) (iblk m c 2 t) σ.sb σ.xb σ.yb σ.acc).2.1) }

/-- The scratch after a point of this phase: the buffers the body stores into, read back; the others as they were. -/
def stepPT (c : Dev nD) (t : Fin cfg0.N) (hq : t.val / 16 % 2 = 1) (σ : Scr) : Scr :=
  { σ with yb := sc2.view.read (Elt Ideal) (sc2.view.writes (Elt Ideal) (hw2.unread σ.yb) (runPT (F := Ideal) c (grid0.coords t) (ms0 t) (hs0 t) (ms1 t) (hs1 t) (ms2 t) (hs2 t) (ms3 t) (hs3 t) sc0 hw0 sc1 hw1 sc2 hw2 sc3 hw3 (fun h => absurd ((hc1 t).mp h) (by omega)) ((hc2 t).mpr hq) (fun h => absurd ((hc3 t).mp h) (by omega)) (fun h => absurd ((hc4 t).mp h) (by omega)) (fun h => absurd ((hc5 t).mp h) (by omega)) (iblk m c 0 t) (iblk m c 1 t) (iblk m c 2 t) σ.sb σ.xb σ.yb σ.acc).1) }

/-- The scratch after a point of this phase: the buffers the body stores into, read back; the others as they were. -/
def stepP2 (c : Dev nD) (t : Fin cfg0.N) (hq : t.val / 16 = 2) (σ : Scr) : Scr :=
  { σ with sb := sc0.view.read (Elt Ideal) (sc0.view.writes (Elt Ideal) (hw0.unread σ.sb) (runP2 (F := Ideal) c (grid0.coords t) (ms0 t) (hs0 t) (ms1 t) (hs1 t) (ms2 t) (hs2 t) (ms3 t) (hs3 t) sc0 hw0 sc1 hw1 sc2 hw2 sc3 hw3 (fun h => absurd ((hc1 t).mp h) (by omega)) (fun h => absurd ((hc2 t).mp h) (by omega)) ((hc3 t).mpr hq) (fun h => absurd ((hc4 t).mp h) (by omega)) (fun h => absurd ((hc5 t).mp h) (by omega)) (iblk m c 0 t) (iblk m c 1 t) (iblk m c 2 t) σ.sb σ.xb σ.yb σ.acc).1),
           xb := sc1.view.read (Elt Ideal) (sc1.view.writes (Elt Ideal) (hw1.unread σ.xb) (runP2 (F := Ideal) c (grid0.coords t) (ms0 t) (hs0 t) (ms1 t) (hs1 t) (ms2 t) (hs2 t) (ms3 t) (hs3 t) sc0 hw0 sc1 hw1 sc2 hw2 sc3 hw3 (fun h => absurd ((hc1 t).mp h) (by omega)) (fun h => absurd ((hc2 t).mp h) (by omega)) ((hc3 t).mpr hq) (fun h => absurd ((hc4 t).mp h) (by omega)) (fun h => absurd ((hc5 t).mp h) (by omega)) (iblk m c 0 t) (iblk m c 1 t) (iblk m c 2 t) σ.sb σ.xb σ.yb σ.acc).2.1),
           acc := sc3.view.read (Elt Ideal) (sc3.view.writes (Elt Ideal) (hw3.unread σ.acc) (runP2 (F := Ideal) c (grid0.coords t) (ms0 t) (hs0 t) (ms1 t) (hs1 t) (ms2 t) (hs2 t) (ms3 t) (hs3 t) sc0 hw0 sc1 hw1 sc2 hw2 sc3 hw3 (fun h => absurd ((hc1 t).mp h) (by omega)) (fun h => absurd ((hc2 t).mp h) (by omega)) ((hc3 t).mpr hq) (fun h => absurd ((hc4 t).mp h) (by omega)) (fun h => absurd ((hc5 t).mp h) (by omega)) (iblk m c 0 t) (iblk m c 1 t) (iblk m c 2 t) σ.sb σ.xb σ.yb σ.acc).2.2.1) }

/-- The scratch after a point of this phase: the buffers the body stores into, read back; the others as they were. -/
def stepP4 (c : Dev nD) (t : Fin cfg0.N) (hq : t.val / 16 = 4) (σ : Scr) : Scr :=
  { σ with xb := sc1.view.read (Elt Ideal) (sc1.view.writes (Elt Ideal) (hw1.unread σ.xb) (runP4 (F := Ideal) c (grid0.coords t) (ms0 t) (hs0 t) (ms1 t) (hs1 t) (ms2 t) (hs2 t) (ms3 t) (hs3 t) sc0 hw0 sc1 hw1 sc2 hw2 sc3 hw3 (fun h => absurd ((hc1 t).mp h) (by omega)) (fun h => absurd ((hc2 t).mp h) (by omega)) (fun h => absurd ((hc3 t).mp h) (by omega)) ((hc4 t).mpr hq) (fun h => absurd ((hc5 t).mp h) (by omega)) (iblk m c 0 t) (iblk m c 1 t) (iblk m c 2 t) σ.sb σ.xb σ.yb σ.acc).1),
           acc := sc3.view.read (Elt Ideal) (sc3.view.writes (Elt Ideal) (hw3.unread σ.acc) (runP4 (F := Ideal) c (grid0.coords t) (ms0 t) (hs0 t) (ms1 t) (hs1 t) (ms2 t) (hs2 t) (ms3 t) (hs3 t) sc0 hw0 sc1 hw1 sc2 hw2 sc3 hw3 (fun h => absurd ((hc1 t).mp h) (by omega)) (fun h => absurd ((hc2 t).mp h) (by omega)) (fun h => absurd ((hc3 t).mp h) (by omega)) ((hc4 t).mpr hq) (fun h => absurd ((hc5 t).mp h) (by omega)) (iblk m c 0 t) (iblk m c 1 t) (iblk m c 2 t) σ.sb σ.xb σ.yb σ.acc).2.1) }

/-- The scratch after point `t`, by its phase (phase 6 stores into no scratch). -/
def stepScr (c : Dev nD) (t : Fin cfg0.N) (σ : Scr) : Scr :=
  if h0 : t.val / 16 = 0 then stepP0 m c t h0 σ
  else if hT : t.val / 16 % 2 = 1 then stepPT m c t hT σ
  else if h2 : t.val / 16 = 2 then stepP2 m c t h2 σ
  else if h4 : t.val / 16 = 4 then stepP4 m c t h4 σ
  else σ

/-- The scratch after the first `n` points, from `σ0`. -/
def scrAt (c : Dev nD) (σ0 : Scr) : (n : ℕ) → n ≤ cfg0.N → Scr
  | 0, _ => σ0
  | n + 1, h => stepScr m c ⟨n, Nat.lt_of_succ_le h⟩ (scrAt c σ0 n (Nat.le_of_succ_le h))

theorem scrAt_succ (c : Dev nD) (σ0 : Scr) (t : Fin cfg0.N) :
    scrAt m c σ0 (t.val + 1) t.isLt = stepScr m c t (scrAt m c σ0 t.val (Nat.le_of_lt t.isLt)) := rfl

theorem stepScr_P0 (c : Dev nD) (t : Fin cfg0.N) (hq : t.val / 16 = 0) (σ : Scr) : stepScr m c t σ = stepP0 m c t hq σ := dif_pos hq
theorem stepScr_PT (c : Dev nD) (t : Fin cfg0.N) (hq : t.val / 16 % 2 = 1) (σ : Scr) : stepScr m c t σ = stepPT m c t hq σ := by
  unfold stepScr; rw [dif_neg (by omega), dif_pos hq]
theorem stepScr_P2 (c : Dev nD) (t : Fin cfg0.N) (hq : t.val / 16 = 2) (σ : Scr) : stepScr m c t σ = stepP2 m c t hq σ := by
  unfold stepScr; rw [dif_neg (by omega), dif_neg (by omega), dif_pos hq]
theorem stepScr_P4 (c : Dev nD) (t : Fin cfg0.N) (hq : t.val / 16 = 4) (σ : Scr) : stepScr m c t σ = stepP4 m c t hq σ := by
  unfold stepScr; rw [dif_neg (by omega), dif_neg (by omega), dif_neg (by omega), dif_pos hq]
theorem stepScr_P6 (c : Dev nD) (t : Fin cfg0.N) (hq : t.val / 16 = 6) (σ : Scr) : stepScr m c t σ = σ := by
  unfold stepScr; rw [dif_neg (by omega), dif_neg (by omega), dif_neg (by omega), dif_neg (by omega)]

/-- The network's result, as the contents of the result's array: the weighted sum of the four states with the weight
    the body multiplies by, of the argument arrays as the region finds them. -/
def G (c : Dev nD) : Buf (Elt Ideal) ((cfg0.win 3).arr.view.loc (c.tc : Thread nD τ)) :=
  HyperConv.result (Ideal.ofBits .f32 0x3E800000#32) (V m c main_arg0) (V m c main_arg1) (V m c main_arg2)

/-- The invariant before point `n`: for some start `σ0` the scratch buffers hold `scrAt σ0 n`. -/
def Phi (c : Dev nD) (n : ℕ) (h : n ≤ cfg0.N) : sProp 𝕄 :=
  iprop((∃ σ0 : Scr, owns (c : Thread nD τ) sc0 fullShare (scrAt m c σ0 n h).sb ∗ owns (c : Thread nD τ) sc1 fullShare (scrAt m c σ0 n h).xb
      ∗ owns (c : Thread nD τ) sc2 fullShare (scrAt m c σ0 n h).yb ∗ owns (c : Thread nD τ) sc3 fullShare (scrAt m c σ0 n h).acc) ∗ (∃ r, prngReg c r))

/-- The proof data: the arrays as the region finds them; each input's buffer left at its block; the result's buffer at
    the block of `G`; the invariant `Phi`; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => ((cfg0.win 3).blk t).view.read (Elt Ideal) (G m c)
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]
theorem Phi_castSucc (c : Dev nD) (t : Fin cfg0.N) : (dats m 0 c).Φ t.castSucc = Phi m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = ((cfg0.win 3).blk t).view.read (Elt Ideal) (G m c) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- What the body stores at a point of phase 6, from the scratch the points before it left, is the block of `G`. -/
def OutFact : Prop := ∀ (c : Dev nD) (t : Fin cfg0.N) (hq : t.val / 16 = 6) (σ0 : Scr) (f : (ms3 t).view.ty.Contents (Elt Ideal)),
  (ms3 t).view.read (Elt Ideal) ((ms3 t).view.writes (Elt Ideal) f
      (runP6 (F := Ideal) c (grid0.coords t) (ms0 t) (hs0 t) (ms1 t) (hs1 t) (ms2 t) (hs2 t) (ms3 t) (hs3 t) sc0 hw0 sc1 hw1 sc2 hw2 sc3 hw3 (fun h => absurd ((hc1 t).mp h) (by omega)) (fun h => absurd ((hc2 t).mp h) (by omega)) (fun h => absurd ((hc3 t).mp h) (by omega)) (fun h => absurd ((hc4 t).mp h) (by omega)) ((hc5 t).mpr hq) (iblk m c 0 t) (iblk m c 1 t) (iblk m c 2 t) (scrAt m c σ0 t.val (Nat.le_of_lt t.isLt)).sb (scrAt m c σ0 t.val (Nat.le_of_lt t.isLt)).xb (scrAt m c σ0 t.val (Nat.le_of_lt t.isLt)).yb (scrAt m c σ0 t.val (Nat.le_of_lt t.isLt)).acc).1)
    = ((cfg0.win 3).blk t).view.read (Elt Ideal) (G m c)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

end Cert.KernelIdeal.Body

end
-- ==== Proof.IdealBody.TSoundP0.lean ====
/-
  The body at a point of phase 0, with the scratch tracked: the invariant hands the body the scratch at what the
  points before left (from some start) and takes it back at what this point leaves.
-/
import proofs.«116923_g7430293422642_cont_9to1_m_1024_15_alg».proof.Proof.IdealBody.Track

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ)

set_option maxHeartbeats 8000000 in
theorem tsound_P0 (c : Dev nD) (t : Fin cfg0.N) (hq : t.val / 16 = 0) :
    bodyPre m c t ⊢ wp frame (wpE (defs₀ (F := Ideal)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = Phi m c (t.val + 1) t.isLt from rfl, Phi_castSucc]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  have hN : t.val < 112 := lt_of_lt_of_eq t.isLt (show cfg0.N = 112 from N_0)
  unfold Phi
  rw [Dat.leavesExact_idle (dats m 0 c) 3 t (idle3 t (by omega)) (noFlush3 t (by omega))]
  iintro ⟨⟨⟨%σ0, S6, S7, S8, S9⟩, Hg⟩, Ho, ⟨%e0, H0⟩, ⟨%e1, H1⟩, ⟨%e2, H2⟩, ⟨%e3, H3⟩⟩
  iapply ((runP0 (F := Ideal) c (grid0.coords t) _ _ _ _ _ _ _ _ _ _ _ _ _ _ _ _ ((hc1 t).mpr hq) (fun h => absurd ((hc2 t).mp h) (by omega)) (fun h => absurd ((hc3 t).mp h) (by omega)) (fun h => absurd ((hc4 t).mp h) (by omega)) (fun h => absurd ((hc5 t).mp h) (by omega)) (iblk m c 0 t) (iblk m c 1 t) (iblk m c 2 t) (scrAt m c σ0 t.val (Nat.le_of_lt t.isLt)).sb (scrAt m c σ0 t.val (Nat.le_of_lt t.isLt)).xb (scrAt m c σ0 t.val (Nat.le_of_lt t.isLt)).yb (scrAt m c σ0 t.val (Nat.le_of_lt t.isLt)).acc).2.2 _ Set.univ _)
  isplitl [H0]; · iexact H0
  isplitl [H1]; · iexact H1
  isplitl [H2]; · iexact H2
  isplitl [H3]; · iexact H3
  isplitl [S6]; · iexact S6
  isplitl [S7]; · iexact S7
  isplitl [S8]; · iexact S8
  isplitl [S9]; · iexact S9
  iintro ⟨H0, H1, H2, H3, S6, S7, S8, S9⟩
  isplitl [S6 S7 S8 S9 Hg]
  · isplitl [S6 S7 S8 S9]
    · iexists σ0
      rw [show scrAt m c σ0 (t.val + 1) t.isLt = stepP0 m c t hq (scrAt m c σ0 t.val (Nat.le_of_lt t.isLt)) from stepScr_P0 m c t hq _]
      unfold stepP0; dsimp only
      isplitl [S6]; · iexact S6
      isplitl [S7]
      · unfold owns; iexists _; isplitr
        swap; · iexact S7
        ipureintro; rfl
      isplitl [S8]; · iexact S8
      unfold owns; iexists _; isplitr
      swap; · iexact S9
      ipureintro; rfl
    iexact Hg
  isplitl [Ho]; · iexact Ho
  isplitl [H0]; · iexact H0
  isplitl [H1]; · iexact H1
  isplitl [H2]; · iexact H2
  iexists _; iexact H3

end Cert.KernelIdeal.Body

end
-- ==== Proof.IdealBody.TSoundPT.lean ====
/-
  The body at a point of an odd phase, with the scratch tracked: the invariant hands the body the scratch at what the
  points before left (from some start) and takes it back at what this point leaves.
-/
import proofs.«116923_g7430293422642_cont_9to1_m_1024_15_alg».proof.Proof.IdealBody.Track

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ)

set_option maxHeartbeats 8000000 in
theorem tsound_PT (c : Dev nD) (t : Fin cfg0.N) (hq : t.val / 16 % 2 = 1) :
    bodyPre m c t ⊢ wp frame (wpE (defs₀ (F := Ideal)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = Phi m c (t.val + 1) t.isLt from rfl, Phi_castSucc]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  have hN : t.val < 112 := lt_of_lt_of_eq t.isLt (show cfg0.N = 112 from N_0)
  unfold Phi
  rw [Dat.leavesExact_idle (dats m 0 c) 3 t (idle3 t (by omega)) (noFlush3 t (by omega))]
  iintro ⟨⟨⟨%σ0, S6, S7, S8, S9⟩, Hg⟩, Ho, ⟨%e0, H0⟩, ⟨%e1, H1⟩, ⟨%e2, H2⟩, ⟨%e3, H3⟩⟩
  iapply ((runPT (F := Ideal) c (grid0.coords t) _ _ _ _ _ _ _ _ _ _ _ _ _ _ _ _ (fun h => absurd ((hc1 t).mp h) (by omega)) ((hc2 t).mpr hq) (fun h => absurd ((hc3 t).mp h) (by omega)) (fun h => absurd ((hc4 t).mp h) (by omega)) (fun h => absurd ((hc5 t).mp h) (by omega)) (iblk m c 0 t) (iblk m c 1 t) (iblk m c 2 t) (scrAt m c σ0 t.val (Nat.le_of_lt t.isLt)).sb (scrAt m c σ0 t.val (Nat.le_of_lt t.isLt)).xb (scrAt m c σ0 t.val (Nat.le_of_lt t.isLt)).yb (scrAt m c σ0 t.val (Nat.le_of_lt t.isLt)).acc).2 _ Set.univ _)
  isplitl [H0]; · iexact H0
  isplitl [H1]; · iexact H1
  isplitl [H2]; · iexact H2
  isplitl [H3]; · iexact H3
  isplitl [S6]; · iexact S6
  isplitl [S7]; · iexact S7
  isplitl [S8]; · iexact S8
  isplitl [S9]; · iexact S9
  iintro ⟨H0, H1, H2, H3, S6, S7, S8, S9⟩
  isplitl [S6 S7 S8 S9 Hg]
  · isplitl [S6 S7 S8 S9]
    · iexists σ0
      rw [show scrAt m c σ0 (t.val + 1) t.isLt = stepPT m c t hq (scrAt m c σ0 t.val (Nat.le_of_lt t.isLt)) from stepScr_PT m c t hq _]
      unfold stepPT; dsimp only
      isplitl [S6]; · iexact S6
      isplitl [S7]; · iexact S7
      isplitl [S8]
      · unfold owns; iexists _; isplitr
        swap; · iexact S8
        ipureintro; rfl
      iexact S9
    iexact Hg
  isplitl [Ho]; · iexact Ho
  isplitl [H0]; · iexact H0
  isplitl [H1]; · iexact H1
  isplitl [H2]; · iexact H2
  iexists _; iexact H3

end Cert.KernelIdeal.Body

end
-- ==== Proof.IdealBody.TSoundP2.lean ====
/-
  The body at a point of phase 2, with the scratch tracked: the invariant hands the body the scratch at what the
  points before left (from some start) and takes it back at what this point leaves.
-/
import proofs.«116923_g7430293422642_cont_9to1_m_1024_15_alg».proof.Proof.IdealBody.Track

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ)

set_option maxHeartbeats 8000000 in
theorem tsound_P2 (c : Dev nD) (t : Fin cfg0.N) (hq : t.val / 16 = 2) :
    bodyPre m c t ⊢ wp frame (wpE (defs₀ (F := Ideal)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = Phi m c (t.val + 1) t.isLt from rfl, Phi_castSucc]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  have hN : t.val < 112 := lt_of_lt_of_eq t.isLt (show cfg0.N = 112 from N_0)
  unfold Phi
  rw [Dat.leavesExact_idle (dats m 0 c) 3 t (idle3 t (by omega)) (noFlush3 t (by omega))]
  iintro ⟨⟨⟨%σ0, S6, S7, S8, S9⟩, Hg⟩, Ho, ⟨%e0, H0⟩, ⟨%e1, H1⟩, ⟨%e2, H2⟩, ⟨%e3, H3⟩⟩
  iapply ((runP2 (F := Ideal) c (grid0.coords t) _ _ _ _ _ _ _ _ _ _ _ _ _ _ _ _ (fun h => absurd ((hc1 t).mp h) (by omega)) (fun h => absurd ((hc2 t).mp h) (by omega)) ((hc3 t).mpr hq) (fun h => absurd ((hc4 t).mp h) (by omega)) (fun h => absurd ((hc5 t).mp h) (by omega)) (iblk m c 0 t) (iblk m c 1 t) (iblk m c 2 t) (scrAt m c σ0 t.val (Nat.le_of_lt t.isLt)).sb (scrAt m c σ0 t.val (Nat.le_of_lt t.isLt)).xb (scrAt m c σ0 t.val (Nat.le_of_lt t.isLt)).yb (scrAt m c σ0 t.val (Nat.le_of_lt t.isLt)).acc).2.2.2 _ Set.univ _)
  isplitl [H0]; · iexact H0
  isplitl [H1]; · iexact H1
  isplitl [H2]; · iexact H2
  isplitl [H3]; · iexact H3
  isplitl [S6]; · iexact S6
  isplitl [S7]; · iexact S7
  isplitl [S8]; · iexact S8
  isplitl [S9]; · iexact S9
  iintro ⟨H0, H1, H2, H3, S6, S7, S8, S9⟩
  isplitl [S6 S7 S8 S9 Hg]
  · isplitl [S6 S7 S8 S9]
    · iexists σ0
      rw [show scrAt m c σ0 (t.val + 1) t.isLt = stepP2 m c t hq (scrAt m c σ0 t.val (Nat.le_of_lt t.isLt)) from stepScr_P2 m c t hq _]
      unfold stepP2; dsimp only
      isplitl [S6]
      · unfold owns; iexists _; isplitr
        swap; · iexact S6
        ipureintro; rfl
      isplitl [S7]
      · unfold owns; iexists _; isplitr
        swap; · iexact S7
        ipureintro; rfl
      isplitl [S8]; · iexact S8
      unfold owns; iexists _; isplitr
      swap; · iexact S9
      ipureintro; rfl
    iexact Hg
  isplitl [Ho]; · iexact Ho
  isplitl [H0]; · iexact H0
  isplitl [H1]; · iexact H1
  isplitl [H2]; · iexact H2
  iexists _; iexact H3

end Cert.KernelIdeal.Body

end
-- ==== Proof.IdealBody.TSoundP4.lean ====
/-
  The body at a point of phase 4, with the scratch tracked: the invariant hands the body the scratch at what the
  points before left (from some start) and takes it back at what this point leaves.
-/
import proofs.«116923_g7430293422642_cont_9to1_m_1024_15_alg».proof.Proof.IdealBody.Track

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ)

set_option maxHeartbeats 8000000 in
theorem tsound_P4 (c : Dev nD) (t : Fin cfg0.N) (hq : t.val / 16 = 4) :
    bodyPre m c t ⊢ wp frame (wpE (defs₀ (F := Ideal)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = Phi m c (t.val + 1) t.isLt from rfl, Phi_castSucc]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  have hN : t.val < 112 := lt_of_lt_of_eq t.isLt (show cfg0.N = 112 from N_0)
  unfold Phi
  rw [Dat.leavesExact_idle (dats m 0 c) 3 t (idle3 t (by omega)) (noFlush3 t (by omega))]
  iintro ⟨⟨⟨%σ0, S6, S7, S8, S9⟩, Hg⟩, Ho, ⟨%e0, H0⟩, ⟨%e1, H1⟩, ⟨%e2, H2⟩, ⟨%e3, H3⟩⟩
  iapply ((runP4 (F := Ideal) c (grid0.coords t) _ _ _ _ _ _ _ _ _ _ _ _ _ _ _ _ (fun h => absurd ((hc1 t).mp h) (by omega)) (fun h => absurd ((hc2 t).mp h) (by omega)) (fun h => absurd ((hc3 t).mp h) (by omega)) ((hc4 t).mpr hq) (fun h => absurd ((hc5 t).mp h) (by omega)) (iblk m c 0 t) (iblk m c 1 t) (iblk m c 2 t) (scrAt m c σ0 t.val (Nat.le_of_lt t.isLt)).sb (scrAt m c σ0 t.val (Nat.le_of_lt t.isLt)).xb (scrAt m c σ0 t.val (Nat.le_of_lt t.isLt)).yb (scrAt m c σ0 t.val (Nat.le_of_lt t.isLt)).acc).2.2 _ Set.univ _)
  isplitl [H0]; · iexact H0
  isplitl [H1]; · iexact H1
  isplitl [H2]; · iexact H2
  isplitl [H3]; · iexact H3
  isplitl [S6]; · iexact S6
  isplitl [S7]; · iexact S7
  isplitl [S8]; · iexact S8
  isplitl [S9]; · iexact S9
  iintro ⟨H0, H1, H2, H3, S6, S7, S8, S9⟩
  isplitl [S6 S7 S8 S9 Hg]
  · isplitl [S6 S7 S8 S9]
    · iexists σ0
      rw [show scrAt m c σ0 (t.val + 1) t.isLt = stepP4 m c t hq (scrAt m c σ0 t.val (Nat.le_of_lt t.isLt)) from stepScr_P4 m c t hq _]
      unfold stepP4; dsimp only
      isplitl [S6]; · iexact S6
      isplitl [S7]
      · unfold owns; iexists _; isplitr
        swap; · iexact S7
        ipureintro; rfl
      isplitl [S8]; · iexact S8
      unfold owns; iexists _; isplitr
      swap; · iexact S9
      ipureintro; rfl
    iexact Hg
  isplitl [Ho]; · iexact Ho
  isplitl [H0]; · iexact H0
  isplitl [H1]; · iexact H1
  isplitl [H2]; · iexact H2
  iexists _; iexact H3

end Cert.KernelIdeal.Body

end
-- ==== Proof.IdealBody.TSoundP6.lean ====
/-
  The body at a point of phase 6, with the scratch tracked: the invariant hands the body the scratch at what the
  points before left (from some start) and takes it back at what this point leaves.
-/
import proofs.«116923_g7430293422642_cont_9to1_m_1024_15_alg».proof.Proof.IdealBody.Track

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ)

set_option maxHeartbeats 8000000 in
theorem tsound_P6 (hO : OutFact m) (c : Dev nD) (t : Fin cfg0.N) (hq : t.val / 16 = 6) :
    bodyPre m c t ⊢ wp frame (wpE (defs₀ (F := Ideal)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = Phi m c (t.val + 1) t.isLt from rfl, Phi_castSucc]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  have hN : t.val < 112 := lt_of_lt_of_eq t.isLt (show cfg0.N = 112 from N_0)
  unfold Phi
  rw [show (dats m 0 c).leavesExact 3 t = owns (c : Thread nD τ) (ms3 t) fullShare ((dats m 0 c).after 3 t) from by
    unfold Dat.leavesExact; rw [live3 t hq], after3]
  iintro ⟨⟨⟨%σ0, S6, S7, S8, S9⟩, Hg⟩, Ho, ⟨%e0, H0⟩, ⟨%e1, H1⟩, ⟨%e2, H2⟩, ⟨%e3, H3⟩⟩
  iapply ((runP6 (F := Ideal) c (grid0.coords t) _ _ _ _ _ _ _ _ _ _ _ _ _ _ _ _ (fun h => absurd ((hc1 t).mp h) (by omega)) (fun h => absurd ((hc2 t).mp h) (by omega)) (fun h => absurd ((hc3 t).mp h) (by omega)) (fun h => absurd ((hc4 t).mp h) (by omega)) ((hc5 t).mpr hq) (iblk m c 0 t) (iblk m c 1 t) (iblk m c 2 t) (scrAt m c σ0 t.val (Nat.le_of_lt t.isLt)).sb (scrAt m c σ0 t.val (Nat.le_of_lt t.isLt)).xb (scrAt m c σ0 t.val (Nat.le_of_lt t.isLt)).yb (scrAt m c σ0 t.val (Nat.le_of_lt t.isLt)).acc).2 _ Set.univ _)
  isplitl [H0]; · iexact H0
  isplitl [H1]; · iexact H1
  isplitl [H2]; · iexact H2
  isplitl [H3]; · iexact H3
  isplitl [S6]; · iexact S6
  isplitl [S7]; · iexact S7
  isplitl [S8]; · iexact S8
  isplitl [S9]; · iexact S9
  iintro ⟨H0, H1, H2, ⟨%f5, H3⟩, S6, S7, S8, S9⟩
  isplitl [S6 S7 S8 S9 Hg]
  · isplitl [S6 S7 S8 S9]
    · iexists σ0
      rw [show scrAt m c σ0 (t.val + 1) t.isLt = scrAt m c σ0 t.val (Nat.le_of_lt t.isLt) from stepScr_P6 m c t hq _]
      isplitl [S6]; · iexact S6
      isplitl [S7]; · iexact S7
      isplitl [S8]; · iexact S8
      iexact S9
    iexact Hg
  isplitl [Ho]; · iexact Ho
  isplitl [H0]; · iexact H0
  isplitl [H1]; · iexact H1
  isplitl [H2]; · iexact H2
  unfold owns; iexists _; isplitr
  swap; · iexact H3
  ipureintro; exact hO c t hq σ0 _

end Cert.KernelIdeal.Body

end
-- ==== Proof.IdealBody.TrackRun.lean ====
/-
  The tracked run: the body obligation at every point, by the phase; the invariant before the first point and after the
  last; and the run of the program with the result's array at what the proof data's write-backs make of it.
-/
import proofs.«116923_g7430293422642_cont_9to1_m_1024_15_alg».proof.Proof.IdealBody.TSoundP0
import proofs.«116923_g7430293422642_cont_9to1_m_1024_15_alg».proof.Proof.IdealBody.TSoundPT
import proofs.«116923_g7430293422642_cont_9to1_m_1024_15_alg».proof.Proof.IdealBody.TSoundP2
import proofs.«116923_g7430293422642_cont_9to1_m_1024_15_alg».proof.Proof.IdealBody.TSoundP4
import proofs.«116923_g7430293422642_cont_9to1_m_1024_15_alg».proof.Proof.IdealBody.TSoundP6

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The body at any point: by the phase. -/
theorem sound_body (hO : OutFact m) (c : Dev nD) (t : Fin cfg0.N) :
    bodyPre m c t ⊢ wp frame (wpE (defs₀ (F := Ideal)) Variants.none c none) Set.univ (bodyAt0 t) (fun _ => bodyPost m c t) := by
  have hN : t.val < 112 := lt_of_lt_of_eq t.isLt (show cfg0.N = 112 from N_0)
  by_cases h0 : t.val / 16 = 0
  · exact tsound_P0 m c t h0
  by_cases hT : t.val / 16 % 2 = 1
  · exact tsound_PT m c t hT
  by_cases h2 : t.val / 16 = 2
  · exact tsound_P2 m c t h2
  by_cases h4 : t.val / 16 = 4
  · exact tsound_P4 m c t h4
  exact tsound_P6 m hO c t (by omega)

/-- The library's body obligation, at every point. -/
theorem body_obligation (hO : OutFact m) (c : Dev nD) : BodyObligation (dats m 0 c) (defs₀ (F := Ideal)) Variants.none () Set.univ := fun t => by
  rw [bigSep_W0, bigSep_W0]
  exact sound_body m hO c t

/-- What the launch hands the region is the invariant before the first point: the scratch holds something. -/
theorem hin (c : Dev nD) : Pipeline.ΦA spec0 c ⊢ (dats m 0 c).Φ 0 := by
  rw [show (dats m 0 c).Φ 0 = Phi m c 0 (Nat.zero_le _) from rfl, PhiA_eq]
  unfold Phi
  iintro ⟨⟨⟨%d6, S6⟩, ⟨%d7, S7⟩, ⟨%d8, S8⟩, ⟨%d9, S9⟩⟩, Hg⟩
  isplitl [S6 S7 S8 S9]
  · iexists (⟨d6, d7, d8, d9⟩ : Scr)
    isplitl [S6]; · iexact S6
    isplitl [S7]; · iexact S7
    isplitl [S8]; · iexact S8
    iexact S9
  iexact Hg

/-- After the last point the invariant gives the class's back: what the scratch holds is forgotten. -/
theorem hout (c : Dev nD) : (dats m 0 c).Φ (Fin.last cfg0.N) ⊢ Pipeline.ΦA spec0 c := by
  rw [show (dats m 0 c).Φ (Fin.last cfg0.N) = Phi m c cfg0.N (Nat.le_refl _) from rfl, PhiA_eq]
  unfold Phi
  iintro ⟨⟨%σ0, S6, S7, S8, S9⟩, Hg⟩
  isplitl [S6 S7 S8 S9]
  · isplitl [S6]; · iexists _; iexact S6
    isplitl [S7]; · iexists _; iexact S7
    isplitl [S8]; · iexists _; iexact S8
    iexists _; iexact S9
  iexact Hg

set_option backward.isDefEq.respectTransparency.types false in
/-- Every weakly fair execution terminates with every array of the pipeline at what the library computes from the proof data. -/
theorem run_main (hO : OutFact m) : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := fun c => (body_obligation m hO c).loose) (hshare := fun c => (dats m 0 c).share_full fun _ => rfl)
    (howed := fun _ _ => rfl) (V := V m) (hmain := hmain m Variants.none) (hA := A_eq m) (hin := hin m) (hout := hout m)

end Cert.KernelIdeal.Body

end
-- ==== Proof.Steps.lean ====
/-
  The network computed in 112 steps over four kept arrays.

  The rows are cut into 16 blocks of 256.  Step `n` works on block `n % 16` in phase `n / 16`:
  * phase 0 copies the block's rows of `X0` into the running sum `acc` and into the current state `xb`;
  * phases 1, 3, 5 put the block's rows of `T · xb` into the messages `yb`;
  * phase 2 keeps the block's rows of `S` in `sb`, forms the block's rows of `S · yb + xb`, adds them to `acc` and makes
    them the new rows of `xb`;
  * phase 4 does the same with the kept rows `sb` in place of `S`;
  * phase 6 changes nothing and emits `w · (acc + (sb · yb + xb))` on the block's rows.
  A phase reads only rows that an earlier phase completed, or the block's own rows before it replaces them, so after the
  phases the arrays hold `X0, X1, X2`, the messages and the partial sums, whatever they held at the start.
-/
import proofs.«116923_g7430293422642_cont_9to1_m_1024_15_alg».proof.Proof.Spec

noncomputable section

open scoped BigOperators

namespace HyperConv

/-- The four arrays kept between steps: the kept source incidences, the current state, the messages, the running sum. -/
structure Kept where
  sb : Mat 4096 4096
  xb : Mat 4096 256
  yb : Mat 4096 256
  acc : Mat 4096 256

/-- `new` on the rows of block `i` (rows `256 i` to `256 i + 255`), `old` on the others. -/
def setRows {n : ℕ} (i : ℕ) (new old : Mat 4096 n) : Mat 4096 n := fun r c =>
  if 256 * i ≤ r.val ∧ r.val < 256 * i + 256 then new r c else old r c

/-- `A · yb + xb`, the round's new state, with `A` the source incidences in use. -/
def nextState (A : Mat 4096 4096) (σ : Kept) : Mat 4096 256 := fun r c => mm A σ.yb r c + σ.xb r c

/-- Step `n`. -/
def step (S T : Mat 4096 4096) (X0 : Mat 4096 256) (n : ℕ) (σ : Kept) : Kept :=
  if n / 16 = 0 then { σ with acc := setRows (n % 16) X0 σ.acc, xb := setRows (n % 16) X0 σ.xb }
  else if n / 16 % 2 = 1 then { σ with yb := setRows (n % 16) (mm T σ.xb) σ.yb }
  else if n / 16 = 2 then
    { sb := setRows (n % 16) S σ.sb, xb := setRows (n % 16) (nextState S σ) σ.xb, yb := σ.yb,
      acc := setRows (n % 16) (fun r c => σ.acc r c + nextState S σ r c) σ.acc }
  else if n / 16 = 4 then
    { σ with xb := setRows (n % 16) (nextState σ.sb σ) σ.xb,
             acc := setRows (n % 16) (fun r c => σ.acc r c + nextState σ.sb σ r c) σ.acc }
  else σ

/-- The kept arrays after the first `n` steps, from `σ0`. -/
def after (S T : Mat 4096 4096) (X0 : Mat 4096 256) (σ0 : Kept) : ℕ → Kept
  | 0 => σ0
  | n + 1 => step S T X0 n (after S T X0 σ0 n)

/-- What the last phase emits from the kept arrays. -/
def emit (w : EReal) (σ : Kept) : Mat 4096 256 := fun r c => w * (σ.acc r c + nextState σ.sb σ r c)

end HyperConv

end
-- ==== Proof.IdealBody.Kept.lean ====
/-
  The scratch buffers read as the four kept arrays of the step-by-step computation, and the three argument arrays read
  by row and column: the node states, the source incidences, the target incidences.
-/
import proofs.«116923_g7430293422642_cont_9to1_m_1024_15_alg».proof.Proof.IdealBody.Track
import proofs.«116923_g7430293422642_cont_9to1_m_1024_15_alg».proof.Proof.Steps

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ)

/-- The scratch buffers' contents as the kept arrays, by row and column. -/
def toKept (σ : Scr) : HyperConv.Kept :=
  ⟨HyperConv.toMat σ.sb, HyperConv.toMat σ.xb, HyperConv.toMat σ.yb, HyperConv.toMat σ.acc⟩

/-- The node states, as the region finds them. -/
def X0m (c : Dev nD) : HyperConv.Mat 4096 256 := HyperConv.toMat (V m c main_arg0)
/-- The source incidences, as the region finds them. -/
def Sm (c : Dev nD) : HyperConv.Mat 4096 4096 := HyperConv.toMat (V m c main_arg1)
/-- The target incidences, as the region finds them. -/
def Tm (c : Dev nD) : HyperConv.Mat 4096 4096 := HyperConv.toMat (V m c main_arg2)

/-- The scratch after `n` points is the kept arrays after `n` steps: the statement the steps' mathematics is used through. -/
def KeptFact : Prop := ∀ (c : Dev nD) (σ0 : Scr) (n : ℕ) (h : n ≤ cfg0.N),
  toKept (scrAt m c σ0 n h) = HyperConv.after (Sm m c) (Tm m c) (X0m m c) (toKept σ0) n

end Cert.KernelIdeal.Body

end
-- ==== Proof.IdealBody.Payloads.lean ====
/-
  The values the kernel body stores, read at an index, over the extended reals.

  At the extended reals a change of float format is the identity, a shape cast to the same shape is the identity, sums
  and products are the extended reals' own, and a matrix product accumulated into the zero array is, at row `p` and
  column `q`, the sum over `k` of the left operand at `(p, k)` times the right operand at `(k, q)`.  So each stored value is
  one of: the block read unchanged; the product of a block of rows with a whole array; that product plus the block of
  the current state; the running sum plus that; and, at the end, the weight times that.
-/
import proofs.«116923_g7430293422642_cont_9to1_m_1024_15_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## The matrix product at an index -/

/-- The left operand's row coordinate is the output's row. -/
theorem dot_lhs_0 (i : S256x256.Idx) (k : dot_S256x4096_S4096x256_S256x256_1_0_0_1_n_n.contr.Idx) :
    (dot_S256x4096_S4096x256_S256x256_1_0_0_1_n_n.lhsIdx i k 0).val = (i 0).val := by
  unfold DotDims.lhsIdx
  rw [dif_neg (show ¬(0 : Fin S256x4096.rank) ∈ dot_S256x4096_S4096x256_S256x256_1_0_0_1_n_n.lhsBatch by decide),
    dif_pos (show (0 : Fin S256x4096.rank) ∈ dot_S256x4096_S4096x256_S256x256_1_0_0_1_n_n.lhsNonContracting by decide)]
  rfl

/-- The left operand's column coordinate is the contraction coordinate. -/
theorem dot_lhs_1 (i : S256x256.Idx) (k : dot_S256x4096_S4096x256_S256x256_1_0_0_1_n_n.contr.Idx) :
    (dot_S256x4096_S4096x256_S256x256_1_0_0_1_n_n.lhsIdx i k 1).val = (k ⟨0, by decide⟩).val :=
  dot_S256x4096_S4096x256_S256x256_1_0_0_1_n_n.lhsIdx_val_of_single rfl i k

/-- The right operand's row coordinate is the contraction coordinate. -/
theorem dot_rhs_0 (i : S256x256.Idx) (k : dot_S256x4096_S4096x256_S256x256_1_0_0_1_n_n.contr.Idx) :
    (dot_S256x4096_S4096x256_S256x256_1_0_0_1_n_n.rhsIdx i k 0).val = (k ⟨0, by decide⟩).val :=
  dot_S256x4096_S4096x256_S256x256_1_0_0_1_n_n.rhsIdx_val_of_single rfl i k

/-- The right operand's column coordinate is the output's column. -/
theorem dot_rhs_1 (i : S256x256.Idx) (k : dot_S256x4096_S4096x256_S256x256_1_0_0_1_n_n.contr.Idx) :
    (dot_S256x4096_S4096x256_S256x256_1_0_0_1_n_n.rhsIdx i k 1).val = (i 1).val := by
  unfold DotDims.rhsIdx
  rw [dif_neg (show ¬(1 : Fin S4096x256.rank) ∈ dot_S256x4096_S4096x256_S256x256_1_0_0_1_n_n.rhsBatch by decide),
    dif_pos (show (1 : Fin S4096x256.rank) ∈ dot_S256x4096_S4096x256_S256x256_1_0_0_1_n_n.rhsNonContracting by decide)]
  rfl

/-- A block of 256 rows times a whole array, accumulated into the zero array: at row `p` and column `q` the sum over `k` of
    the left operand at `(p, k)` times the right operand at `(k, q)`. -/
theorem matmul_zero_apply {φ₁ φ₂ : FTy} (a : FVec Ideal S256x4096 φ₁) (b : FVec Ideal S4096x256 φ₂) (p q : Fin 256) :
    matmul dot_S256x4096_S4096x256_S256x256_1_0_0_1_n_n none a b (constant (F := Ideal) S256x256 .f32 0x00000000#32) (ix2 p q)
      = ∑ k : Fin 4096, a (ix2 p k) * b (ix2 k q) := by
  refine (Ideal.matmul_constant_zero_apply dot_S256x4096_S4096x256_S256x256_1_0_0_1_n_n none a b (ix2 p q)).trans ?_
  rw [← Equiv.sum_comp (contrEquiv1 dot_S256x4096_S4096x256_S256x256_1_0_0_1_n_n 4096 rfl rfl).symm]
  refine Finset.sum_congr rfl fun k _ => ?_
  have hk := contrEquiv1_symm_val dot_S256x4096_S4096x256_S256x256_1_0_0_1_n_n 4096 rfl rfl k
  have el : dot_S256x4096_S4096x256_S256x256_1_0_0_1_n_n.lhsIdx (ix2 p q)
      ((contrEquiv1 dot_S256x4096_S4096x256_S256x256_1_0_0_1_n_n 4096 rfl rfl).symm k) = ix2 p k :=
    funext fun x => Fin.ext (by
      match x with
      | ⟨0, _⟩ => exact dot_lhs_0 _ _
      | ⟨1, _⟩ => exact (dot_lhs_1 _ _).trans hk)
  have er : dot_S256x4096_S4096x256_S256x256_1_0_0_1_n_n.rhsIdx (ix2 p q)
      ((contrEquiv1 dot_S256x4096_S4096x256_S256x256_1_0_0_1_n_n 4096 rfl rfl).symm k) = ix2 k q :=
    funext fun x => Fin.ext (by
      match x with
      | ⟨0, _⟩ => exact (dot_rhs_0 _ _).trans hk
      | ⟨1, _⟩ => exact dot_rhs_1 _ _)
  rw [el, er]

/-! ## The stored values at an index -/

/-- The block of node states, unchanged. -/
theorem pay2_apply (v26 : Vec Ideal S256x256 .f32) (p q : Fin 256) :
    k0_pay2 (F := Ideal) v26 (ix2 p q) = v26 (ix2 p q) := by
  unfold k0_pay2 k0_pay1
  rw [shapeCast_self]
  rfl

/-- The block of node states, unchanged. -/
theorem pay3_apply (v26 : Vec Ideal S256x256 .f32) (p q : Fin 256) :
    k0_pay3 (F := Ideal) v26 (ix2 p q) = v26 (ix2 p q) := by
  unfold k0_pay3 k0_pay1
  rw [shapeCast_self]
  rfl

/-- The block of source incidences, unchanged. -/
theorem pay6_apply (v26 : Vec Ideal S256x4096 .f32) (p : Fin 256) (j : Fin 4096) :
    k0_pay6 (F := Ideal) v26 (ix2 p j) = v26 (ix2 p j) := by
  unfold k0_pay6 k0_pay5
  rw [shapeCast_self]
  rfl

/-- The block of target incidences times the current state. -/
theorem pay4_apply (v26 : Vec Ideal S256x4096 .f32) (v28 : Vec Ideal S4096x256 .bf16) (p q : Fin 256) :
    k0_pay4 (F := Ideal) v26 v28 (ix2 p q) = ∑ k : Fin 4096, v26 (ix2 p k) * v28 (ix2 k q) := by
  unfold k0_pay4
  rw [shapeCast_self]
  exact matmul_zero_apply (φ₁ := .bf16) (φ₂ := .bf16) (truncf .bf16 v26 bitsLt_bf16_f32) v28 p q

/-- The block of source incidences times the messages, plus the block of the current state. -/
theorem pay7_apply (v26 : Vec Ideal S256x4096 .f32) (v32 : Vec Ideal S4096x256 .bf16) (v35 : Vec Ideal S256x256 .bf16)
    (p q : Fin 256) :
    k0_pay7 (F := Ideal) v26 v32 v35 (ix2 p q)
      = (∑ k : Fin 4096, v26 (ix2 p k) * v32 (ix2 k q)) + v35 (ix2 p q) := by
  unfold k0_pay7 k0_pay5
  exact congrArg (· + v35 (ix2 p q)) (matmul_zero_apply (φ₁ := .bf16) (φ₂ := .bf16) (truncf .bf16 v26 bitsLt_bf16_f32) v32 p q)

/-- The running sum's block plus the new state's block. -/
theorem pay8_apply (v26 : Vec Ideal S256x4096 .f32) (v32 : Vec Ideal S4096x256 .bf16) (v35 v39 : Vec Ideal S256x256 .bf16)
    (p q : Fin 256) :
    k0_pay8 (F := Ideal) v26 v32 v35 v39 (ix2 p q)
      = v39 (ix2 p q) + ((∑ k : Fin 4096, v26 (ix2 p k) * v32 (ix2 k q)) + v35 (ix2 p q)) := by
  unfold k0_pay8
  rw [shapeCast_self]
  exact congrArg (v39 (ix2 p q) + ·) (pay7_apply v26 v32 v35 p q)

/-- The new state's block. -/
theorem pay9_apply (v26 : Vec Ideal S256x4096 .f32) (v32 : Vec Ideal S4096x256 .bf16) (v35 : Vec Ideal S256x256 .bf16)
    (p q : Fin 256) :
    k0_pay9 (F := Ideal) v26 v32 v35 (ix2 p q)
      = (∑ k : Fin 4096, v26 (ix2 p k) * v32 (ix2 k q)) + v35 (ix2 p q) := by
  unfold k0_pay9
  rw [shapeCast_self]
  exact pay7_apply v26 v32 v35 p q

/-- The kept block of source incidences times the messages, plus the block of the current state. -/
theorem pay10_apply (v27 : Vec Ideal S256x4096 .bf16) (v28 : Vec Ideal S4096x256 .bf16) (v31 : Vec Ideal S256x256 .bf16)
    (p q : Fin 256) :
    k0_pay10 (F := Ideal) v27 v28 v31 (ix2 p q)
      = (∑ k : Fin 4096, v27 (ix2 p k) * v28 (ix2 k q)) + v31 (ix2 p q) := by
  unfold k0_pay10
  exact congrArg (· + v31 (ix2 p q)) (matmul_zero_apply (φ₁ := .bf16) (φ₂ := .bf16) v27 v28 p q)

/-- The running sum's block plus the new state's block. -/
theorem pay11_apply (v27 : Vec Ideal S256x4096 .bf16) (v28 : Vec Ideal S4096x256 .bf16) (v31 v35 : Vec Ideal S256x256 .bf16)
    (p q : Fin 256) :
    k0_pay11 (F := Ideal) v27 v28 v31 v35 (ix2 p q)
      = v35 (ix2 p q) + ((∑ k : Fin 4096, v27 (ix2 p k) * v28 (ix2 k q)) + v31 (ix2 p q)) := by
  unfold k0_pay11
  rw [shapeCast_self]
  exact congrArg (v35 (ix2 p q) + ·) (pay10_apply v27 v28 v31 p q)

/-- The new state's block. -/
theorem pay12_apply (v27 : Vec Ideal S256x4096 .bf16) (v28 : Vec Ideal S4096x256 .bf16) (v31 : Vec Ideal S256x256 .bf16)
    (p q : Fin 256) :
    k0_pay12 (F := Ideal) v27 v28 v31 (ix2 p q)
      = (∑ k : Fin 4096, v27 (ix2 p k) * v28 (ix2 k q)) + v31 (ix2 p q) := by
  unfold k0_pay12
  rw [shapeCast_self]
  exact pay10_apply v27 v28 v31 p q

/-- The weight times the running sum's block plus the last state's block. -/
theorem pay13_apply (v27 : Vec Ideal S256x4096 .bf16) (v28 : Vec Ideal S4096x256 .bf16) (v31 v35 : Vec Ideal S256x256 .bf16)
    (p q : Fin 256) :
    k0_pay13 (F := Ideal) v27 v28 v31 v35 (ix2 p q)
      = Ideal.ofBits .f32 0x3E800000#32
          * (v35 (ix2 p q) + ((∑ k : Fin 4096, v27 (ix2 p k) * v28 (ix2 k q)) + v31 (ix2 p q))) := by
  unfold k0_pay13
  exact congrArg (fun x => Ideal.ofBits .f32 0x3E800000#32 * (v35 (ix2 p q) + (x + v31 (ix2 p q))))
    (matmul_zero_apply (φ₁ := .bf16) (φ₂ := .bf16) v27 v28 p q)

end Cert.KernelIdeal.Body

end
-- ==== Proof.IdealBody.Blocks.lean ====
/-
  The arithmetic of the grid.  The 112 points are 7 phases of 16 row blocks: point `t` is block `t % 16` of phase
  `t / 16`, and block `b` is the 256 rows `256 b, …, 256 b + 255`.  Every slice of a kept array that the body takes
  starts at row `256 (t % 16)`, column `0`.  In its active phase a window's block at point `t` is block `(t % 16, 0)`
  of its array, so its entry at row `p`, column `q` is the array's entry at row `256 (t % 16) + p`, column `q`.  The 16
  points of the last phase write back the result's 16 row blocks, which between them hold every row: row `r` lies in
  the block of point `96 + r / 256`.
-/
import proofs.«116923_g7430293422642_cont_9to1_m_1024_15_alg».proof.Proof.IdealBody.Base
import Idealize.ShloMosaic.Lib.ValueIdx
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ)

/-! ## The slices of the kept arrays start at the block's first row -/

theorem off_1 : ∀ t : Fin cfg0.N, k0_off1 (grid0.coords t) = ![256 * (t.val % 16), 0] :=
  (by decide +kernel : ∀ t : Fin grid0.N, k0_off1 (grid0.coords t) = ![256 * (t.val % 16), 0])
theorem off_2 : ∀ t : Fin cfg0.N, k0_off2 (grid0.coords t) = ![256 * (t.val % 16), 0] :=
  (by decide +kernel : ∀ t : Fin grid0.N, k0_off2 (grid0.coords t) = ![256 * (t.val % 16), 0])
theorem off_3 : ∀ t : Fin cfg0.N, k0_off3 (grid0.coords t) = ![256 * (t.val % 16), 0] :=
  (by decide +kernel : ∀ t : Fin grid0.N, k0_off3 (grid0.coords t) = ![256 * (t.val % 16), 0])
theorem off_4 : ∀ t : Fin cfg0.N, k0_off4 (grid0.coords t) = ![256 * (t.val % 16), 0] :=
  (by decide +kernel : ∀ t : Fin grid0.N, k0_off4 (grid0.coords t) = ![256 * (t.val % 16), 0])
theorem off_5 : ∀ t : Fin cfg0.N, k0_off5 (grid0.coords t) = ![256 * (t.val % 16), 0] :=
  (by decide +kernel : ∀ t : Fin grid0.N, k0_off5 (grid0.coords t) = ![256 * (t.val % 16), 0])
theorem off_6 : ∀ t : Fin cfg0.N, k0_off6 (grid0.coords t) = ![256 * (t.val % 16), 0] :=
  (by decide +kernel : ∀ t : Fin grid0.N, k0_off6 (grid0.coords t) = ![256 * (t.val % 16), 0])
theorem off_7 : ∀ t : Fin cfg0.N, k0_off7 (grid0.coords t) = ![256 * (t.val % 16), 0] :=
  (by decide +kernel : ∀ t : Fin grid0.N, k0_off7 (grid0.coords t) = ![256 * (t.val % 16), 0])
theorem off_8 : ∀ t : Fin cfg0.N, k0_off8 (grid0.coords t) = ![256 * (t.val % 16), 0] :=
  (by decide +kernel : ∀ t : Fin grid0.N, k0_off8 (grid0.coords t) = ![256 * (t.val % 16), 0])

/-! ## The windows' block indices in their active phases -/

theorem idx0 : ∀ t : Fin cfg0.N, t.val / 16 = 0 → win0_0.index t = ![t.val % 16, 0] :=
  (by decide +kernel : ∀ t : Fin grid0.N, t.val / 16 = 0 → win0_0.index t = ![t.val % 16, 0])
theorem idx1 : ∀ t : Fin cfg0.N, t.val / 16 % 2 = 1 → win0_1.index t = ![t.val % 16, 0] :=
  (by decide +kernel : ∀ t : Fin grid0.N, t.val / 16 % 2 = 1 → win0_1.index t = ![t.val % 16, 0])
theorem idx2 : ∀ t : Fin cfg0.N, t.val / 16 = 2 → win0_2.index t = ![t.val % 16, 0] :=
  (by decide +kernel : ∀ t : Fin grid0.N, t.val / 16 = 2 → win0_2.index t = ![t.val % 16, 0])
theorem idx3 : ∀ t : Fin cfg0.N, t.val / 16 = 6 → win0_3.index t = ![t.val % 16, 0] :=
  (by decide +kernel : ∀ t : Fin grid0.N, t.val / 16 = 6 → win0_3.index t = ![t.val % 16, 0])

/-! ## A block read at an index -/

/-- Row `p` of the block of point `t`, as a row of the whole array: `256 (t % 16) + p`. -/
def rowOf (t : Fin cfg0.N) (p : Fin 256) : Fin 4096 :=
  ⟨256 * (t.val % 16) + p.val, by
    have := Nat.mod_lt t.val (by norm_num : 0 < 16); have := p.isLt; omega⟩

theorem rowOf_val (t : Fin cfg0.N) (p : Fin 256) : (rowOf t p).val = 256 * (t.val % 16) + p.val := rfl

/-- In phase 0 the node states' block at point `t` is rows `256 (t % 16) …` of the node states. -/
theorem iblk0_apply (c : Dev nD) (t : Fin cfg0.N) (hq : t.val / 16 = 0) (p q : Fin 256) :
    iblk m c 0 t (ix2 p q) = V m c main_arg0 (ix2 (rowOf t p) q) := by
  have e0 : win0_0.index t (0 : Fin 2) = t.val % 16 := congrFun (idx0 t hq) 0
  have e1 : win0_0.index t (1 : Fin 2) = 0 := congrFun (idx0 t hq) 1
  show V m c main_arg0 (((cfg0.win 0).blk t).view.emb (ix2 p q)) = V m c main_arg0 (ix2 (rowOf t p) q)
  refine congrArg _ (funext fun a => Fin.ext ?_)
  match a with
  | ⟨0, _⟩ => show win0_0.index t (0 : Fin 2) * 256 + 1 * p.val = 256 * (t.val % 16) + p.val; omega
  | ⟨1, _⟩ => show win0_0.index t (1 : Fin 2) * 256 + 1 * q.val = q.val; omega

/-- In an odd phase the target incidences' block at point `t` is rows `256 (t % 16) …` of the target incidences. -/
theorem iblk1_apply (c : Dev nD) (t : Fin cfg0.N) (hq : t.val / 16 % 2 = 1) (p : Fin 256) (k : Fin 4096) :
    iblk m c 1 t (ix2 p k) = V m c main_arg2 (ix2 (rowOf t p) k) := by
  have e0 : win0_1.index t (0 : Fin 2) = t.val % 16 := congrFun (idx1 t hq) 0
  have e1 : win0_1.index t (1 : Fin 2) = 0 := congrFun (idx1 t hq) 1
  show V m c main_arg2 (((cfg0.win 1).blk t).view.emb (ix2 p k)) = V m c main_arg2 (ix2 (rowOf t p) k)
  refine congrArg _ (funext fun a => Fin.ext ?_)
  match a with
  | ⟨0, _⟩ => show win0_1.index t (0 : Fin 2) * 256 + 1 * p.val = 256 * (t.val % 16) + p.val; omega
  | ⟨1, _⟩ => show win0_1.index t (1 : Fin 2) * 4096 + 1 * k.val = k.val; omega

/-- In phase 2 the source incidences' block at point `t` is rows `256 (t % 16) …` of the source incidences. -/
theorem iblk2_apply (c : Dev nD) (t : Fin cfg0.N) (hq : t.val / 16 = 2) (p : Fin 256) (k : Fin 4096) :
    iblk m c 2 t (ix2 p k) = V m c main_arg1 (ix2 (rowOf t p) k) := by
  have e0 : win0_2.index t (0 : Fin 2) = t.val % 16 := congrFun (idx2 t hq) 0
  have e1 : win0_2.index t (1 : Fin 2) = 0 := congrFun (idx2 t hq) 1
  show V m c main_arg1 (((cfg0.win 2).blk t).view.emb (ix2 p k)) = V m c main_arg1 (ix2 (rowOf t p) k)
  refine congrArg _ (funext fun a => Fin.ext ?_)
  match a with
  | ⟨0, _⟩ => show win0_2.index t (0 : Fin 2) * 256 + 1 * p.val = 256 * (t.val % 16) + p.val; omega
  | ⟨1, _⟩ => show win0_2.index t (1 : Fin 2) * 4096 + 1 * k.val = k.val; omega

/-- In phase 6 the result's block at point `t`, read off any contents `G` of the result's array, is rows
    `256 (t % 16) …` of `G`. -/
theorem blk3_apply (c : Dev nD) (G : Buf (Elt F) ((cfg0.win 3).arr.view.loc (c.tc : Thread nD τ)))
    (t : Fin cfg0.N) (hq : t.val / 16 = 6) (p q : Fin 256) :
    ((cfg0.win 3).blk t).view.read (Elt F) G (ix2 p q) = G (ix2 (rowOf t p) q) := by
  have e0 : win0_3.index t (0 : Fin 2) = t.val % 16 := congrFun (idx3 t hq) 0
  have e1 : win0_3.index t (1 : Fin 2) = 0 := congrFun (idx3 t hq) 1
  show G (((cfg0.win 3).blk t).view.emb (ix2 p q)) = G (ix2 (rowOf t p) q)
  refine congrArg _ (funext fun a => Fin.ext ?_)
  match a with
  | ⟨0, _⟩ => show win0_3.index t (0 : Fin 2) * 256 + 1 * p.val = 256 * (t.val % 16) + p.val; omega
  | ⟨1, _⟩ => show win0_3.index t (1 : Fin 2) * 256 + 1 * q.val = q.val; omega

/-! ## The last phase's blocks hold every row of the result -/

/-- An index of the result's array is in point `t`'s block iff each coordinate is in the block's range on its axis. -/
theorem mem_blk3 (t : Fin cfg0.N) (i : S4096x256.Idx) :
    i ∈ ((cfg0.win 3).blk t).view.set
      ↔ ∀ a : Fin 2, win0_3.index t a * S256x256.size a ≤ (i a).val
          ∧ (i a).val < win0_3.index t a * S256x256.size a + S256x256.size a := by
  show i ∈ ((View.whole main_v0).slice (win0_3.rect t)).set ↔ _
  rw [View.set_slice_whole, Rect.mem_set_unit]
  exact Iff.rfl

/-- Row `r` of the result is written back by point `96 + r / 256`. -/
theorem cover3_at (i : S4096x256.Idx) :
    ∃ t : Fin cfg0.N, (cfg0.win 3).flush t = true ∧ i ∈ ((cfg0.win 3).blk t).view.set := by
  have hi0 : (i 0).val < 4096 := (i 0).isLt
  have hi1 : (i 1).val < 256 := (i 1).isLt
  have hN : 96 + (i 0).val / 256 < cfg0.N := by show 96 + (i 0).val / 256 < 112; omega
  have hq : (⟨96 + (i 0).val / 256, hN⟩ : Fin cfg0.N).val / 16 = 6 := by
    show (96 + (i 0).val / 256) / 16 = 6; omega
  have e0 : win0_3.index ⟨96 + (i 0).val / 256, hN⟩ (0 : Fin 2) = (96 + (i 0).val / 256) % 16 := congrFun (idx3 _ hq) 0
  have e1 : win0_3.index ⟨96 + (i 0).val / 256, hN⟩ (1 : Fin 2) = 0 := congrFun (idx3 _ hq) 1
  refine ⟨⟨96 + (i 0).val / 256, hN⟩, flush3 _ hq, ?_⟩
  rw [mem_blk3]
  intro a
  match a with
  | ⟨0, _⟩ =>
    show win0_3.index ⟨96 + (i 0).val / 256, hN⟩ (0 : Fin 2) * 256 ≤ (i 0).val
      ∧ (i 0).val < win0_3.index ⟨96 + (i 0).val / 256, hN⟩ (0 : Fin 2) * 256 + 256
    omega
  | ⟨1, _⟩ =>
    show win0_3.index ⟨96 + (i 0).val / 256, hN⟩ (1 : Fin 2) * 256 ≤ (i 1).val
      ∧ (i 1).val < win0_3.index ⟨96 + (i 0).val / 256, hN⟩ (1 : Fin 2) * 256 + 256
    omega

/-- Every index of the result's array is in the block of a point that writes it back. -/
theorem cover3 (c : Dev nD) : ∀ i : ((cfg0.win 3).arr.view.loc (c.tc : Thread nD τ)).2.ty.Idx,
    ∃ t : Fin cfg0.N, (cfg0.win 3).flush t = true ∧ i ∈ ((cfg0.win 3).blk t).view.set :=
  fun i => cover3_at i

end Cert.KernelIdeal.Body

end
-- ==== Proof.IdealBody.ScratchReads.lean ====
/-
  Three readings of a whole buffer of extended reals kept between points.  A buffer that is all of its memory is
  determined by what it reads, so its contents are written as the array `X` it reads.  A load through the rectangle of
  every index reads `X`.  A load through the 256 rows starting at row `o` reads, at row `p` and column `q`, the entry of
  `X` at row `o + p`, column `q`.  After one store of 256 rows starting at row `256 i`, row `r` reads the stored rows at
  `r - 256 i` if `256 i ≤ r < 256 i + 256`, and `X` otherwise.  After one store through the rectangle of every index the
  buffer reads what was stored, whatever it held.
-/
import proofs.«116923_g7430293422642_cont_9to1_m_1024_15_alg».proof.Proof.IdealBody.Blocks
import Idealize.ShloMosaic.Lib.WritesUnit
import Idealize.ShloMosaic.Lib.Pipeline.FrameBody
import Idealize.ShloMosaic.Lib.Pipeline.Frame

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

/-- The pair of zero offsets is the zero function. -/
theorem zero_off : (![0, 0] : Fin 2 → ℕ) = fun _ => 0 := funext fun a => by fin_cases a <;> rfl

/-! ## A load of the whole buffer -/

/-- A load through the rectangle of every index reads the contents, however the zero offsets are written. -/
theorem whole_read_of_zero {sp : Space} {S : Shape} {e : EltTy} (M : Memref sig .tc sp S e) (hM : M.IsWhole)
    {off : Fin S.rank → ℕ} (h : off = fun _ => 0) (inb : ∀ a, off a + S.size a ≤ S.size a) (X : S.Idx → Elt F e) :
    View.readAt (Elt F) M.view (Rect.unit off S.size inb).toLoadRect (hM.unread X) = X := by
  rw [View.readAt_eq_ld, hM.read_unread, View.ld_unit_zero h]

/-- The same for a buffer with two axes, the offsets written as the pair of zeros. -/
theorem whole_read {sp : Space} {d : Fin 2 → ℕ} {e : EltTy} (M : Memref sig .tc sp ⟨2, d⟩ e) (hM : M.IsWhole)
    (inb : ∀ a, (![0, 0] : Fin 2 → ℕ) a + d a ≤ (⟨2, d⟩ : Shape).size a) (X : (⟨2, d⟩ : Shape).Idx → Elt F e) :
    View.readAt (Elt F) M.view (Rect.unit (s := ⟨2, d⟩) ![0, 0] d inb).toLoadRect (hM.unread X) = X :=
  whole_read_of_zero M hM zero_off inb X

/-! ## A load of 256 rows -/

/-- A load of the 256 rows from row `o` reads, at row `p` and column `q`, the contents at row `o + p`, column `q`. -/
theorem rows_read_at {sp : Space} {n : ℕ} {e : EltTy} (M : Memref sig .tc sp ⟨2, ![4096, n]⟩ e) (hM : M.IsWhole)
    (X : (⟨2, ![4096, n]⟩ : Shape).Idx → Elt F e) {off : Fin 2 → ℕ}
    (inb : ∀ a, off a + (![256, n] : Fin 2 → ℕ) a ≤ (⟨2, ![4096, n]⟩ : Shape).size a) {o : ℕ} (hoff : off = ![o, 0])
    (p : Fin 256) (q : Fin n) (hb : o + p.val < 4096) :
    View.readAt (Elt F) M.view (Rect.unit (s := ⟨2, ![4096, n]⟩) off ![256, n] inb).toLoadRect (hM.unread X) (ix2 p q)
      = X (ix2 ⟨o + p.val, hb⟩ q) := by
  subst hoff
  rw [View.readAt_eq_ld, hM.read_unread]
  show X ((Rect.unit (s := ⟨2, ![4096, n]⟩) ![o, 0] ![256, n] inb).idx (ix2 p q)) = X (ix2 ⟨o + p.val, hb⟩ q)
  refine congrArg X (funext fun a => Fin.ext ?_)
  match a with
  | ⟨0, _⟩ => show o + 1 * p.val = o + p.val; omega
  | ⟨1, _⟩ => show 0 + 1 * q.val = q.val; omega

/-- At point `t`, a load of the 256 rows from row `256 (t % 16)` reads, at row `p` and column `q`, the contents at the
    block's row `p`, column `q`. -/
theorem rows_read {sp : Space} {n : ℕ} {e : EltTy} (M : Memref sig .tc sp ⟨2, ![4096, n]⟩ e) (hM : M.IsWhole)
    (X : (⟨2, ![4096, n]⟩ : Shape).Idx → Elt F e) {off : Fin 2 → ℕ}
    (inb : ∀ a, off a + (![256, n] : Fin 2 → ℕ) a ≤ (⟨2, ![4096, n]⟩ : Shape).size a) (t : Fin cfg0.N)
    (hoff : off = ![256 * (t.val % 16), 0]) (p : Fin 256) (q : Fin n) :
    View.readAt (Elt F) M.view (Rect.unit (s := ⟨2, ![4096, n]⟩) off ![256, n] inb).toLoadRect (hM.unread X) (ix2 p q)
      = X (ix2 (rowOf t p) q) :=
  rows_read_at M hM X inb hoff p q (rowOf t p).isLt

/-! ## A store of 256 rows read back -/

/-- After one store of the 256 rows from row `256 i`, row `r` reads the stored rows at `r - 256 i` when it is one of
    them and the earlier contents otherwise. -/
theorem rows_write_read {sp : Space} {n : ℕ} {e : EltTy} (M : Memref sig .tc sp ⟨2, ![4096, n]⟩ e) (hM : M.IsWhole)
    (X : (⟨2, ![4096, n]⟩ : Shape).Idx → Elt F e) {off : Fin 2 → ℕ}
    (inb : ∀ a, off a + (![256, n] : Fin 2 → ℕ) a ≤ (⟨2, ![4096, n]⟩ : Shape).size a)
    (w : (Rect.unit (s := ⟨2, ![4096, n]⟩) off ![256, n] inb).shape.Idx → Elt F e) {i : ℕ} (hoff : off = ![256 * i, 0])
    (r : Fin 4096) (q : Fin n) :
    M.view.read (Elt F) (M.view.writes (Elt F) (hM.unread X)
        [(⟨Rect.unit (s := ⟨2, ![4096, n]⟩) off ![256, n] inb, w⟩ : View.Piece (Elt F) ⟨2, ![4096, n]⟩ e)]) (ix2 r q)
      = if h : 256 * i ≤ r.val ∧ r.val < 256 * i + 256 then w (ix2 ⟨r.val - 256 * i, by omega⟩ q) else X (ix2 r q) := by
  rw [View.read_writes_cons_rows M.view (hM.unread X) inb w [] (ix2 r q) hoff (W := 256) rfl rfl]
  by_cases h : 256 * i ≤ r.val ∧ r.val < 256 * i + 256
  · rw [dif_pos h, dif_pos h]
    refine congrArg w (funext fun a => Fin.ext ?_)
    match a with
    | ⟨0, _⟩ => rfl
    | ⟨1, _⟩ => show q.val - 0 = q.val; omega
  · rw [dif_neg h, dif_neg h, View.writes_nil, hM.read_unread]

/-- A row of block `t % 16` is that block's row `r - 256 (t % 16)`. -/
theorem rowOf_sub (t : Fin cfg0.N) (r : Fin 4096) (h : 256 * (t.val % 16) ≤ r.val ∧ r.val < 256 * (t.val % 16) + 256) :
    r = rowOf t ⟨r.val - 256 * (t.val % 16), by omega⟩ :=
  Fin.ext (by show r.val = 256 * (t.val % 16) + (r.val - 256 * (t.val % 16)); omega)

/-! ## A store of the whole buffer read back -/

/-- After one store through the rectangle of every index the buffer reads what was stored, whatever it held. -/
theorem whole_write_read_of_zero {sp : Space} {S : Shape} {e : EltTy} (M : Memref sig .tc sp S e)
    (f : M.view.ty.Contents (Elt F)) {off : Fin S.rank → ℕ} (h : off = fun _ => 0) (inb : ∀ a, off a + S.size a ≤ S.size a)
    (w : (Rect.unit off S.size inb).shape.Idx → Elt F e) :
    M.view.read (Elt F) (M.view.writes (Elt F) f [(⟨Rect.unit off S.size inb, w⟩ : View.Piece (Elt F) S e)]) = w := by
  funext y
  exact View.read_writes_cons_unit_of_mem M.view f inb w [] y y h fun a => (Nat.zero_add _).symm

/-- The same for a buffer with two axes, the offsets written as the pair of zeros. -/
theorem whole_write_read {sp : Space} {d : Fin 2 → ℕ} {e : EltTy} (M : Memref sig .tc sp ⟨2, d⟩ e)
    (f : M.view.ty.Contents (Elt F))
    (inb : ∀ a, (![0, 0] : Fin 2 → ℕ) a + d a ≤ (⟨2, d⟩ : Shape).size a)
    (w : (Rect.unit (s := ⟨2, d⟩) ![0, 0] d inb).shape.Idx → Elt F e) :
    M.view.read (Elt F) (M.view.writes (Elt F) f
        [(⟨Rect.unit (s := ⟨2, d⟩) ![0, 0] d inb, w⟩ : View.Piece (Elt F) ⟨2, d⟩ e)]) = w :=
  whole_write_read_of_zero M f zero_off inb w

end Cert.KernelIdeal.Body

end
-- ==== Proof.StepsValue.lean ====
/-
  The value emitted by the last phase of the 112-step computation.

  The rows are cut into 16 blocks of 256.  A phase of 16 steps replaces one block of rows per step, so after `i` steps of a
  phase the rows below `256 i` hold the phase's new value and the rows from `256 i` on still hold what the phase started
  with.  Carrying this through the phases:
  * after 16 steps  `xb = X0`, `acc = X0`;
  * after 32 steps  also `yb = T · X0`;
  * after 48 steps  `sb = S`, `xb = X1`, `acc = X0 + X1`, `yb = T · X0`;
  * after 64 steps  `yb = T · X1`, the rest as before;
  * after 80 steps  `xb = X2`, `acc = (X0 + X1) + X2`, `sb = S`, `yb = T · X1`;
  * after 96 steps  `yb = T · X2`, the rest as before;
  * steps 96 to 111 change nothing.
  Hence the last phase emits `w · (((X0 + X1) + X2) + (S · (T · X2) + X2)) = w · (((X0 + X1) + X2) + X3)`.
  Only substitution of equal arrays is used; no sum is reordered or distributed.
-/
import proofs.«116923_g7430293422642_cont_9to1_m_1024_15_alg».proof.Proof.Steps

noncomputable section

open scoped BigOperators

namespace HyperConv

/-! ### Rows below and rows from a block boundary -/

/-- `A` agrees with `B` on the rows below `256 i`. -/
def Below {n : ℕ} (i : ℕ) (A B : Mat 4096 n) : Prop :=
  ∀ (r : Fin 4096) (c : Fin n), r.val < 256 * i → A r c = B r c

/-- `A` agrees with `B` on the rows from `256 i` on. -/
def From {n : ℕ} (i : ℕ) (A B : Mat 4096 n) : Prop :=
  ∀ (r : Fin 4096) (c : Fin n), 256 * i ≤ r.val → A r c = B r c

theorem below_zero {n : ℕ} (A B : Mat 4096 n) : Below 0 A B := by
  intro r c h
  omega

theorem from_of_eq {n : ℕ} {A B : Mat 4096 n} (i : ℕ) (h : A = B) : From i A B := by
  intro r c _
  rw [h]

/-- All 16 blocks done: the arrays are equal. -/
theorem eq_of_below {n : ℕ} {A B : Mat 4096 n} (h : Below 16 A B) : A = B := by
  funext r c
  have hr := r.isLt
  exact h r c (by omega)

/-- Replacing block `i` by rows that have the wanted value extends the agreement below `256 i` to below `256 (i + 1)`. -/
theorem below_setRows {n : ℕ} {i : ℕ} {new A B : Mat 4096 n} (hA : Below i A B)
    (hnew : ∀ (r : Fin 4096) (c : Fin n), 256 * i ≤ r.val → r.val < 256 * i + 256 → new r c = B r c) :
    Below (i + 1) (setRows i new A) B := by
  intro r c hr
  by_cases hb : 256 * i ≤ r.val ∧ r.val < 256 * i + 256
  · show (if 256 * i ≤ r.val ∧ r.val < 256 * i + 256 then new r c else A r c) = B r c
    rw [if_pos hb]
    exact hnew r c hb.1 hb.2
  · show (if 256 * i ≤ r.val ∧ r.val < 256 * i + 256 then new r c else A r c) = B r c
    rw [if_neg hb]
    exact hA r c (by omega)

/-- Replacing block `i` leaves the rows from `256 (i + 1)` on as they were. -/
theorem from_setRows {n : ℕ} {i : ℕ} {new A B : Mat 4096 n} (hA : From i A B) :
    From (i + 1) (setRows i new A) B := by
  intro r c hr
  have hb : ¬ (256 * i ≤ r.val ∧ r.val < 256 * i + 256) := by omega
  show (if 256 * i ≤ r.val ∧ r.val < 256 * i + 256 then new r c else A r c) = B r c
  rw [if_neg hb]
  exact hA r c (by omega)

/-! ### One step, by phase -/

section
variable (S T : Mat 4096 4096) (X0 : Mat 4096 256) (σ0 : Kept)

theorem after_succ (n : ℕ) : after S T X0 σ0 (n + 1) = step S T X0 n (after S T X0 σ0 n) := rfl

theorem step_phase0 (n : ℕ) (h : n / 16 = 0) (σ : Kept) :
    step S T X0 n σ = { σ with acc := setRows (n % 16) X0 σ.acc, xb := setRows (n % 16) X0 σ.xb } := by
  unfold step
  rw [if_pos h]

theorem step_odd (n : ℕ) (h : n / 16 % 2 = 1) (σ : Kept) :
    step S T X0 n σ = { σ with yb := setRows (n % 16) (mm T σ.xb) σ.yb } := by
  have h0 : ¬ n / 16 = 0 := by omega
  unfold step
  rw [if_neg h0, if_pos h]

theorem step_two (n : ℕ) (h : n / 16 = 2) (σ : Kept) :
    step S T X0 n σ =
      { sb := setRows (n % 16) S σ.sb, xb := setRows (n % 16) (nextState S σ) σ.xb, yb := σ.yb,
        acc := setRows (n % 16) (fun r c => σ.acc r c + nextState S σ r c) σ.acc } := by
  have h0 : ¬ n / 16 = 0 := by omega
  have h1 : ¬ n / 16 % 2 = 1 := by omega
  unfold step
  rw [if_neg h0, if_neg h1, if_pos h]

theorem step_four (n : ℕ) (h : n / 16 = 4) (σ : Kept) :
    step S T X0 n σ =
      { σ with xb := setRows (n % 16) (nextState σ.sb σ) σ.xb,
               acc := setRows (n % 16) (fun r c => σ.acc r c + nextState σ.sb σ r c) σ.acc } := by
  have h0 : ¬ n / 16 = 0 := by omega
  have h1 : ¬ n / 16 % 2 = 1 := by omega
  have h2 : ¬ n / 16 = 2 := by omega
  unfold step
  rw [if_neg h0, if_neg h1, if_neg h2, if_pos h]

theorem step_six (n : ℕ) (h : n / 16 = 6) (σ : Kept) : step S T X0 n σ = σ := by
  have h0 : ¬ n / 16 = 0 := by omega
  have h1 : ¬ n / 16 % 2 = 1 := by omega
  have h2 : ¬ n / 16 = 2 := by omega
  have h4 : ¬ n / 16 = 4 := by omega
  unfold step
  rw [if_neg h0, if_neg h1, if_neg h2, if_neg h4]

/-! ### The phases -/

/-- Phase 0, `i` blocks done: `xb` and `acc` hold `X0` below `256 i`. -/
theorem phase0 (i : ℕ) (hi : i ≤ 16) :
    Below i (after S T X0 σ0 i).xb X0 ∧ Below i (after S T X0 σ0 i).acc X0 := by
  induction i with
  | zero => exact ⟨below_zero _ _, below_zero _ _⟩
  | succ i ih =>
    obtain ⟨hx, ha⟩ := ih (by omega)
    have hq : i / 16 = 0 := by omega
    have hm : i % 16 = i := by omega
    rw [after_succ, step_phase0 S T X0 i hq, hm]
    exact ⟨below_setRows hx (fun _ _ _ _ => rfl), below_setRows ha (fun _ _ _ _ => rfl)⟩

/-- Phase 1, `i` blocks done: `xb = X0`, `acc = X0`, and `yb` holds `T · X0` below `256 i`. -/
theorem phase1 (i : ℕ) (hi : i ≤ 16) :
    (after S T X0 σ0 (16 + i)).xb = X0 ∧ (after S T X0 σ0 (16 + i)).acc = X0 ∧
      Below i (after S T X0 σ0 (16 + i)).yb (mm T X0) := by
  induction i with
  | zero =>
    obtain ⟨hx, ha⟩ := phase0 S T X0 σ0 16 (le_refl _)
    exact ⟨eq_of_below hx, eq_of_below ha, below_zero _ _⟩
  | succ i ih =>
    obtain ⟨hx, ha, hy⟩ := ih (by omega)
    have hq : (16 + i) / 16 % 2 = 1 := by omega
    have hm : (16 + i) % 16 = i := by omega
    rw [← Nat.add_assoc, after_succ, step_odd S T X0 (16 + i) hq, hm]
    refine ⟨hx, ha, below_setRows hy (fun r c _ _ => ?_)⟩
    rw [hx]

/-- Phase 2, `i` blocks done: `yb = T · X0`; below `256 i`, `sb` holds `S`, `xb` holds `X1` and `acc` holds `X0 + X1`;
    from `256 i` on, `xb` and `acc` still hold `X0`. -/
theorem phase2 (i : ℕ) (hi : i ≤ 16) :
    (after S T X0 σ0 (32 + i)).yb = mm T X0 ∧
      Below i (after S T X0 σ0 (32 + i)).sb S ∧
      Below i (after S T X0 σ0 (32 + i)).xb (X1 S T X0) ∧
      From i (after S T X0 σ0 (32 + i)).xb X0 ∧
      Below i (after S T X0 σ0 (32 + i)).acc (fun r c => X0 r c + X1 S T X0 r c) ∧
      From i (after S T X0 σ0 (32 + i)).acc X0 := by
  induction i with
  | zero =>
    obtain ⟨hx, ha, hy⟩ := phase1 S T X0 σ0 16 (le_refl _)
    exact ⟨eq_of_below hy, below_zero _ _, below_zero _ _, from_of_eq 0 hx, below_zero _ _, from_of_eq 0 ha⟩
  | succ i ih =>
    obtain ⟨hy, hs, hxB, hxF, haB, haF⟩ := ih (by omega)
    have hq : (32 + i) / 16 = 2 := by omega
    have hm : (32 + i) % 16 = i := by omega
    -- on block `i` the new rows `S · yb + xb` are `S · (T · X0) + X0 = X1`
    have hnext : ∀ (r : Fin 4096) (c : Fin 256), 256 * i ≤ r.val →
        nextState S (after S T X0 σ0 (32 + i)) r c = X1 S T X0 r c := by
      intro r c hr
      show mm S (after S T X0 σ0 (32 + i)).yb r c + (after S T X0 σ0 (32 + i)).xb r c
        = mm S (mm T X0) r c + X0 r c
      rw [hy, hxF r c hr]
    rw [← Nat.add_assoc, after_succ, step_two S T X0 (32 + i) hq, hm]
    refine ⟨hy, below_setRows hs (fun _ _ _ _ => rfl), below_setRows hxB (fun r c h _ => hnext r c h),
      from_setRows hxF, below_setRows haB (fun r c h _ => ?_), from_setRows haF⟩
    show (after S T X0 σ0 (32 + i)).acc r c + nextState S (after S T X0 σ0 (32 + i)) r c
      = X0 r c + X1 S T X0 r c
    rw [haF r c h, hnext r c h]

/-- Phase 3, `i` blocks done: `sb = S`, `xb = X1`, `acc = X0 + X1`, and `yb` holds `T · X1` below `256 i`. -/
theorem phase3 (i : ℕ) (hi : i ≤ 16) :
    (after S T X0 σ0 (48 + i)).sb = S ∧ (after S T X0 σ0 (48 + i)).xb = X1 S T X0 ∧
      (after S T X0 σ0 (48 + i)).acc = (fun r c => X0 r c + X1 S T X0 r c) ∧
      Below i (after S T X0 σ0 (48 + i)).yb (mm T (X1 S T X0)) := by
  induction i with
  | zero =>
    obtain ⟨_, hs, hxB, _, haB, _⟩ := phase2 S T X0 σ0 16 (le_refl _)
    exact ⟨eq_of_below hs, eq_of_below hxB, eq_of_below haB, below_zero _ _⟩
  | succ i ih =>
    obtain ⟨hs, hx, ha, hy⟩ := ih (by omega)
    have hq : (48 + i) / 16 % 2 = 1 := by omega
    have hm : (48 + i) % 16 = i := by omega
    rw [← Nat.add_assoc, after_succ, step_odd S T X0 (48 + i) hq, hm]
    refine ⟨hs, hx, ha, below_setRows hy (fun r c _ _ => ?_)⟩
    rw [hx]

/-- Phase 4, `i` blocks done: `sb = S`, `yb = T · X1`; below `256 i`, `xb` holds `X2` and `acc` holds `(X0 + X1) + X2`;
    from `256 i` on, `xb` still holds `X1` and `acc` still holds `X0 + X1`. -/
theorem phase4 (i : ℕ) (hi : i ≤ 16) :
    (after S T X0 σ0 (64 + i)).sb = S ∧
      (after S T X0 σ0 (64 + i)).yb = mm T (X1 S T X0) ∧
      Below i (after S T X0 σ0 (64 + i)).xb (X2 S T X0) ∧
      From i (after S T X0 σ0 (64 + i)).xb (X1 S T X0) ∧
      Below i (after S T X0 σ0 (64 + i)).acc (fun r c => (X0 r c + X1 S T X0 r c) + X2 S T X0 r c) ∧
      From i (after S T X0 σ0 (64 + i)).acc (fun r c => X0 r c + X1 S T X0 r c) := by
  induction i with
  | zero =>
    obtain ⟨hs, hx, ha, hy⟩ := phase3 S T X0 σ0 16 (le_refl _)
    exact ⟨hs, eq_of_below hy, below_zero _ _, from_of_eq 0 hx, below_zero _ _, from_of_eq 0 ha⟩
  | succ i ih =>
    obtain ⟨hs, hy, hxB, hxF, haB, haF⟩ := ih (by omega)
    have hq : (64 + i) / 16 = 4 := by omega
    have hm : (64 + i) % 16 = i := by omega
    -- on block `i` the new rows `sb · yb + xb` are `S · (T · X1) + X1 = X2`
    have hnext : ∀ (r : Fin 4096) (c : Fin 256), 256 * i ≤ r.val →
        nextState (after S T X0 σ0 (64 + i)).sb (after S T X0 σ0 (64 + i)) r c = X2 S T X0 r c := by
      intro r c hr
      show mm (after S T X0 σ0 (64 + i)).sb (after S T X0 σ0 (64 + i)).yb r c + (after S T X0 σ0 (64 + i)).xb r c
        = mm S (mm T (X1 S T X0)) r c + X1 S T X0 r c
      rw [hs, hy, hxF r c hr]
    rw [← Nat.add_assoc, after_succ, step_four S T X0 (64 + i) hq, hm]
    refine ⟨hs, hy, below_setRows hxB (fun r c h _ => hnext r c h), from_setRows hxF,
      below_setRows haB (fun r c h _ => ?_), from_setRows haF⟩
    show (after S T X0 σ0 (64 + i)).acc r c
        + nextState (after S T X0 σ0 (64 + i)).sb (after S T X0 σ0 (64 + i)) r c
      = (X0 r c + X1 S T X0 r c) + X2 S T X0 r c
    rw [haF r c h, hnext r c h]

/-- Phase 5, `i` blocks done: `sb = S`, `xb = X2`, `acc = (X0 + X1) + X2`, and `yb` holds `T · X2` below `256 i`. -/
theorem phase5 (i : ℕ) (hi : i ≤ 16) :
    (after S T X0 σ0 (80 + i)).sb = S ∧ (after S T X0 σ0 (80 + i)).xb = X2 S T X0 ∧
      (after S T X0 σ0 (80 + i)).acc = (fun r c => (X0 r c + X1 S T X0 r c) + X2 S T X0 r c) ∧
      Below i (after S T X0 σ0 (80 + i)).yb (mm T (X2 S T X0)) := by
  induction i with
  | zero =>
    obtain ⟨hs, _, hxB, _, haB, _⟩ := phase4 S T X0 σ0 16 (le_refl _)
    exact ⟨hs, eq_of_below hxB, eq_of_below haB, below_zero _ _⟩
  | succ i ih =>
    obtain ⟨hs, hx, ha, hy⟩ := ih (by omega)
    have hq : (80 + i) / 16 % 2 = 1 := by omega
    have hm : (80 + i) % 16 = i := by omega
    rw [← Nat.add_assoc, after_succ, step_odd S T X0 (80 + i) hq, hm]
    refine ⟨hs, hx, ha, below_setRows hy (fun r c _ _ => ?_)⟩
    rw [hx]

/-- Phase 6 changes nothing. -/
theorem phase6 (i : ℕ) (hi : i ≤ 16) : after S T X0 σ0 (96 + i) = after S T X0 σ0 96 := by
  induction i with
  | zero => rfl
  | succ i ih =>
    have hq : (96 + i) / 16 = 6 := by omega
    rw [← Nat.add_assoc, after_succ, step_six S T X0 (96 + i) hq]
    exact ih (by omega)

end

/-! ### What the last phase emits -/

/-- At any step `n` of the last phase (`96 ≤ n < 112`), whatever the four kept arrays held at the start, the value
    emitted on the rows of block `n % 16` is `w · (((X0 + X1) + X2) + X3)`. -/
theorem emit_after (w : EReal) (S T : Mat 4096 4096) (X0 : Mat 4096 256) (σ0 : Kept) (n : ℕ) (h96 : 96 ≤ n)
    (h112 : n < 112) (r : Fin 4096) (c : Fin 256)
    (hr : 256 * (n % 16) ≤ r.val ∧ r.val < 256 * (n % 16) + 256) :
    emit w (after S T X0 σ0 n) r c = weighted w S T X0 r c := by
  obtain ⟨i, rfl⟩ := Nat.exists_eq_add_of_le h96
  obtain ⟨hs, hx, ha, hyB⟩ := phase5 S T X0 σ0 16 (le_refl _)
  have hy : (after S T X0 σ0 96).yb = mm T (X2 S T X0) := eq_of_below hyB
  rw [phase6 S T X0 σ0 i (by omega)]
  show w * ((after S T X0 σ0 96).acc r c
      + (mm (after S T X0 σ0 96).sb (after S T X0 σ0 96).yb r c + (after S T X0 σ0 96).xb r c))
    = w * (((X0 r c + X1 S T X0 r c) + X2 S T X0 r c)
      + (mm S (mm T (X2 S T X0)) r c + X2 S T X0 r c))
  rw [hs, hy, hx, ha]

end HyperConv

end
-- ==== Proof.IdealBody.StepValue.lean ====
/-
  Each point of the grid is one step of the step-by-step computation.

  Read by row and column, the four scratch buffers are the four kept arrays.  At a point of a phase the body stores, into
  each buffer the phase writes, the 256 rows of the point's block, and leaves every other row and every other buffer as
  it was: read back, a buffer is the stored rows on the block and what it held elsewhere.  The stored rows, read at row
  `p` and column `q`, are the step's new rows at row `256 (t % 16) + p`: the block of the node states in phase 0; the
  block's rows of the target incidences times the current state in an odd phase; in phase 2 the block's rows of the
  source incidences, those rows times the messages plus the block's rows of the current state, and the running sum's
  rows plus that; in phase 4 the same with the kept rows of the source incidences; nothing in phase 6.  So the kept
  arrays after point `t` are step `t` of the kept arrays before it, and after `n` points they are the kept arrays after
  `n` steps.
-/
import proofs.«116923_g7430293422642_cont_9to1_m_1024_15_alg».proof.Proof.IdealBody.Kept
import proofs.«116923_g7430293422642_cont_9to1_m_1024_15_alg».proof.Proof.IdealBody.Payloads
import proofs.«116923_g7430293422642_cont_9to1_m_1024_15_alg».proof.Proof.IdealBody.ScratchReads
import proofs.«116923_g7430293422642_cont_9to1_m_1024_15_alg».proof.Proof.StepsValue

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

local notation "𝕄" => MT nD τ sig Unit (Elt Ideal) ℕ (UR sig nD τ) ℕ

variable (m : (ℓ : Loc nD τ sig) → Buf (Elt Ideal) ℓ)

/-! ## What each phase stores -/

/-- What a point of phase 0 stores into the current state. -/
theorem runP0_xb (c : Dev nD) (i : grid0.Coords) (arg2 : Memref sig .tc .vmem S256x256 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x256 .f32) (harg5 : arg5.IsWhole) (arg6 : Memref sig .tc .vmem S4096x4096 .bf16) (harg6 : arg6.IsWhole) (arg7 : Memref sig .tc .vmem S4096x256 .bf16) (harg7 : arg7.IsWhole) (arg8 : Memref sig .tc .vmem S4096x256 .bf16) (harg8 : arg8.IsWhole) (arg9 : Memref sig .tc .vmem S4096x256 .bf16) (harg9 : arg9.IsWhole)
    (h1 : c1 i) (h2 : ¬c2 i) (h3 : ¬c3 i) (h4 : ¬c4 i) (h5 : ¬c5 i) (x0 : Vec Ideal S256x256 .f32) (x1 : Vec Ideal S256x4096 .f32) (x2 : Vec Ideal S256x4096 .f32) (s6 : Vec Ideal S4096x4096 .bf16) (s7 : Vec Ideal S4096x256 .bf16) (s8 : Vec Ideal S4096x256 .bf16) (s9 : Vec Ideal S4096x256 .bf16) :
    (runP0 (F := Ideal) c i arg2 harg2 arg3 harg3 arg4 harg4 arg5 harg5 arg6 harg6 arg7 harg7 arg8 harg8 arg9 harg9 h1 h2 h3 h4 h5 x0 x1 x2 s6 s7 s8 s9).1
      = [(⟨(Rect.unit (s := S4096x256) (k0_off1 i) ![256, 256] (k0_off1_inb i h1)), k0_pay3 (View.readAt (Elt Ideal) arg2.view (Rect.unit (s := S256x256) ![0, 0] ![256, 256] inb_S256x256_S256x256_0_0).toLoadRect (harg2.unread x0))⟩ : View.Piece (Elt Ideal) S4096x256 .bf16)] := by
  unfold runP0
  rfl

/-- What a point of phase 0 stores into the running sum. -/
theorem runP0_acc (c : Dev nD) (i : grid0.Coords) (arg2 : Memref sig .tc .vmem S256x256 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x256 .f32) (harg5 : arg5.IsWhole) (arg6 : Memref sig .tc .vmem S4096x4096 .bf16) (harg6 : arg6.IsWhole) (arg7 : Memref sig .tc .vmem S4096x256 .bf16) (harg7 : arg7.IsWhole) (arg8 : Memref sig .tc .vmem S4096x256 .bf16) (harg8 : arg8.IsWhole) (arg9 : Memref sig .tc .vmem S4096x256 .bf16) (harg9 : arg9.IsWhole)
    (h1 : c1 i) (h2 : ¬c2 i) (h3 : ¬c3 i) (h4 : ¬c4 i) (h5 : ¬c5 i) (x0 : Vec Ideal S256x256 .f32) (x1 : Vec Ideal S256x4096 .f32) (x2 : Vec Ideal S256x4096 .f32) (s6 : Vec Ideal S4096x4096 .bf16) (s7 : Vec Ideal S4096x256 .bf16) (s8 : Vec Ideal S4096x256 .bf16) (s9 : Vec Ideal S4096x256 .bf16) :
    (runP0 (F := Ideal) c i arg2 harg2 arg3 harg3 arg4 harg4 arg5 harg5 arg6 harg6 arg7 harg7 arg8 harg8 arg9 harg9 h1 h2 h3 h4 h5 x0 x1 x2 s6 s7 s8 s9).2.1
      = [(⟨(Rect.unit (s := S4096x256) (k0_off1 i) ![256, 256] (k0_off1_inb i h1)), k0_pay2 (View.readAt (Elt Ideal) arg2.view (Rect.unit (s := S256x256) ![0, 0] ![256, 256] inb_S256x256_S256x256_0_0).toLoadRect (harg2.unread x0))⟩ : View.Piece (Elt Ideal) S4096x256 .bf16)] := by
  unfold runP0
  rfl

/-- What a point of an odd phase stores into the messages. -/
theorem runPT_yb (c : Dev nD) (i : grid0.Coords) (arg2 : Memref sig .tc .vmem S256x256 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x256 .f32) (harg5 : arg5.IsWhole) (arg6 : Memref sig .tc .vmem S4096x4096 .bf16) (harg6 : arg6.IsWhole) (arg7 : Memref sig .tc .vmem S4096x256 .bf16) (harg7 : arg7.IsWhole) (arg8 : Memref sig .tc .vmem S4096x256 .bf16) (harg8 : arg8.IsWhole) (arg9 : Memref sig .tc .vmem S4096x256 .bf16) (harg9 : arg9.IsWhole)
    (h1 : ¬c1 i) (h2 : c2 i) (h3 : ¬c3 i) (h4 : ¬c4 i) (h5 : ¬c5 i) (x0 : Vec Ideal S256x256 .f32) (x1 : Vec Ideal S256x4096 .f32) (x2 : Vec Ideal S256x4096 .f32) (s6 : Vec Ideal S4096x4096 .bf16) (s7 : Vec Ideal S4096x256 .bf16) (s8 : Vec Ideal S4096x256 .bf16) (s9 : Vec Ideal S4096x256 .bf16) :
    (runPT (F := Ideal) c i arg2 harg2 arg3 harg3 arg4 harg4 arg5 harg5 arg6 harg6 arg7 harg7 arg8 harg8 arg9 harg9 h1 h2 h3 h4 h5 x0 x1 x2 s6 s7 s8 s9).1
      = [(⟨(Rect.unit (s := S4096x256) (k0_off2 i) ![256, 256] (k0_off2_inb i h2)), k0_pay4 (View.readAt (Elt Ideal) arg3.view (Rect.unit (s := S256x4096) ![0, 0] ![256, 4096] inb_S256x4096_S256x4096_0_0).toLoadRect (harg3.unread x1)) (View.readAt (Elt Ideal) arg7.view (Rect.unit (s := S4096x256) ![0, 0] ![4096, 256] inb_S4096x256_S4096x256_0_0).toLoadRect (harg7.unread s7))⟩ : View.Piece (Elt Ideal) S4096x256 .bf16)] := by
  unfold runPT
  rfl

/-- What a point of phase 2 stores into the kept source incidences. -/
theorem runP2_sb (c : Dev nD) (i : grid0.Coords) (arg2 : Memref sig .tc .vmem S256x256 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x256 .f32) (harg5 : arg5.IsWhole) (arg6 : Memref sig .tc .vmem S4096x4096 .bf16) (harg6 : arg6.IsWhole) (arg7 : Memref sig .tc .vmem S4096x256 .bf16) (harg7 : arg7.IsWhole) (arg8 : Memref sig .tc .vmem S4096x256 .bf16) (harg8 : arg8.IsWhole) (arg9 : Memref sig .tc .vmem S4096x256 .bf16) (harg9 : arg9.IsWhole)
    (h1 : ¬c1 i) (h2 : ¬c2 i) (h3 : c3 i) (h4 : ¬c4 i) (h5 : ¬c5 i) (x0 : Vec Ideal S256x256 .f32) (x1 : Vec Ideal S256x4096 .f32) (x2 : Vec Ideal S256x4096 .f32) (s6 : Vec Ideal S4096x4096 .bf16) (s7 : Vec Ideal S4096x256 .bf16) (s8 : Vec Ideal S4096x256 .bf16) (s9 : Vec Ideal S4096x256 .bf16) :
    (runP2 (F := Ideal) c i arg2 harg2 arg3 harg3 arg4 harg4 arg5 harg5 arg6 harg6 arg7 harg7 arg8 harg8 arg9 harg9 h1 h2 h3 h4 h5 x0 x1 x2 s6 s7 s8 s9).1
      = [(⟨(Rect.unit (s := S4096x4096) (k0_off3 i) ![256, 4096] (k0_off3_inb i h3)), k0_pay6 (View.readAt (Elt Ideal) arg4.view (Rect.unit (s := S256x4096) ![0, 0] ![256, 4096] inb_S256x4096_S256x4096_0_0).toLoadRect (harg4.unread x2))⟩ : View.Piece (Elt Ideal) S4096x4096 .bf16)] := by
  unfold runP2
  rfl

/-- What a point of phase 2 stores into the current state. -/
theorem runP2_xb (c : Dev nD) (i : grid0.Coords) (arg2 : Memref sig .tc .vmem S256x256 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x256 .f32) (harg5 : arg5.IsWhole) (arg6 : Memref sig .tc .vmem S4096x4096 .bf16) (harg6 : arg6.IsWhole) (arg7 : Memref sig .tc .vmem S4096x256 .bf16) (harg7 : arg7.IsWhole) (arg8 : Memref sig .tc .vmem S4096x256 .bf16) (harg8 : arg8.IsWhole) (arg9 : Memref sig .tc .vmem S4096x256 .bf16) (harg9 : arg9.IsWhole)
    (h1 : ¬c1 i) (h2 : ¬c2 i) (h3 : c3 i) (h4 : ¬c4 i) (h5 : ¬c5 i) (x0 : Vec Ideal S256x256 .f32) (x1 : Vec Ideal S256x4096 .f32) (x2 : Vec Ideal S256x4096 .f32) (s6 : Vec Ideal S4096x4096 .bf16) (s7 : Vec Ideal S4096x256 .bf16) (s8 : Vec Ideal S4096x256 .bf16) (s9 : Vec Ideal S4096x256 .bf16) :
    (runP2 (F := Ideal) c i arg2 harg2 arg3 harg3 arg4 harg4 arg5 harg5 arg6 harg6 arg7 harg7 arg8 harg8 arg9 harg9 h1 h2 h3 h4 h5 x0 x1 x2 s6 s7 s8 s9).2.1
      = [(⟨(Rect.unit (s := S4096x256) (k0_off4 i) ![256, 256] (k0_off4_inb i h3)), k0_pay9 (View.readAt (Elt Ideal) arg4.view (Rect.unit (s := S256x4096) ![0, 0] ![256, 4096] inb_S256x4096_S256x4096_0_0).toLoadRect (harg4.unread x2)) (View.readAt (Elt Ideal) arg8.view (Rect.unit (s := S4096x256) ![0, 0] ![4096, 256] inb_S4096x256_S4096x256_0_0).toLoadRect (harg8.unread s8)) (View.readAt (Elt Ideal) arg7.view (Rect.unit (s := S4096x256) (k0_off4 i) ![256, 256] (k0_off4_inb i h3)).toLoadRect (harg7.unread s7))⟩ : View.Piece (Elt Ideal) S4096x256 .bf16)] := by
  unfold runP2
  rfl

/-- What a point of phase 2 stores into the running sum. -/
theorem runP2_acc (c : Dev nD) (i : grid0.Coords) (arg2 : Memref sig .tc .vmem S256x256 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x256 .f32) (harg5 : arg5.IsWhole) (arg6 : Memref sig .tc .vmem S4096x4096 .bf16) (harg6 : arg6.IsWhole) (arg7 : Memref sig .tc .vmem S4096x256 .bf16) (harg7 : arg7.IsWhole) (arg8 : Memref sig .tc .vmem S4096x256 .bf16) (harg8 : arg8.IsWhole) (arg9 : Memref sig .tc .vmem S4096x256 .bf16) (harg9 : arg9.IsWhole)
    (h1 : ¬c1 i) (h2 : ¬c2 i) (h3 : c3 i) (h4 : ¬c4 i) (h5 : ¬c5 i) (x0 : Vec Ideal S256x256 .f32) (x1 : Vec Ideal S256x4096 .f32) (x2 : Vec Ideal S256x4096 .f32) (s6 : Vec Ideal S4096x4096 .bf16) (s7 : Vec Ideal S4096x256 .bf16) (s8 : Vec Ideal S4096x256 .bf16) (s9 : Vec Ideal S4096x256 .bf16) :
    (runP2 (F := Ideal) c i arg2 harg2 arg3 harg3 arg4 harg4 arg5 harg5 arg6 harg6 arg7 harg7 arg8 harg8 arg9 harg9 h1 h2 h3 h4 h5 x0 x1 x2 s6 s7 s8 s9).2.2.1
      = [(⟨(Rect.unit (s := S4096x256) (k0_off4 i) ![256, 256] (k0_off4_inb i h3)), k0_pay8 (View.readAt (Elt Ideal) arg4.view (Rect.unit (s := S256x4096) ![0, 0] ![256, 4096] inb_S256x4096_S256x4096_0_0).toLoadRect (harg4.unread x2)) (View.readAt (Elt Ideal) arg8.view (Rect.unit (s := S4096x256) ![0, 0] ![4096, 256] inb_S4096x256_S4096x256_0_0).toLoadRect (harg8.unread s8)) (View.readAt (Elt Ideal) arg7.view (Rect.unit (s := S4096x256) (k0_off4 i) ![256, 256] (k0_off4_inb i h3)).toLoadRect (harg7.unread s7)) (View.readAt (Elt Ideal) arg9.view (Rect.unit (s := S4096x256) (k0_off4 i) ![256, 256] (k0_off4_inb i h3)).toLoadRect (harg9.unread s9))⟩ : View.Piece (Elt Ideal) S4096x256 .bf16)] := by
  unfold runP2
  rfl

/-- What a point of phase 4 stores into the current state. -/
theorem runP4_xb (c : Dev nD) (i : grid0.Coords) (arg2 : Memref sig .tc .vmem S256x256 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x256 .f32) (harg5 : arg5.IsWhole) (arg6 : Memref sig .tc .vmem S4096x4096 .bf16) (harg6 : arg6.IsWhole) (arg7 : Memref sig .tc .vmem S4096x256 .bf16) (harg7 : arg7.IsWhole) (arg8 : Memref sig .tc .vmem S4096x256 .bf16) (harg8 : arg8.IsWhole) (arg9 : Memref sig .tc .vmem S4096x256 .bf16) (harg9 : arg9.IsWhole)
    (h1 : ¬c1 i) (h2 : ¬c2 i) (h3 : ¬c3 i) (h4 : c4 i) (h5 : ¬c5 i) (x0 : Vec Ideal S256x256 .f32) (x1 : Vec Ideal S256x4096 .f32) (x2 : Vec Ideal S256x4096 .f32) (s6 : Vec Ideal S4096x4096 .bf16) (s7 : Vec Ideal S4096x256 .bf16) (s8 : Vec Ideal S4096x256 .bf16) (s9 : Vec Ideal S4096x256 .bf16) :
    (runP4 (F := Ideal) c i arg2 harg2 arg3 harg3 arg4 harg4 arg5 harg5 arg6 harg6 arg7 harg7 arg8 harg8 arg9 harg9 h1 h2 h3 h4 h5 x0 x1 x2 s6 s7 s8 s9).1
      = [(⟨(Rect.unit (s := S4096x256) (k0_off6 i) ![256, 256] (k0_off6_inb i h4)), k0_pay12 (View.readAt (Elt Ideal) arg6.view (Rect.unit (s := S4096x4096) (k0_off5 i) ![256, 4096] (k0_off5_inb i h4)).toLoadRect (harg6.unread s6)) (View.readAt (Elt Ideal) arg8.view (Rect.unit (s := S4096x256) ![0, 0] ![4096, 256] inb_S4096x256_S4096x256_0_0).toLoadRect (harg8.unread s8)) (View.readAt (Elt Ideal) arg7.view (Rect.unit (s := S4096x256) (k0_off6 i) ![256, 256] (k0_off6_inb i h4)).toLoadRect (harg7.unread s7))⟩ : View.Piece (Elt Ideal) S4096x256 .bf16)] := by
  unfold runP4
  rfl

/-- What a point of phase 4 stores into the running sum. -/
theorem runP4_acc (c : Dev nD) (i : grid0.Coords) (arg2 : Memref sig .tc .vmem S256x256 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x256 .f32) (harg5 : arg5.IsWhole) (arg6 : Memref sig .tc .vmem S4096x4096 .bf16) (harg6 : arg6.IsWhole) (arg7 : Memref sig .tc .vmem S4096x256 .bf16) (harg7 : arg7.IsWhole) (arg8 : Memref sig .tc .vmem S4096x256 .bf16) (harg8 : arg8.IsWhole) (arg9 : Memref sig .tc .vmem S4096x256 .bf16) (harg9 : arg9.IsWhole)
    (h1 : ¬c1 i) (h2 : ¬c2 i) (h3 : ¬c3 i) (h4 : c4 i) (h5 : ¬c5 i) (x0 : Vec Ideal S256x256 .f32) (x1 : Vec Ideal S256x4096 .f32) (x2 : Vec Ideal S256x4096 .f32) (s6 : Vec Ideal S4096x4096 .bf16) (s7 : Vec Ideal S4096x256 .bf16) (s8 : Vec Ideal S4096x256 .bf16) (s9 : Vec Ideal S4096x256 .bf16) :
    (runP4 (F := Ideal) c i arg2 harg2 arg3 harg3 arg4 harg4 arg5 harg5 arg6 harg6 arg7 harg7 arg8 harg8 arg9 harg9 h1 h2 h3 h4 h5 x0 x1 x2 s6 s7 s8 s9).2.1
      = [(⟨(Rect.unit (s := S4096x256) (k0_off6 i) ![256, 256] (k0_off6_inb i h4)), k0_pay11 (View.readAt (Elt Ideal) arg6.view (Rect.unit (s := S4096x4096) (k0_off5 i) ![256, 4096] (k0_off5_inb i h4)).toLoadRect (harg6.unread s6)) (View.readAt (Elt Ideal) arg8.view (Rect.unit (s := S4096x256) ![0, 0] ![4096, 256] inb_S4096x256_S4096x256_0_0).toLoadRect (harg8.unread s8)) (View.readAt (Elt Ideal) arg7.view (Rect.unit (s := S4096x256) (k0_off6 i) ![256, 256] (k0_off6_inb i h4)).toLoadRect (harg7.unread s7)) (View.readAt (Elt Ideal) arg9.view (Rect.unit (s := S4096x256) (k0_off6 i) ![256, 256] (k0_off6_inb i h4)).toLoadRect (harg9.unread s9))⟩ : View.Piece (Elt Ideal) S4096x256 .bf16)] := by
  unfold runP4
  rfl

/-! ## A store of a block's rows, read back by row and column -/

/-- After one store of the 256 rows of block `t % 16` whose row `p`, column `q` is `new` at row `256 (t % 16) + p`, column `q`,
    the buffer read by row and column is `new` on the block's rows and what it held on the others. -/
theorem toMat_rows_write {sp : Space} {n : ℕ} (M : Memref sig .tc sp ⟨2, ![4096, n]⟩ .bf16) (hM : M.IsWhole)
    (X : (⟨2, ![4096, n]⟩ : Shape).Idx → Elt Ideal .bf16) {off : Fin 2 → ℕ}
    (inb : ∀ a, off a + (![256, n] : Fin 2 → ℕ) a ≤ (⟨2, ![4096, n]⟩ : Shape).size a)
    (w : (Rect.unit (s := ⟨2, ![4096, n]⟩) off ![256, n] inb).shape.Idx → Elt Ideal .bf16) (t : Fin cfg0.N)
    (hoff : off = ![256 * (t.val % 16), 0]) (new : HyperConv.Mat 4096 n)
    (hnew : ∀ (p : Fin 256) (q : Fin n), w (ix2 p q) = new (rowOf t p) q) :
    HyperConv.toMat (m := 4096) (n := n) (M.view.read (Elt Ideal) (M.view.writes (Elt Ideal) (hM.unread X)
        [(⟨Rect.unit (s := ⟨2, ![4096, n]⟩) off ![256, n] inb, w⟩ : View.Piece (Elt Ideal) ⟨2, ![4096, n]⟩ .bf16)]))
      = HyperConv.setRows (t.val % 16) new (HyperConv.toMat X) := by
  funext r q
  show M.view.read (Elt Ideal) (M.view.writes (Elt Ideal) (hM.unread X)
        [(⟨Rect.unit (s := ⟨2, ![4096, n]⟩) off ![256, n] inb, w⟩ : View.Piece (Elt Ideal) ⟨2, ![4096, n]⟩ .bf16)]) (ix2 r q)
      = if 256 * (t.val % 16) ≤ r.val ∧ r.val < 256 * (t.val % 16) + 256 then new r q else X (ix2 r q)
  rw [rows_write_read M hM X inb w hoff r q]
  by_cases h : 256 * (t.val % 16) ≤ r.val ∧ r.val < 256 * (t.val % 16) + 256
  · rw [dif_pos h, if_pos h, hnew]
    exact congrArg (fun r' => new r' q) (rowOf_sub t r h).symm
  · rw [dif_neg h, if_neg h]

/-! ## The kept arrays after a point, field by field -/

section
variable (c : Dev nD) (t : Fin cfg0.N) (σ : Scr)

/-- Phase 0: the current state gets the block's rows of the node states. -/
theorem stepP0_xb (hq : t.val / 16 = 0) :
    HyperConv.toMat (stepP0 m c t hq σ).xb = HyperConv.setRows (t.val % 16) (X0m m c) (HyperConv.toMat σ.xb) := by
  unfold stepP0
  dsimp only
  rw [runP0_xb]
  refine toMat_rows_write sc1 hw1 σ.xb _ _ t (off_1 t) (X0m m c) (fun p q => ?_)
  rw [pay3_apply, whole_read, iblk0_apply m c t hq]
  rfl

/-- Phase 0: the running sum gets the block's rows of the node states. -/
theorem stepP0_acc (hq : t.val / 16 = 0) :
    HyperConv.toMat (stepP0 m c t hq σ).acc = HyperConv.setRows (t.val % 16) (X0m m c) (HyperConv.toMat σ.acc) := by
  unfold stepP0
  dsimp only
  rw [runP0_acc]
  refine toMat_rows_write sc3 hw3 σ.acc _ _ t (off_1 t) (X0m m c) (fun p q => ?_)
  rw [pay2_apply, whole_read, iblk0_apply m c t hq]
  rfl

/-- An odd phase: the messages get the block's rows of the target incidences times the current state. -/
theorem stepPT_yb (hq : t.val / 16 % 2 = 1) :
    HyperConv.toMat (stepPT m c t hq σ).yb
      = HyperConv.setRows (t.val % 16) (HyperConv.mm (Tm m c) (HyperConv.toMat σ.xb)) (HyperConv.toMat σ.yb) := by
  unfold stepPT
  dsimp only
  rw [runPT_yb]
  refine toMat_rows_write sc2 hw2 σ.yb _ _ t (off_2 t) _ (fun p q => ?_)
  rw [pay4_apply, whole_read, whole_read]
  show _ = ∑ j : Fin 4096, Tm m c (rowOf t p) j * HyperConv.toMat σ.xb j q
  refine Finset.sum_congr rfl fun k _ => ?_
  rw [iblk1_apply m c t hq]
  rfl

/-- Phase 2: the kept source incidences get the block's rows of the source incidences. -/
theorem stepP2_sb (hq : t.val / 16 = 2) :
    HyperConv.toMat (stepP2 m c t hq σ).sb = HyperConv.setRows (t.val % 16) (Sm m c) (HyperConv.toMat σ.sb) := by
  unfold stepP2
  dsimp only
  rw [runP2_sb]
  refine toMat_rows_write sc0 hw0 σ.sb _ _ t (off_3 t) (Sm m c) (fun p k => ?_)
  rw [pay6_apply, whole_read, iblk2_apply m c t hq]
  rfl

/-- Phase 2: the current state gets the block's rows of the source incidences times the messages, plus its own. -/
theorem stepP2_xb (hq : t.val / 16 = 2) :
    HyperConv.toMat (stepP2 m c t hq σ).xb
      = HyperConv.setRows (t.val % 16) (HyperConv.nextState (Sm m c) (toKept σ)) (HyperConv.toMat σ.xb) := by
  unfold stepP2
  dsimp only
  rw [runP2_xb]
  refine toMat_rows_write sc1 hw1 σ.xb _ _ t (off_4 t) _ (fun p q => ?_)
  rw [pay9_apply, whole_read, whole_read, rows_read sc1 hw1 σ.xb _ t (off_4 t)]
  show _ = (∑ j : Fin 4096, Sm m c (rowOf t p) j * HyperConv.toMat σ.yb j q) + HyperConv.toMat σ.xb (rowOf t p) q
  refine congrArg (· + HyperConv.toMat σ.xb (rowOf t p) q) (Finset.sum_congr rfl fun k _ => ?_)
  rw [iblk2_apply m c t hq]
  rfl

/-- Phase 2: the running sum gets its own rows plus the new rows of the current state. -/
theorem stepP2_acc (hq : t.val / 16 = 2) :
    HyperConv.toMat (stepP2 m c t hq σ).acc
      = HyperConv.setRows (t.val % 16)
          (fun r q => (toKept σ).acc r q + HyperConv.nextState (Sm m c) (toKept σ) r q) (HyperConv.toMat σ.acc) := by
  unfold stepP2
  dsimp only
  rw [runP2_acc]
  refine toMat_rows_write sc3 hw3 σ.acc _ _ t (off_4 t) _ (fun p q => ?_)
  rw [pay8_apply, whole_read, whole_read, rows_read sc1 hw1 σ.xb _ t (off_4 t), rows_read sc3 hw3 σ.acc _ t (off_4 t)]
  show _ = HyperConv.toMat σ.acc (rowOf t p) q
      + ((∑ j : Fin 4096, Sm m c (rowOf t p) j * HyperConv.toMat σ.yb j q) + HyperConv.toMat σ.xb (rowOf t p) q)
  refine congrArg (fun x => HyperConv.toMat σ.acc (rowOf t p) q + (x + HyperConv.toMat σ.xb (rowOf t p) q))
    (Finset.sum_congr rfl fun k _ => ?_)
  rw [iblk2_apply m c t hq]
  rfl

/-- Phase 4: the current state gets the block's kept rows of the source incidences times the messages, plus its own. -/
theorem stepP4_xb (hq : t.val / 16 = 4) :
    HyperConv.toMat (stepP4 m c t hq σ).xb
      = HyperConv.setRows (t.val % 16) (HyperConv.nextState (toKept σ).sb (toKept σ)) (HyperConv.toMat σ.xb) := by
  unfold stepP4
  dsimp only
  rw [runP4_xb]
  refine toMat_rows_write sc1 hw1 σ.xb _ _ t (off_6 t) _ (fun p q => ?_)
  rw [pay12_apply, whole_read, rows_read sc1 hw1 σ.xb _ t (off_6 t)]
  show _ = (∑ j : Fin 4096, HyperConv.toMat σ.sb (rowOf t p) j * HyperConv.toMat σ.yb j q)
      + HyperConv.toMat σ.xb (rowOf t p) q
  refine congrArg (· + HyperConv.toMat σ.xb (rowOf t p) q) (Finset.sum_congr rfl fun k _ => ?_)
  rw [rows_read sc0 hw0 σ.sb _ t (off_5 t)]
  rfl

/-- Phase 4: the running sum gets its own rows plus the new rows of the current state. -/
theorem stepP4_acc (hq : t.val / 16 = 4) :
    HyperConv.toMat (stepP4 m c t hq σ).acc
      = HyperConv.setRows (t.val % 16)
          (fun r q => (toKept σ).acc r q + HyperConv.nextState (toKept σ).sb (toKept σ) r q) (HyperConv.toMat σ.acc) := by
  unfold stepP4
  dsimp only
  rw [runP4_acc]
  refine toMat_rows_write sc3 hw3 σ.acc _ _ t (off_6 t) _ (fun p q => ?_)
  rw [pay11_apply, whole_read, rows_read sc1 hw1 σ.xb _ t (off_6 t), rows_read sc3 hw3 σ.acc _ t (off_6 t)]
  show _ = HyperConv.toMat σ.acc (rowOf t p) q
      + ((∑ j : Fin 4096, HyperConv.toMat σ.sb (rowOf t p) j * HyperConv.toMat σ.yb j q)
        + HyperConv.toMat σ.xb (rowOf t p) q)
  refine congrArg (fun x => HyperConv.toMat σ.acc (rowOf t p) q + (x + HyperConv.toMat σ.xb (rowOf t p) q))
    (Finset.sum_congr rfl fun k _ => ?_)
  rw [rows_read sc0 hw0 σ.sb _ t (off_5 t)]
  rfl

end

/-! ## The kept arrays after a point of each phase -/

section
variable (c : Dev nD) (t : Fin cfg0.N) (σ : Scr)

theorem toKept_stepP0 (hq : t.val / 16 = 0) :
    toKept (stepP0 m c t hq σ)
      = HyperConv.Kept.mk (HyperConv.toMat σ.sb)
          (HyperConv.setRows (t.val % 16) (X0m m c) (HyperConv.toMat σ.xb)) (HyperConv.toMat σ.yb)
          (HyperConv.setRows (t.val % 16) (X0m m c) (HyperConv.toMat σ.acc)) := by
  conv_lhs => unfold toKept
  rw [stepP0_xb m c t σ hq, stepP0_acc m c t σ hq]
  unfold stepP0
  rfl

theorem toKept_stepPT (hq : t.val / 16 % 2 = 1) :
    toKept (stepPT m c t hq σ)
      = HyperConv.Kept.mk (HyperConv.toMat σ.sb) (HyperConv.toMat σ.xb)
          (HyperConv.setRows (t.val % 16) (HyperConv.mm (Tm m c) (HyperConv.toMat σ.xb)) (HyperConv.toMat σ.yb))
          (HyperConv.toMat σ.acc) := by
  conv_lhs => unfold toKept
  rw [stepPT_yb m c t σ hq]
  unfold stepPT
  rfl

theorem toKept_stepP2 (hq : t.val / 16 = 2) :
    toKept (stepP2 m c t hq σ)
      = HyperConv.Kept.mk (HyperConv.setRows (t.val % 16) (Sm m c) (HyperConv.toMat σ.sb))
          (HyperConv.setRows (t.val % 16) (HyperConv.nextState (Sm m c) (toKept σ)) (HyperConv.toMat σ.xb))
          (HyperConv.toMat σ.yb)
          (HyperConv.setRows (t.val % 16)
            (fun r q => (toKept σ).acc r q + HyperConv.nextState (Sm m c) (toKept σ) r q) (HyperConv.toMat σ.acc)) := by
  conv_lhs => unfold toKept
  rw [stepP2_sb m c t σ hq, stepP2_xb m c t σ hq, stepP2_acc m c t σ hq]
  unfold stepP2
  rfl

theorem toKept_stepP4 (hq : t.val / 16 = 4) :
    toKept (stepP4 m c t hq σ)
      = HyperConv.Kept.mk (HyperConv.toMat σ.sb)
          (HyperConv.setRows (t.val % 16) (HyperConv.nextState (toKept σ).sb (toKept σ)) (HyperConv.toMat σ.xb))
          (HyperConv.toMat σ.yb)
          (HyperConv.setRows (t.val % 16)
            (fun r q => (toKept σ).acc r q + HyperConv.nextState (toKept σ).sb (toKept σ) r q)
            (HyperConv.toMat σ.acc)) := by
  conv_lhs => unfold toKept
  rw [stepP4_xb m c t σ hq, stepP4_acc m c t σ hq]
  unfold stepP4
  rfl

end

/-! ## A point is a step, and the points so far are the steps so far -/

/-- The kept arrays after point `t` are the step `t` of the kept arrays before it. -/
theorem toKept_step (c : Dev nD) (t : Fin cfg0.N) (σ : Scr) :
    toKept (stepScr m c t σ) = HyperConv.step (Sm m c) (Tm m c) (X0m m c) t.val (toKept σ) := by
  have hN : t.val < 112 := lt_of_lt_of_eq t.isLt (show cfg0.N = 112 from N_0)
  by_cases h0 : t.val / 16 = 0
  · rw [stepScr_P0 m c t h0, HyperConv.step_phase0 _ _ _ _ h0, toKept_stepP0 m c t σ h0]
    rfl
  · by_cases hT : t.val / 16 % 2 = 1
    · rw [stepScr_PT m c t hT, HyperConv.step_odd _ _ _ _ hT, toKept_stepPT m c t σ hT]
      rfl
    · by_cases h2 : t.val / 16 = 2
      · rw [stepScr_P2 m c t h2, HyperConv.step_two _ _ _ _ h2, toKept_stepP2 m c t σ h2]
        rfl
      · by_cases h4 : t.val / 16 = 4
        · rw [stepScr_P4 m c t h4, HyperConv.step_four _ _ _ _ h4, toKept_stepP4 m c t σ h4]
          rfl
        · have h6 : t.val / 16 = 6 := by omega
          rw [stepScr_P6 m c t h6, HyperConv.step_six _ _ _ _ h6]

/-- The scratch buffers after `n` points are the kept arrays after `n` steps. -/
theorem keptFact : KeptFact m := by
  intro c σ0 n
  induction n with
  | zero => intro h; rfl
  | succ n ih =>
    intro h
    rw [HyperConv.after_succ, ← ih (Nat.le_of_succ_le h)]
    exact (congrArg toKept (scrAt_succ m c σ0 ⟨n, Nat.lt_of_succ_le h⟩)).trans
      (toKept_step m c ⟨n, Nat.lt_of_succ_le h⟩ (scrAt m c σ0 n (Nat.le_of_succ_le h)))

end Cert.KernelIdeal.Body

end
-- ==== Proof.IdealBody.OutValue.lean ====
/-
  The block the body stores in the last phase is the block of the network's result.

  At a point `t` of the last phase the body stores, at row `p` and column `q` of the result's block, the weight times
  (the running sum + (the kept source incidences' row · the messages' column + the current state)), all taken on row
  `256 (t % 16) + p` of the kept arrays as the points before `t` left them.  Those kept arrays are the kept arrays of the
  step-by-step computation after `t` steps, for which that value is the weighted sum of the four states on the rows of
  block `t % 16`; and the block of the result's array at point `t` is those rows of the weighted sum.
-/
import proofs.«116923_g7430293422642_cont_9to1_m_1024_15_alg».proof.Proof.IdealBody.Kept
import proofs.«116923_g7430293422642_cont_9to1_m_1024_15_alg».proof.Proof.IdealBody.Payloads
import proofs.«116923_g7430293422642_cont_9to1_m_1024_15_alg».proof.Proof.IdealBody.ScratchReads
import proofs.«116923_g7430293422642_cont_9to1_m_1024_15_alg».proof.Proof.StepsValue

set_option maxRecDepth 16384

noncomputable section

open scoped BigOperators

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

local notation "𝕄" => MT nD τ sig Unit (Elt Ideal) ℕ (UR sig nD τ) ℕ

variable (m : (ℓ : Loc nD τ sig) → Buf (Elt Ideal) ℓ)

/-- The block the body stores at a point of the last phase, read back at row `p`, column `q`: the weight times the
    running sum plus the kept source incidences' row times the messages' column plus the current state, all on row
    `256 (t % 16) + p`. -/
theorem stored_block_apply (c : Dev nD) (t : Fin cfg0.N)
    (arg2 : Memref sig .tc .vmem S256x256 .f32) (harg2 : arg2.IsWhole) (arg3 : Memref sig .tc .vmem S256x4096 .f32) (harg3 : arg3.IsWhole)
    (arg4 : Memref sig .tc .vmem S256x4096 .f32) (harg4 : arg4.IsWhole) (arg5 : Memref sig .tc .vmem S256x256 .f32) (harg5 : arg5.IsWhole)
    (arg6 : Memref sig .tc .vmem S4096x4096 .bf16) (harg6 : arg6.IsWhole) (arg7 : Memref sig .tc .vmem S4096x256 .bf16) (harg7 : arg7.IsWhole)
    (arg8 : Memref sig .tc .vmem S4096x256 .bf16) (harg8 : arg8.IsWhole) (arg9 : Memref sig .tc .vmem S4096x256 .bf16) (harg9 : arg9.IsWhole)
    (h1 : ¬c1 (grid0.coords t)) (h2 : ¬c2 (grid0.coords t)) (h3 : ¬c3 (grid0.coords t)) (h4 : ¬c4 (grid0.coords t)) (h5 : c5 (grid0.coords t))
    (x0 : Vec Ideal S256x256 .f32) (x1 x2 : Vec Ideal S256x4096 .f32) (s6 : Vec Ideal S4096x4096 .bf16)
    (s7 s8 s9 : Vec Ideal S4096x256 .bf16) (f : arg5.view.ty.Contents (Elt Ideal)) (p q : Fin 256) :
    arg5.view.read (Elt Ideal) (arg5.view.writes (Elt Ideal) f
        (runP6 (F := Ideal) c (grid0.coords t) arg2 harg2 arg3 harg3 arg4 harg4 arg5 harg5 arg6 harg6 arg7 harg7 arg8 harg8 arg9 harg9
          h1 h2 h3 h4 h5 x0 x1 x2 s6 s7 s8 s9).1) (ix2 p q)
      = Ideal.ofBits .f32 0x3E800000#32
          * (s9 (ix2 (rowOf t p) q) + ((∑ k : Fin 4096, s6 (ix2 (rowOf t p) k) * s8 (ix2 k q)) + s7 (ix2 (rowOf t p) q))) := by
  unfold runP6
  dsimp only
  rw [whole_write_read, pay13_apply, whole_read arg8 harg8]
  simp only [rows_read arg6 harg6 s6 _ t (off_7 t), rows_read arg7 harg7 s7 _ t (off_8 t), rows_read arg9 harg9 s9 _ t (off_8 t)]

/-- What the body stores at a point of the last phase, from the scratch the points before it left, is the block of the
    network's result — given that the scratch after `n` points is the kept arrays after `n` steps. -/
theorem outFact_of (hK : KeptFact m) : OutFact m := by
  intro c t hq σ0 f
  funext y
  obtain ⟨p, q, rfl⟩ : ∃ (p q : Fin 256), y = ix2 p q := ⟨y 0, y 1, eq_ix2 y⟩
  have hN : t.val < 112 := lt_of_lt_of_eq t.isLt (show cfg0.N = 112 from N_0)
  have hrow : 256 * (t.val % 16) ≤ (rowOf t p).val ∧ (rowOf t p).val < 256 * (t.val % 16) + 256 := by
    rw [rowOf_val]; have := p.isLt; omega
  have hw := HyperConv.emit_after (Ideal.ofBits .f32 0x3E800000#32) (Sm m c) (Tm m c) (X0m m c) (toKept σ0) t.val
    (by omega) hN (rowOf t p) q hrow
  rw [← hK c σ0 t.val (Nat.le_of_lt t.isLt)] at hw
  rw [stored_block_apply, blk3_apply c (G m c) t hq p q]
  exact hw

end Cert.KernelIdeal.Body

end
-- ==== Proof.IdealBody.KernelValue.lean ====
/-
  The idealized kernel's run, read: the result's array ends at the network's result `G` of the argument arrays, and the
  argument arrays end unchanged.

  Each of the 16 points of the last phase writes back its block of the result's array, and the blocks cover the array;
  what a point writes back is the block of `G` (the steps' mathematics, through the scratch tracked point by point), so
  the array ends holding `G`.
-/
import proofs.«116923_g7430293422642_cont_9to1_m_1024_15_alg».proof.Proof.IdealBody.TrackRun
import proofs.«116923_g7430293422642_cont_9to1_m_1024_15_alg».proof.Proof.IdealBody.StepValue
import proofs.«116923_g7430293422642_cont_9to1_m_1024_15_alg».proof.Proof.IdealBody.OutValue

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- What the body stores at a point of the last phase is the block of `G`. -/
theorem outFact : OutFact m := outFact_of m (keptFact m)

/-- What a point of the last phase writes back is its block of `G`. -/
theorem flushed3_eq (c : Dev nD) (t : Fin cfg0.N) :
    (dats m 0 c).flushed 3 t = ((cfg0.win 3).blk t).view.read (Elt Ideal) (G m c) := by
  show (cfg0.win 3).cut (grid0.coords t) ((dats m 0 c).after 3 t) = _
  rw [after3]

/-- The result's array after the run: `G`. -/
theorem final3 (c : Dev nD) : (dats m 0 c).arrAt 3 cfg0.N = G m c :=
  (dats m 0 c).arrAt_eq_of_cover 3 (G m c) (fun t _ => flushed3_eq m c t) (cover3 c)

/-- Every weakly fair execution of the idealized kernel terminates with the result's array at `G` and the argument
    arrays unchanged. -/
theorem run : θ_run defs (onTc (τ := τ) (main (F := Ideal))) ⟨m, fun _ => 0, ρ⟩ fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).1 3).trans (final3 m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 1).trans (((dats m 0 c).arrAt_in 1 rfl _).trans ((A_eq m c 1).trans (V_main_arg2 m c)))⟩)
    (run_main m ρ (outFact m))

end Cert.KernelIdeal.Body

end
-- ==== Proof.LibConcatFour.lean ====
/-
  A concatenation of FOUR pieces of one shape along an axis, read at an index: the entry whose coordinate on
  the joined axis is g · K + a (K the pieces' extent on that axis, a < K) is piece g's entry at the same other
  coordinates and at a on the axis.
-/
import Idealize.ShloMosaic.Lib.Pipeline.Value

noncomputable section

namespace ConcatFour

open Idealize.ShloMosaic

variable {α : Type}

/-- Piece `g` of four, read through the concatenation. -/
theorem apply {t s : Shape} (a : Fin t.rank) (x : Fin 4 → s.Idx → α)
    (h : Shape.Concatenates [s, s, s, s] t a) (hr : s.rank = t.rank) (K : Nat) (hK : s.size (a.cast hr.symm) = K)
    (j : t.Idx) (g : Fin 4) (i : s.Idx)
    (hi : ∀ b : Fin s.rank, b.cast hr ≠ a → (i b).val = (j (b.cast hr)).val)
    (ha : g.val * K + (i (a.cast hr.symm)).val = (j a).val) :
    concatenate t a [⟨s, x 0⟩, ⟨s, x 1⟩, ⟨s, x 2⟩, ⟨s, x 3⟩] h j = x g i := by
  have hl : ∀ k, k < 4 → k < ([⟨s, x 0⟩, ⟨s, x 1⟩, ⟨s, x 2⟩, ⟨s, x 3⟩] : List ((s : Shape) × (s.Idx → α))).length := fun k hk => hk
  match g, ha with
  | ⟨0, _⟩, ha =>
    exact concatenate_apply_piece a [⟨s, x 0⟩, ⟨s, x 1⟩, ⟨s, x 2⟩, ⟨s, x 3⟩] h j 0 (hl 0 (by omega)) s (x 0) rfl hr 0 (by simp) i hi (by simpa using ha)
  | ⟨1, _⟩, ha =>
    exact concatenate_apply_piece a [⟨s, x 0⟩, ⟨s, x 1⟩, ⟨s, x 2⟩, ⟨s, x 3⟩] h j 1 (hl 1 (by omega)) s (x 1) rfl hr K (by simp [dif_pos hr, hK]) i hi (by simpa using ha)
  | ⟨2, _⟩, ha =>
    exact concatenate_apply_piece a [⟨s, x 0⟩, ⟨s, x 1⟩, ⟨s, x 2⟩, ⟨s, x 3⟩] h j 2 (hl 2 (by omega)) s (x 2) rfl hr (K + K) (by simp [dif_pos hr, hK]) i hi (by simp at ha; omega)
  | ⟨3, _⟩, ha =>
    exact concatenate_apply_piece a [⟨s, x 0⟩, ⟨s, x 1⟩, ⟨s, x 2⟩, ⟨s, x 3⟩] h j 3 (hl 3 (by omega)) s (x 3) rfl hr (K + K + K) (by simp [dif_pos hr, hK, Nat.add_assoc]) i hi (by simp at ha; omega)

end ConcatFour

end
-- ==== Proof.RefValue.lean ====
/-
  The reference network read at the extended reals is the weighted sum of the four states.

  The reference program forms `T · X` and then `S · (T · X)` by two contractions and adds `X`; it does so three times,
  stacks the four states `X0, X1, X2, X3` along a new leading axis of extent four, sums over that axis starting from
  zero, and divides by four.  Read entry by entry: a contraction is a sum over `Fin 4096` of products, which is the matrix
  product of the specification; the stack read at leading coordinate `k` is the `k`-th state; the sum over `Fin 4` is the
  four states added from the left; zero is neutral; and dividing an extended real by four is multiplying it by a quarter.
-/
import proofs.«116923_g7430293422642_cont_9to1_m_1024_15_alg».proof.Proof.Gen.ReferenceIdeal.Read
import proofs.«116923_g7430293422642_cont_9to1_m_1024_15_alg».proof.Proof.Spec
import proofs.«116923_g7430293422642_cont_9to1_m_1024_15_alg».proof.Proof.LibConcatFour

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The two constants and the law that joins them -/

/-- The word of `4.0` denotes the real `4`. -/
theorem ofBits_four : Ideal.ofBits .f32 0x40800000#32 = ((4 : ℝ) : EReal) := by
  simp [Ideal.ofBits, Ideal.ieee, -EReal.coe_mul]; norm_num

/-- The word of `0.25` denotes the real `1/4`. -/
theorem ofBits_quarter : Ideal.ofBits .f32 0x3E800000#32 = ((1 / 4 : ℝ) : EReal) := by
  simp [Ideal.ofBits, Ideal.ieee, -EReal.coe_mul]; norm_num

/-- Dividing by four is multiplying by a quarter, on every extended real. -/
theorem div_four (x : EReal) :
    Ideal.div x (Ideal.ofBits .f32 0x40800000#32) = Ideal.ofBits .f32 0x3E800000#32 * x := by
  rw [ofBits_four, ofBits_quarter, Ideal.div_coe (by norm_num : (4 : ℝ) ≠ 0), mul_comm]

/-! ## A contraction and a sum of two arrays, as matrices -/

/-- An array whose entry at `i` is the sum over `k` of `A` at row `i 0`, column `k` times `B` at row `k`, column `i 1`
    is the matrix product `A · B`. -/
theorem dot_mat (A : S4096x4096.Idx → EReal) (B v : S4096x256.Idx → EReal)
    (h : ∀ i, v i = ∑ k : Fin 4096, A (lidx_main_v0 i k) * B (ridx_main_v0 i k)) :
    HyperConv.toMat v = HyperConv.mm (HyperConv.toMat A) (HyperConv.toMat B) := by
  funext r c
  show v (ix2 r c) = ∑ k : Fin 4096, A (ix2 r k) * B (ix2 k c)
  rw [h]
  refine Finset.sum_congr rfl fun k _ => ?_
  have el : lidx_main_v0 (ix2 r c) k = ix2 r k := funext fun a => by
    match a with | ⟨0, _⟩ => rfl | ⟨1, _⟩ => rfl
  have er : ridx_main_v0 (ix2 r c) k = ix2 k c := funext fun a => by
    match a with | ⟨0, _⟩ => rfl | ⟨1, _⟩ => rfl
  rw [el, er]

/-- An array whose entry at `i` is the sum of two arrays' entries at `i` is the sum of the two matrices. -/
theorem add_mat (a b v : S4096x256.Idx → EReal) (h : ∀ i, v i = FloatOps.addf (F := Ideal) (φ := .f32) (a i) (b i)) :
    HyperConv.toMat v = fun r c => HyperConv.toMat a r c + HyperConv.toMat b r c := by
  funext r c
  show v (ix2 r c) = a (ix2 r c) + b (ix2 r c)
  rw [h]; rfl

/-! ## The three rounds -/

section Rounds

variable (x0 : (⟨S4096x256, .f32⟩ : BufTy).Contents (Elt Ideal)) (x1 x2 : (⟨S4096x4096, .f32⟩ : BufTy).Contents (Elt Ideal))

/-- `T · X0`. -/
theorem v0_mat : HyperConv.toMat (val_main_v0 (F := Ideal) x0 x2) = HyperConv.mm (HyperConv.toMat x2) (HyperConv.toMat x0) :=
  dot_mat x2 x0 _ (val_main_v0_apply x0 x2)

/-- `S · (T · X0)`. -/
theorem v1_mat : HyperConv.toMat (val_main_v1 (F := Ideal) x0 x1 x2)
    = HyperConv.mm (HyperConv.toMat x1) (HyperConv.mm (HyperConv.toMat x2) (HyperConv.toMat x0)) :=
  (dot_mat x1 (val_main_v0 (F := Ideal) x0 x2) _ (val_main_v1_apply x0 x1 x2)).trans (by rw [v0_mat])

/-- The state after one round. -/
theorem v2_mat : HyperConv.toMat (val_main_v2 (F := Ideal) x0 x1 x2)
    = HyperConv.X1 (HyperConv.toMat x1) (HyperConv.toMat x2) (HyperConv.toMat x0) := by
  rw [add_mat (val_main_v1 (F := Ideal) x0 x1 x2) x0 _ (val_main_v2_apply x0 x1 x2), v1_mat]; rfl

/-- `T · X1`. -/
theorem v3_mat : HyperConv.toMat (val_main_v3 (F := Ideal) x0 x1 x2)
    = HyperConv.mm (HyperConv.toMat x2) (HyperConv.X1 (HyperConv.toMat x1) (HyperConv.toMat x2) (HyperConv.toMat x0)) :=
  (dot_mat x2 (val_main_v2 (F := Ideal) x0 x1 x2) _ (val_main_v3_apply x0 x1 x2)).trans (by rw [v2_mat])

/-- `S · (T · X1)`. -/
theorem v4_mat : HyperConv.toMat (val_main_v4 (F := Ideal) x0 x1 x2)
    = HyperConv.mm (HyperConv.toMat x1)
        (HyperConv.mm (HyperConv.toMat x2) (HyperConv.X1 (HyperConv.toMat x1) (HyperConv.toMat x2) (HyperConv.toMat x0))) :=
  (dot_mat x1 (val_main_v3 (F := Ideal) x0 x1 x2) _ (val_main_v4_apply x0 x1 x2)).trans (by rw [v3_mat])

/-- The state after two rounds. -/
theorem v5_mat : HyperConv.toMat (val_main_v5 (F := Ideal) x0 x1 x2)
    = HyperConv.X2 (HyperConv.toMat x1) (HyperConv.toMat x2) (HyperConv.toMat x0) := by
  rw [add_mat (val_main_v4 (F := Ideal) x0 x1 x2) (val_main_v2 (F := Ideal) x0 x1 x2) _ (val_main_v5_apply x0 x1 x2),
    v4_mat, v2_mat]; rfl

/-- `T · X2`. -/
theorem v6_mat : HyperConv.toMat (val_main_v6 (F := Ideal) x0 x1 x2)
    = HyperConv.mm (HyperConv.toMat x2) (HyperConv.X2 (HyperConv.toMat x1) (HyperConv.toMat x2) (HyperConv.toMat x0)) :=
  (dot_mat x2 (val_main_v5 (F := Ideal) x0 x1 x2) _ (val_main_v6_apply x0 x1 x2)).trans (by rw [v5_mat])

/-- `S · (T · X2)`. -/
theorem v7_mat : HyperConv.toMat (val_main_v7 (F := Ideal) x0 x1 x2)
    = HyperConv.mm (HyperConv.toMat x1)
        (HyperConv.mm (HyperConv.toMat x2) (HyperConv.X2 (HyperConv.toMat x1) (HyperConv.toMat x2) (HyperConv.toMat x0))) :=
  (dot_mat x1 (val_main_v6 (F := Ideal) x0 x1 x2) _ (val_main_v7_apply x0 x1 x2)).trans (by rw [v6_mat])

/-- The state after three rounds. -/
theorem v8_mat : HyperConv.toMat (val_main_v8 (F := Ideal) x0 x1 x2)
    = HyperConv.X3 (HyperConv.toMat x1) (HyperConv.toMat x2) (HyperConv.toMat x0) := by
  rw [add_mat (val_main_v7 (F := Ideal) x0 x1 x2) (val_main_v5 (F := Ideal) x0 x1 x2) _ (val_main_v8_apply x0 x1 x2),
    v7_mat, v5_mat]; rfl

/-! ## The stack of the four states and its sum -/

/-- The four pieces of the stack, by their place on the leading axis. -/
def pieces : Fin 4 → S1x4096x256.Idx → EReal := fun g => match g with
  | ⟨0, _⟩ => val_main_v9 (F := Ideal) x0
  | ⟨1, _⟩ => val_main_v10 (F := Ideal) x0 x1 x2
  | ⟨2, _⟩ => val_main_v11 (F := Ideal) x0 x1 x2
  | ⟨3, _⟩ => val_main_v12 (F := Ideal) x0 x1 x2

/-- The stack read at leading coordinate `k`, row `r`, column `c` is the `k`-th piece at row `r`, column `c`. -/
theorem stack_at (r : Fin 4096) (c : Fin 256) (k : Fin 4) :
    val_main_v13 (F := Ideal) x0 x1 x2 (idx_main_v14 (ix2 r c) k) = pieces x0 x1 x2 k (ix3 (0 : Fin 1) r c) := by
  unfold val_main_v13
  exact ConcatFour.apply (0 : Fin S4x4096x256.rank) (pieces x0 x1 x2)
    concatenates_S1x4096x256_S1x4096x256_S1x4096x256_S1x4096x256_S4x4096x256_d0 rfl 1 rfl
    (idx_main_v14 (ix2 r c) k) k (ix3 (0 : Fin 1) r c)
    (fun b hb => by
      match b, hb with
      | ⟨0, _⟩, hb => exact absurd rfl hb
      | ⟨1, _⟩, _ => rfl
      | ⟨2, _⟩, _ => rfl)
    (by show k.val * 1 + 0 = k.val; omega)

theorem idx9 (z : Fin 1) (r : Fin 4096) (c : Fin 256) : idx_main_v9 (ix3 z r c) = ix2 r c :=
  funext fun a => by match a with | ⟨0, _⟩ => rfl | ⟨1, _⟩ => rfl
theorem idx10 (z : Fin 1) (r : Fin 4096) (c : Fin 256) : idx_main_v10 (ix3 z r c) = ix2 r c :=
  funext fun a => by match a with | ⟨0, _⟩ => rfl | ⟨1, _⟩ => rfl
theorem idx11 (z : Fin 1) (r : Fin 4096) (c : Fin 256) : idx_main_v11 (ix3 z r c) = ix2 r c :=
  funext fun a => by match a with | ⟨0, _⟩ => rfl | ⟨1, _⟩ => rfl
theorem idx12 (z : Fin 1) (r : Fin 4096) (c : Fin 256) : idx_main_v12 (ix3 z r c) = ix2 r c :=
  funext fun a => by match a with | ⟨0, _⟩ => rfl | ⟨1, _⟩ => rfl

/-- The sum over the leading axis is the four states added from the left. -/
theorem sum_stack (r : Fin 4096) (c : Fin 256) :
    ∑ k : Fin 4, val_main_v13 (F := Ideal) x0 x1 x2 (idx_main_v14 (ix2 r c) k)
      = ((HyperConv.toMat x0 r c + HyperConv.X1 (HyperConv.toMat x1) (HyperConv.toMat x2) (HyperConv.toMat x0) r c)
          + HyperConv.X2 (HyperConv.toMat x1) (HyperConv.toMat x2) (HyperConv.toMat x0) r c)
          + HyperConv.X3 (HyperConv.toMat x1) (HyperConv.toMat x2) (HyperConv.toMat x0) r c := by
  rw [Fin.sum_univ_four, stack_at, stack_at, stack_at, stack_at, ← v2_mat, ← v5_mat, ← v8_mat]
  show val_main_v9 (F := Ideal) x0 (ix3 (0 : Fin 1) r c) + val_main_v10 (F := Ideal) x0 x1 x2 (ix3 (0 : Fin 1) r c)
      + val_main_v11 (F := Ideal) x0 x1 x2 (ix3 (0 : Fin 1) r c) + val_main_v12 (F := Ideal) x0 x1 x2 (ix3 (0 : Fin 1) r c) = _
  rw [val_main_v9_apply, val_main_v10_apply, val_main_v11_apply, val_main_v12_apply, idx9, idx10, idx11, idx12]
  rfl

end Rounds

/-! ## The result -/

/-- The reference program's result, read at the extended reals, is the weighted sum of the four states with the weight
    the word of `0.25`. -/
theorem reference_result (x0 : (⟨S4096x256, .f32⟩ : BufTy).Contents (Elt Ideal))
    (x1 x2 : (⟨S4096x4096, .f32⟩ : BufTy).Contents (Elt Ideal)) :
    Cert.ReferenceIdeal.Read.val_main_v16 (F := Ideal) x0 x1 x2
      = HyperConv.result (Ideal.ofBits .f32 0x3E800000#32) x0 x1 x2 := by
  funext i
  obtain ⟨r, c, rfl⟩ : ∃ (r : Fin 4096) (c : Fin 256), i = ix2 r c := ⟨i 0, i 1, eq_ix2 i⟩
  rw [val_main_v16_apply, val_main_v15_apply, val_main_cst_0_apply, val_main_v14_apply, val_main_cst_apply,
    Ideal.hostDivf_def, Ideal.ofBits_def, Ideal.ofBits_def, Ideal.ofBits_zero_f32, zero_add, sum_stack, div_four]
  rfl

end Cert.ReferenceIdeal.RefValue

end
-- ==== Proof.lean ====
/-
  A three-round directed hypergraph convolution and the mean of its four states: the kernel against the reference.

  With `T` the target incidences, `S` the source incidences and `X0` the node states, a round is `X ↦ S · (T · X) + X`;
  the network returns the mean of `X0, X1, X2, X3`.  The reference stacks the four states, sums them from zero and
  divides by 4.  The kernel computes the same in 112 grid points — 7 phases over 16 blocks of 256 rows — keeping four
  arrays in scratch between points: it copies `X0`, forms the messages `T · X` block by block in the odd phases, forms
  `S · (T · X) + X` block by block in the even ones (keeping `S` the first time it streams it), accumulates the states,
  and in the last phase writes `0.25 · (((X0 + X1) + X2) + X3)` block by block.

  Over the extended reals the two results are one function of the arguments, index by index: the same products and sums
  in the same grouping, a sum of four terms regrouped (addition there is commutative and associative), and division by
  4 is multiplication by 1/4 — no entry needs to be finite, so the precondition is not opened.

  The frames: the word-level kernel runs at every point whatever its scratch and its result's window hold (nothing is
  said of them), and only reads its input windows; the idealized kernel's frame is its value run with the result dropped;
  the reference's is its run with the result dropped.  The ideal pass rewrote nothing, so `preserves` has nothing to state.
-/
import proofs.«116923_g7430293422642_cont_9to1_m_1024_15_alg».proof.Defs
import proofs.«116923_g7430293422642_cont_9to1_m_1024_15_alg».proof.Proof.Gen.Kernel
import proofs.«116923_g7430293422642_cont_9to1_m_1024_15_alg».proof.Proof.Gen.KernelIdeal
import proofs.«116923_g7430293422642_cont_9to1_m_1024_15_alg».proof.Proof.Gen.ReferenceIdeal
import proofs.«116923_g7430293422642_cont_9to1_m_1024_15_alg».proof.Proof.Gen.Pre_finite_inputs
import proofs.«116923_g7430293422642_cont_9to1_m_1024_15_alg».proof.Proof.Gen.ReferenceIdeal.Run
import proofs.«116923_g7430293422642_cont_9to1_m_1024_15_alg».proof.Proof.Gen.ReferenceIdeal.Read
import proofs.«116923_g7430293422642_cont_9to1_m_1024_15_alg».proof.Proof.BitsBody.Frame
import proofs.«116923_g7430293422642_cont_9to1_m_1024_15_alg».proof.Proof.IdealBody.KernelValue
import proofs.«116923_g7430293422642_cont_9to1_m_1024_15_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_p [Cert.Kernel.Facts] [Cert.Pre_finite_inputs.Facts] : Cert.frame_Kernel :=
  fun m ρ _ => Cert.Kernel.Body.frame (F := Bits) m ρ

/-- The idealized kernel's frame: its value run, the result dropped. -/
theorem frame_pi [Cert.KernelIdeal.Facts] [Cert.Pre_finite_inputs.Facts] : Cert.frame_KernelIdeal :=
  fun m ρ _ => (θ_run Cert.KernelIdeal.defs _ _).mono (fun _ h c => (h c).2) (Cert.KernelIdeal.Body.run m ρ)

/-- The reference's frame: its run, the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- Both idealized programs end with the network's result of arguments that agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Body.G m c, Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v16_eq _ _ _).trans ((Cert.ReferenceIdeal.RefValue.reference_result _ _ _).trans ?_)
  rw [(hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
